-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v0)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_arg8 : FVec F S64x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S512x64 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S512x64 .f32 := Host.absf main_arg6
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x512 .f32) (main_arg2 : FVec F S512x64 .f32) (main_arg3 : FVec F S64 .f32) (main_arg4 : FVec F S64x64 .f32) (main_arg5 : FVec F S64 .f32) (main_arg6 : FVec F S512x64 .f32) (main_arg7 : FVec F S64 .f32) (main_arg8 : FVec F S64x64 .f32) (main_arg9 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S8192x512 : Shape := ⟨2, ![8192, 512]⟩
abbrev S512x64 : Shape := ⟨2, ![512, 64]⟩
abbrev S64 : Shape := ⟨1, ![64]⟩
abbrev S64x64 : Shape := ⟨2, ![64, 64]⟩
abbrev S8192x64 : Shape := ⟨2, ![8192, 64]⟩
abbrev S1024x512 : Shape := ⟨2, ![1024, 512]⟩
abbrev S1024x64 : Shape := ⟨2, ![1024, 64]⟩
abbrev S1x64 : Shape := ⟨2, ![1, 64]⟩
abbrev S64x8192 : Shape := ⟨2, ![64, 8192]⟩
abbrev S1x1 : Shape := ⟨2, ![1, 1]⟩
abbrev S64x1024 : Shape := ⟨2, ![64, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩
abbrev S_ : Shape := ⟨0, ![]⟩

abbrev nBuf : Space → Nat
  | .hbm => 30
  | .vmem => 34
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S512x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S8192x64, .f32⟩
  | .hbm, ⟨11, _⟩ => ⟨S8192x64, .f32⟩
  | .hbm, ⟨12, _⟩ => ⟨S64x8192, .f32⟩
  | .hbm, ⟨13, _⟩ => ⟨S64x8192, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S1024x64, .f32⟩
  | .local _ .vmem, ⟨7, _⟩ => ⟨S1024x64, .f32⟩
  | .local _ .vmem, ⟨8, _⟩ => ⟨S1024x512, .f32⟩
  | .local _ .vmem, ⟨9, _⟩ => ⟨S1024x512, .f32⟩
  | .local _ .vmem, ⟨10, _⟩ => ⟨S512x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S64x1024, .f32⟩
  | .local _ .vmem, ⟨19, _⟩ => ⟨S64x1024, .f32⟩
  | .local _ .vmem, ⟨20, _⟩ => ⟨S1x1, .f32⟩
  | .local _ .vmem, ⟨21, _⟩ => ⟨S1x1, .f32⟩
  | .local _ .vmem, ⟨22, _⟩ => ⟨S1024x64, .f32⟩
  | .local _ .vmem, ⟨23, _⟩ => ⟨S1024x64, .f32⟩
  | .local _ .vmem, ⟨24, _⟩ => ⟨S64x1024, .f32⟩
  | .local _ .vmem, ⟨25, _⟩ => ⟨S64x1024, .f32⟩
  | .local _ .vmem, ⟨26, _⟩ => ⟨S1x1, .f32⟩
  | .local _ .vmem, ⟨27, _⟩ => ⟨S1x1, .f32⟩
  | .local _ .vmem, ⟨28, _⟩ => ⟨S1024x64, .f32⟩
  | .local _ .vmem, ⟨29, _⟩ => ⟨S1024x64, .f32⟩
  | .local _ .vmem, ⟨30, _⟩ => ⟨S64x1024, .f32⟩
  | .local _ .vmem, ⟨31, _⟩ => ⟨S64x1024, .f32⟩
  | .local _ .vmem, ⟨32, _⟩ => ⟨S1x1, .f32⟩
  | .local _ .vmem, ⟨33, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![8, 8], ![false, false]⟩

def k2_cond2 (i : grid2.Coords) : BitVec 1 :=
  let arg0 : BitVec 32 := BitVec.ofNat 32 (i 0).val
  let c7_i32 : BitVec 32 := 7#32
  let v40 : BitVec 1 := Scalar.cmpi .eq arg0 c7_i32
  let arg1 : BitVec 32 := BitVec.ofNat 32 (i 1).val
  let c7_i32_17 : BitVec 32 := 7#32
  let v41 : BitVec 1 := Scalar.cmpi .eq arg1 c7_i32_17
  let v42 : BitVec 1 := Scalar.andi v40 v41
  let v43 : BitVec 32 := Scalar.extui v42
  let c0_i32_18 : BitVec 32 := 0#32
  let v44 : BitVec 1 := Scalar.cmpi .ne v43 c0_i32_18
  v44

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev grid3 : Pipeline.Grid := ⟨2, ![8, 8], ![false, false]⟩

def k3_cond2 (i : grid3.Coords) : BitVec 1 :=
  let arg0 : BitVec 32 := BitVec.ofNat 32 (i 0).val
  let c7_i32 : BitVec 32 := 7#32
  let v40 : BitVec 1 := Scalar.cmpi .eq arg0 c7_i32
  let arg1 : BitVec 32 := BitVec.ofNat 32 (i 1).val
  let c7_i32_17 : BitVec 32 := 7#32
  let v41 : BitVec 1 := Scalar.cmpi .eq arg1 c7_i32_17
  let v42 : BitVec 1 := Scalar.andi v40 v41
  let v43 : BitVec 32 := Scalar.extui v42
  let c0_i32_18 : BitVec 32 := 0#32
  let v44 : BitVec 1 := Scalar.cmpi .ne v43 c0_i32_18
  v44

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S64x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev grid4 : Pipeline.Grid := ⟨2, ![8, 8], ![false, false]⟩

def k4_cond2 (i : grid4.Coords) : BitVec 1 :=
  let arg0 : BitVec 32 := BitVec.ofNat 32 (i 0).val
  let c7_i32 : BitVec 32 := 7#32
  let v40 : BitVec 1 := Scalar.cmpi .eq arg0 c7_i32
  let arg1 : BitVec 32 := BitVec.ofNat 32 (i 1).val
  let c7_i32_17 : BitVec 32 := 7#32
  let v41 : BitVec 1 := Scalar.cmpi .eq arg1 c7_i32_17
  let v42 : BitVec 1 := Scalar.andi v40 v41
  let v43 : BitVec 32 := Scalar.extui v42
  let c0_i32_18 : BitVec 32 := 0#32
  let v44 : BitVec 1 := Scalar.cmpi .ne v43 c0_i32_18
  v44

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S64x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  transposes_S8192x64_S64x8192_1_0 : S8192x64.Transposes [1, 0] S64x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S1024x64_S1024 : S1024x64.Reduces [1] S1024
  shapeCasts_S1024_S1024x1 : S1024.ShapeCasts S1024x1
  reduces_S64x1024_S1024 : S64x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x512_S512x64_S1024x64_1_0_0_1_n_n_wf : DotDims.WF S1024x512 S512x64 S1024x64 [1] [0] [0] [1] [] []
  dot_S1024x64_S64x64_S1024x64_1_0_0_1_n_n_wf : DotDims.WF S1024x64 S64x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S8192x64.size a
  hwx0_5 : ∀ i : grid0.Coords, EltTy.bits .f32 = 32 ∨ (Rect.block (s := S8192x64) S1024x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S64x8192.size a
  hwx2_1 : ∀ i : grid2.Coords, EltTy.bits .f32 = 32 ∨ (Rect.block (s := S64x8192) S64x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S8192x64.size a
  hwx3_0 : ∀ i : grid3.Coords, EltTy.bits .f32 = 32 ∨ (Rect.block (s := S8192x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x1024.size a ≤ S64x8192.size a
  hwx3_1 : ∀ i : grid3.Coords, EltTy.bits .f32 = 32 ∨ (Rect.block (s := S64x8192) S64x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S8192x64.size a
  hwx4_0 : ∀ i : grid4.Coords, EltTy.bits .f32 = 32 ∨ (Rect.block (s := S8192x64) S1024x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x1024.size a ≤ S64x8192.size a
  hwx4_1 : ∀ i : grid4.Coords, EltTy.bits .f32 = 32 ∨ (Rect.block (s := S64x8192) S64x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v1) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S64x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x1.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v0) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S64x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x1.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S512x64 : Shape := ⟨2, ![512, 64]⟩
abbrev S64 : Shape := ⟨1, ![64]⟩
abbrev S64x64 : Shape := ⟨2, ![64, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 123
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S512x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S8192x64, .f32⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x64, .f32⟩
  | .hbm, ⟨37, _⟩ => ⟨S_, .f32⟩
  | .hbm, ⟨38, _⟩ => ⟨S8192, .f32⟩
  | .hbm, ⟨39, _⟩ => ⟨S1x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S64x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x64, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x64, .f32⟩
  | .hbm, ⟨66, _⟩ => ⟨S_, .f32⟩
  | .hbm, ⟨67, _⟩ => ⟨S8192, .f32⟩
  | .hbm, ⟨68, _⟩ => ⟨S1x8192, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S64x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S8192x64, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x64, .f32⟩
  | .hbm, ⟨95, _⟩ => ⟨S_, .f32⟩
  | .hbm, ⟨96, _⟩ => ⟨S8192, .f32⟩
  | .hbm, ⟨97, _⟩ => ⟨S1x8192, .f32⟩
  | .hbm, ⟨98, _⟩ => ⟨S8192x8192, .f32⟩
  | .hbm, ⟨99, _⟩ => ⟨S8192x8192, .f32⟩
  | .hbm, ⟨100, _⟩ => ⟨S8192x8192, .f32⟩
  | .hbm, ⟨101, _⟩ => ⟨S64x8192, .f32⟩
  | .hbm, ⟨102, _⟩ => ⟨S8192x8192, .f32⟩
  | .hbm, ⟨103, _⟩ => ⟨S_, .f32⟩
  | .hbm, ⟨104, _⟩ => ⟨S8192x8192, .f32⟩
  | .hbm, ⟨105, _⟩ => ⟨S8192x8192, .f32⟩
  | .hbm, ⟨106, _⟩ => ⟨S8192x8192, .f32⟩
  | .hbm, ⟨107, _⟩ => ⟨S_, .f32⟩
  | .hbm, ⟨108, _⟩ => ⟨S8192x8192, .f32⟩
  | .hbm, ⟨109, _⟩ => ⟨S8192x8192, .f32⟩
  | .hbm, ⟨110, _⟩ => ⟨S8192x8192, .f32⟩
  | .hbm, ⟨111, _⟩ => ⟨S_, .f32⟩
  | .hbm, ⟨112, _⟩ => ⟨S8192x8192, .f32⟩
  | .hbm, ⟨113, _⟩ => ⟨S8192x8192, .f32⟩
  | .hbm, ⟨114, _⟩ => ⟨S8192x8192, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_v84 : Ref sig .tc := ⟨.hbm, 119, rfl⟩
abbrev main_cst_20 : Ref sig .tc := ⟨.hbm, 120, rfl⟩
abbrev main_v85 : Ref sig .tc := ⟨.hbm, 121, rfl⟩
abbrev main_v86 : Ref sig .tc := ⟨.hbm, 122, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x512_S512x64_S8192x64_1_0_0_1_n_n_wf : DotDims.WF S8192x512 S512x64 S8192x64 [1] [0] [0] [1] [] []
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Region0.lean ====
/-
  Region 0 of the program: the two-layer map on one band of 1024 rows per grid point.
  At a parameter V (what the buffers hold when the region is entered): the block each window shows the body at a
  point, what the body's one store leaves in the output's staging buffer as a function of the five input blocks,
  the body's triple, the region's proof data and its body obligation at every point.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer shows its block at every point, fetched there or not (the block index
    does not move between fetches), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer shows its block at every point, fetched there or not (the block index
    does not move between fetches), for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer shows its block at every point, fetched there or not (the block index
    does not move between fetches), for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer shows its block at every point, fetched there or not (the block index
    does not move between fetches), for any proof data over `V`'s arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer shows its block at every point, fetched there or not (the block index
    does not move between fetches), for any proof data over `V`'s arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S1024x512 := Rect.unit (s := S1024x512) ![0, 0] S1024x512.size inb_S1024x512_S1024x512_0_0
abbrev rW1_0 : Rect S512x64 := Rect.unit (s := S512x64) ![0, 0] S512x64.size inb_S512x64_S512x64_0_0
abbrev rB0 : Rect S64 := Rect.unit (s := S64) ![0] S64.size inb_S64_S64_0
abbrev rW2_0 : Rect S64x64 := Rect.unit (s := S64x64) ![0, 0] S64x64.size inb_S64x64_S64x64_0_0
abbrev rO0 : Rect S1024x64 := Rect.unit (s := S1024x64) ![0, 0] S1024x64.size inb_S1024x64_S1024x64_0_0

/-- The output's staging buffer after the body: its one store, of the two-layer map of the five loaded blocks. -/
def out0_5 (x0 : Vec F S1024x512 .f32) (x1 : Vec F S512x64 .f32) (x2 : Vec F S64 .f32) (x3 : Vec F S64x64 .f32) (x4 : Vec F S64 .f32) : Vec F S1024x64 .f32 :=
  View.canon [⟨rO0, k0_pay1 (View.ld x0 rX0) (View.ld x1 rW1_0) (View.ld x2 rB0) (View.ld x3 rW2_0) (View.ld x4 rB0)⟩]

/-- The one store is of the whole buffer, so it covers it. -/
theorem cover0_5 (p0 : Vec F S1024x64 .f32) (y : S1024x64.Idx) :
    ∃ pc ∈ ([⟨rO0, p0⟩] : List (View.Piece (Elt F) S1024x64 .f32)), y ∈ pc.1.set :=
  View.cover_of_tiled [⟨rO0, p0⟩] S1024x64.size (by rfl) y

set_option maxHeartbeats 4000000 in
/-- The body on whole staging memrefs, the five inputs' at read contents and the output's at anything, runs to the
    continuation holding the inputs' as they were and the output's at `out0_5` of them. -/
theorem sound_kernel0 (c : Dev nD) (E : Set ℕ) (i : grid0.Coords)
    (arg1 : Memref sig .tc .vmem S1024x512 .f32) (harg1 : arg1.IsWhole) (arg2 : Memref sig .tc .vmem S512x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S1024x64 .f32) (harg6 : arg6.IsWhole)
    (x0 : Vec F S1024x512 .f32) (x1 : Vec F S512x64 .f32) (x2 : Vec F S64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core `c`: the arrays as the region finds them; after the body at point `t` each input's
    buffer at its block and the output's at `out0_5` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program: the two-layer map on one band of 1024 rows per grid point.
  At a parameter V (what the buffers hold when the region is entered): the block each window shows the body at a
  point, what the body's one store leaves in the output's staging buffer as a function of the five input blocks,
  the body's triple, the region's proof data and its body obligation at every point.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer shows its block at every point, fetched there or not (the block index
    does not move between fetches), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer shows its block at every point, fetched there or not (the block index
    does not move between fetches), for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer shows its block at every point, fetched there or not (the block index
    does not move between fetches), for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer shows its block at every point, fetched there or not (the block index
    does not move between fetches), for any proof data over `V`'s arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer shows its block at every point, fetched there or not (the block index
    does not move between fetches), for any proof data over `V`'s arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S1024x512 := Rect.unit (s := S1024x512) ![0, 0] S1024x512.size inb_S1024x512_S1024x512_0_0
abbrev rW1_1 : Rect S512x64 := Rect.unit (s := S512x64) ![0, 0] S512x64.size inb_S512x64_S512x64_0_0
abbrev rB1 : Rect S64 := Rect.unit (s := S64) ![0] S64.size inb_S64_S64_0
abbrev rW2_1 : Rect S64x64 := Rect.unit (s := S64x64) ![0, 0] S64x64.size inb_S64x64_S64x64_0_0
abbrev rO1 : Rect S1024x64 := Rect.unit (s := S1024x64) ![0, 0] S1024x64.size inb_S1024x64_S1024x64_0_0

/-- The output's staging buffer after the body: its one store, of the two-layer map of the five loaded blocks. -/
def out1_5 (x0 : Vec F S1024x512 .f32) (x1 : Vec F S512x64 .f32) (x2 : Vec F S64 .f32) (x3 : Vec F S64x64 .f32) (x4 : Vec F S64 .f32) : Vec F S1024x64 .f32 :=
  View.canon [⟨rO1, k1_pay1 (View.ld x0 rX1) (View.ld x1 rW1_1) (View.ld x2 rB1) (View.ld x3 rW2_1) (View.ld x4 rB1)⟩]

/-- The one store is of the whole buffer, so it covers it. -/
theorem cover1_5 (p0 : Vec F S1024x64 .f32) (y : S1024x64.Idx) :
    ∃ pc ∈ ([⟨rO1, p0⟩] : List (View.Piece (Elt F) S1024x64 .f32)), y ∈ pc.1.set :=
  View.cover_of_tiled [⟨rO1, p0⟩] S1024x64.size (by rfl) y

set_option maxHeartbeats 4000000 in
/-- The body on whole staging memrefs, the five inputs' at read contents and the output's at anything, runs to the
    continuation holding the inputs' as they were and the output's at `out1_5` of them. -/
theorem sound_kernel1 (c : Dev nD) (E : Set ℕ) (i : grid1.Coords)
    (arg1 : Memref sig .tc .vmem S1024x512 .f32) (harg1 : arg1.IsWhole) (arg2 : Memref sig .tc .vmem S512x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S1024x64 .f32) (harg6 : arg6.IsWhole)
    (x0 : Vec F S1024x512 .f32) (x1 : Vec F S512x64 .f32) (x2 : Vec F S64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer at its block and the output's at `out1_5` of the input blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2Base.lean ====
/-
  Region 2 of the program: one pass over the 8 x 8 grid of 1024 x 1024 tiles of pairs of feature rows, a running total
  kept in a one-word scratch between grid points. What the three control cases of the body share: the block each window
  shows the body at a point; the two conditions of the body (the reset at the first point, the store of the total at the last)
  in closed form over the grid; where the output window is idle; the staging and scratch memrefs; the class invariant with
  the scratch word named.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer shows its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer shows its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The reset's condition (both grid coordinates zero), as the body computes it from the coordinates. -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The final store's condition (both grid coordinates 7). -/
abbrev cond2_1 (i : grid2.Coords) : Prop := k2_cond2 i = 1#1
/-- It holds at the last point only. -/
theorem hcond2_1 : ∀ t : Fin cfg2.N, cond2_1 (grid2.coords t) ↔ t.val = 63 :=
  (by decide +kernel : ∀ t : Fin grid2.N, cond2_1 (grid2.coords t) ↔ t.val = 63)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the final store's condition fails the output is idle and not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it holds the output is live. -/
theorem liveAt2_2 : ∀ t : Fin cfg2.N, cond2_1 (grid2.coords t) → cfg2.idle 2 (grid2.coords t) = false := by decide +kernel

/-- One staging buffer of the output window, through which its contents are stated. -/
abbrev VO2_2 : View sig .tc .vmem S1x1 .f32 := (Memref.whole cc2_stg2_0 : Memref sig .tc .vmem S1x1 .f32).view
/-- Each window's current staging memref at point `t`, as the pipeline passes it, and its wholeness. -/
abbrev ms2_0 (t : Fin cfg2.N) : Memref sig .tc .vmem S1024x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The scratch word the kernel carries between points, as a memref and as a view. -/
abbrev scM2 : Memref sig .tc .vmem S1x1 .f32 := Memref.whole cc2_scratch0
abbrev VS2 : View sig .tc .vmem S1x1 .f32 := scM2.view

/-- The class invariant with the scratch word owned at some contents, the other scoped buffers unopened. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Hand

end
-- ==== Proof.K.Region2RunA.lean ====
/-
  Region 2, control case A of the body (the first point: the running total is reset, then the tile's total added; nothing stored to the output):
  the body's triple on whole staging memrefs, with the pieces its stores leave in the scratch word found by running it.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at anything, the body runs to the
    continuation holding the inputs' as they were and the scratch with its pieces written. -/
noncomputable def kernelRun2_A (c : Dev nD) (i : grid2.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : cond2_0 i) (hc1 : ¬cond2_1 i)
    (x0 : Vec F S1024x64 .f32) (x1 : Vec F S64x1024 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Region2RunB.lean ====
/-
  Region 2, control case B of the body (a middle point: the tile's total added to the running total; nothing stored to the output):
  the body's triple on whole staging memrefs, with the pieces its stores leave in the scratch word found by running it.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at what the point before left, the body runs to the
    continuation holding the inputs' as they were and the scratch with its pieces written. -/
noncomputable def kernelRun2_B (c : Dev nD) (i : grid2.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond2_0 i) (hc1 : ¬cond2_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Region2RunC.lean ====
/-
  Region 2, control case C of the body (the last point: the tile's total added to the running total, and the total stored to the output):
  the body's triple on whole staging memrefs, with the pieces its stores leave in the scratch word and in the output found by running it.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the output's at anything and the scratch at what the point before left, the body runs to the
    continuation holding the inputs' as they were, the output's with its pieces written and the scratch with its pieces written. -/
noncomputable def kernelRun2_C (c : Dev nD) (i : grid2.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond2_0 i) (hc1 : cond2_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Hand

end
-- ==== Proof.K.Region2Body.lean ====
/-
  Region 2: what the scratch word and the output's staging buffer hold after each grid point (by recursion on the
  point: the first point resets the running total and adds its tile, every later point adds its tile to what the point
  before left, the last point also stores the total to the output), the region's proof data with the invariant naming the
  scratch word's contents, and the body obligation at every point.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region2RunA
import proofs.«105377_j36833639530798_1_alg».proof.Proof.K.Region2RunB
import proofs.«105377_j36833639530798_1_alg».proof.Proof.K.Region2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out2_A_2 (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 : Vec F S1024x64 .f32) (x1 : Vec F S64x1024 .f32) : Vec F S1x1 .f32 :=
  VO2_2.read (Elt F) (VO2_2.writes (Elt F) VO2_2.junk (kernelRun2_A c i arg2 harg2 arg3 harg3 arg4 harg4 arg5 harg5 hc0 hc1 x0 x1).1)

/-- Case A's stores into the scratch word cover it. -/
theorem scover2_A (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 : Vec F S1024x64 .f32) (x1 : Vec F S64x1024 .f32) (y : S1x1.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1x1.size (by sl_kernel_rfl) y

/-- What case A leaves in the scratch word: its pieces read back. -/
def sout2_A (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 : Vec F S1024x64 .f32) (x1 : Vec F S64x1024 .f32) : Vec F S1x1 .f32 :=
  VS2.read (Elt F) (VS2.writes (Elt F) VS2.junk (kernelRun2_A c i arg2 harg2 arg3 harg3 arg4 harg4 arg5 harg5 hc0 hc1 x0 x1).2.1)

/-- What case B leaves in the output's staging buffer: its pieces read back (none: a placeholder nothing consults, the window being idle there). -/
def out2_B_2 (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 : Vec F S1024x64 .f32) (x1 : Vec F S64x1024 .f32) (xs0 : Vec F S1x1 .f32) : Vec F S1x1 .f32 :=
  VO2_2.read (Elt F) (VO2_2.writes (Elt F) VO2_2.junk (kernelRun2_B c i arg2 harg2 arg3 harg3 arg4 harg4 arg5 harg5 hc0 hc1 x0 x1 xs0).1)

/-- Case B's stores into the scratch word cover it. -/
theorem scover2_B (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 : Vec F S1024x64 .f32) (x1 : Vec F S64x1024 .f32) (xs0 : Vec F S1x1 .f32) (y : S1x1.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1x1.size (by sl_kernel_rfl) y

/-- What case B leaves in the scratch word: its pieces read back. -/
def sout2_B (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 : Vec F S1024x64 .f32) (x1 : Vec F S64x1024 .f32) (xs0 : Vec F S1x1 .f32) : Vec F S1x1 .f32 :=
  VS2.read (Elt F) (VS2.writes (Elt F) VS2.junk (kernelRun2_B c i arg2 harg2 arg3 harg3 arg4 harg4 arg5 harg5 hc0 hc1 x0 x1 xs0).2.1)

/-- What case C leaves in the output's staging buffer: its pieces read back. -/
def out2_C_2 (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) : Vec F S1x1 .f32 :=
  VO2_2.read (Elt F) (VO2_2.writes (Elt F) VO2_2.junk (kernelRun2_C c i arg2 harg2 arg3 harg3 arg4 harg4 arg5 harg5 hc0 hc1 x0 x1 xs0).1)

/-- Case C's stores into the scratch word cover it. -/
theorem scover2_C (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) (y : S1x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x1.size (by sl_kernel_rfl) y

/-- What case C leaves in the scratch word: its pieces read back. -/
def sout2_C (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) : Vec F S1x1 .f32 :=
  VS2.read (Elt F) (VS2.writes (Elt F) VS2.junk (kernelRun2_C c i arg2 harg2 arg3 harg3 arg4 harg4 arg5 harg5 hc0 hc1 x0 x1 xs0).2.1)

/-- Case C's store into the output covers it. -/
theorem cover2_C_2 (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) (y : S1x1.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x1.size (by sl_kernel_rfl) y

/-- THE ACCUMULATION: the output's staging buffer and the scratch word after the body at position `n` (a pair: output,
    scratch): the case the closed forms select at `n`, run at the point's memrefs and input blocks, the scratch the case
    reads at what this leaves at `n - 1`. -/
def outsAt2 (c : Dev nD) : (n : ℕ) → n < cfg2.N → Vec F S1x1 .f32 × Vec F S1x1 .f32
  | 0, hn =>
    (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr rfl) (fun h => by have h' := (hcond2_1 ⟨0, hn⟩).mp h; (try dsimp only at h'); omega) (iblk2 V c 0 ⟨0, hn⟩) (iblk2 V c 1 ⟨0, hn⟩),
     sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr rfl) (fun h => by have h' := (hcond2_1 ⟨0, hn⟩).mp h; (try dsimp only at h'); omega) (iblk2 V c 0 ⟨0, hn⟩) (iblk2 V c 1 ⟨0, hn⟩))
  | n + 1, hn =>
    if h1 : n + 1 = 63 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At the first point: case A's contents. -/
theorem outsAt2_A (c : Dev nD) (t : Fin cfg2.N) (h0 : t.val = 0) (h1 : ¬t.val = 63) :
    outsAt2 V c t.val t.isLt = (out2_A_2 c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t),
      sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd h0 (Nat.succ_ne_zero n)

/-- At a middle point: case B's contents, over what the point before left. -/
theorem outsAt2_B (c : Dev nD) (t : Fin cfg2.N) (h0 : ¬t.val = 0) (h1 : ¬t.val = 63) :
    outsAt2 V c t.val t.isLt = (out2_B_2 c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
      sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point: case C's contents, over what the point before left. -/
theorem outsAt2_C (c : Dev nD) (t : Fin cfg2.N) (h0 : ¬t.val = 0) (h1 : t.val = 63) :
    outsAt2 V c t.val t.isLt = (out2_C_2 c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the scratch word at anything);
    afterwards the scratch word at what the point before left in it, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data on core `c`: the arrays as the region finds them; after the body at point `t` each input's
    buffer at its block and the output's at the accumulation's first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]

set_option maxHeartbeats 8000000 in
/-- The body at any point: the inputs' memrefs hold their blocks; the closed forms say which case the point is in; the
    invariant hands the body the scratch word at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [leaves2_0, leaves2_1]
  have hN : t.val < 64 := lt_of_lt_of_eq t.isLt (show cfg2.N = 64 from N_2)
  by_cases h0 : t.val = 0
  · have h1 : ¬t.val = 63 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    rw [PhiS2_castSucc V c t, PhiS2_zero V c _ _ h0, PhiA2_eq]
    iintro ⟨⟨⟨HS0, Hrest⟩, Hg⟩, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_A c (grid2.coords t) (ms2_0 t) (hs2_0 t) (ms2_1 t) (hs2_1 t) (ms2_2 t) (hs2_2 t) scM2 (Memref.isWhole_whole _) _ _ _ _)
        iexact Hrest
      iexact Hg
    isplitl [Ho]; · iexact Ho
    isplitl [H0]; · iexact H0
    isplitl [H1]; · iexact H1
    iexists _; iexact H2
  · by_cases h1 : t.val = 63
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C; (try dsimp only)
      rw [PhiS2_castSucc V c t, PhiS2_pos V c _ _ h0]
      iintro ⟨⟨⟨HS0, Hrest⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c (grid2.coords t) (ms2_0 t) (hs2_0 t) (ms2_1 t) (hs2_1 t) (ms2_2 t) (hs2_2 t) scM2 (Memref.isWhole_whole _) _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c (grid2.coords t) (ms2_0 t) (hs2_0 t) (ms2_1 t) (hs2_1 t) (ms2_2 t) (hs2_2 t) scM2 (Memref.isWhole_whole _) _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ h0]
      iintro ⟨⟨⟨HS0, Hrest⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c (grid2.coords t) (ms2_0 t) (hs2_0 t) (ms2_1 t) (hs2_1 t) (ms2_2 t) (hs2_2 t) scM2 (Memref.isWhole_whole _) _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch word's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hrest⟩, Hg⟩
  isplitl [HS0 Hrest]
  · isplitl [HS0]
    · iexists _; iexact HS0
    iexact Hrest
  iexact Hg

end Cert.Kernel.Hand

end
-- ==== Proof.K.Region3Base.lean ====
/-
  Region 3 of the program: one pass over the 8 x 8 grid of 1024 x 1024 tiles of pairs of feature rows, a running total
  kept in a one-word scratch between grid points. What the three control cases of the body share: the block each window
  shows the body at a point; the two conditions of the body (the reset at the first point, the store of the total at the last)
  in closed form over the grid; where the output window is idle; the staging and scratch memrefs; the class invariant with
  the scratch word named.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer shows its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer shows its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The reset's condition (both grid coordinates zero), as the body computes it from the coordinates. -/
abbrev cond3_0 (i : grid3.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The final store's condition (both grid coordinates 7). -/
abbrev cond3_1 (i : grid3.Coords) : Prop := k3_cond2 i = 1#1
/-- It holds at the last point only. -/
theorem hcond3_1 : ∀ t : Fin cfg3.N, cond3_1 (grid3.coords t) ↔ t.val = 63 :=
  (by decide +kernel : ∀ t : Fin grid3.N, cond3_1 (grid3.coords t) ↔ t.val = 63)

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Where the final store's condition fails the output is idle and not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- Where it holds the output is live. -/
theorem liveAt3_2 : ∀ t : Fin cfg3.N, cond3_1 (grid3.coords t) → cfg3.idle 2 (grid3.coords t) = false := by decide +kernel

/-- One staging buffer of the output window, through which its contents are stated. -/
abbrev VO3_2 : View sig .tc .vmem S1x1 .f32 := (Memref.whole cc3_stg2_0 : Memref sig .tc .vmem S1x1 .f32).view
/-- Each window's current staging memref at point `t`, as the pipeline passes it, and its wholeness. -/
abbrev ms3_0 (t : Fin cfg3.N) : Memref sig .tc .vmem S1024x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1 .f32 := win3_2.stage (cfg3.slots t 2)
abbrev hs3_2 (t : Fin cfg3.N) : (ms3_2 t).IsWhole := hstage3_2 ((cfg3.slots t 2).cast nbuf3_2)
/-- The scratch word the kernel carries between points, as a memref and as a view. -/
abbrev scM3 : Memref sig .tc .vmem S1x1 .f32 := Memref.whole cc3_scratch0
abbrev VS3 : View sig .tc .vmem S1x1 .f32 := scM3.view

/-- The class invariant with the scratch word owned at some contents, the other scoped buffers unopened. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Hand

end
-- ==== Proof.K.Region3RunA.lean ====
/-
  Region 3, control case A of the body (the first point: the running total is reset, then the tile's total added; nothing stored to the output):
  the body's triple on whole staging memrefs, with the pieces its stores leave in the scratch word found by running it.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region3Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at anything, the body runs to the
    continuation holding the inputs' as they were and the scratch with its pieces written. -/
noncomputable def kernelRun3_A (c : Dev nD) (i : grid3.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : cond3_0 i) (hc1 : ¬cond3_1 i)
    (x0 : Vec F S1024x64 .f32) (x1 : Vec F S64x1024 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Region3RunB.lean ====
/-
  Region 3, control case B of the body (a middle point: the tile's total added to the running total; nothing stored to the output):
  the body's triple on whole staging memrefs, with the pieces its stores leave in the scratch word found by running it.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region3Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at what the point before left, the body runs to the
    continuation holding the inputs' as they were and the scratch with its pieces written. -/
noncomputable def kernelRun3_B (c : Dev nD) (i : grid3.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond3_0 i) (hc1 : ¬cond3_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Region3RunC.lean ====
/-
  Region 3, control case C of the body (the last point: the tile's total added to the running total, and the total stored to the output):
  the body's triple on whole staging memrefs, with the pieces its stores leave in the scratch word and in the output found by running it.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region3Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the output's at anything and the scratch at what the point before left, the body runs to the
    continuation holding the inputs' as they were, the output's with its pieces written and the scratch with its pieces written. -/
noncomputable def kernelRun3_C (c : Dev nD) (i : grid3.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond3_0 i) (hc1 : cond3_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Hand

end
-- ==== Proof.K.Region3Body.lean ====
/-
  Region 3: what the scratch word and the output's staging buffer hold after each grid point (by recursion on the
  point: the first point resets the running total and adds its tile, every later point adds its tile to what the point
  before left, the last point also stores the total to the output), the region's proof data with the invariant naming the
  scratch word's contents, and the body obligation at every point.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region3RunA
import proofs.«105377_j36833639530798_1_alg».proof.Proof.K.Region3RunB
import proofs.«105377_j36833639530798_1_alg».proof.Proof.K.Region3RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out3_A_2 (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond3_0 i) (hc1 : ¬cond3_1 i) (x0 : Vec F S1024x64 .f32) (x1 : Vec F S64x1024 .f32) : Vec F S1x1 .f32 :=
  VO3_2.read (Elt F) (VO3_2.writes (Elt F) VO3_2.junk (kernelRun3_A c i arg2 harg2 arg3 harg3 arg4 harg4 arg5 harg5 hc0 hc1 x0 x1).1)

/-- Case A's stores into the scratch word cover it. -/
theorem scover3_A (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond3_0 i) (hc1 : ¬cond3_1 i) (x0 : Vec F S1024x64 .f32) (x1 : Vec F S64x1024 .f32) (y : S1x1.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1x1.size (by sl_kernel_rfl) y

/-- What case A leaves in the scratch word: its pieces read back. -/
def sout3_A (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond3_0 i) (hc1 : ¬cond3_1 i) (x0 : Vec F S1024x64 .f32) (x1 : Vec F S64x1024 .f32) : Vec F S1x1 .f32 :=
  VS3.read (Elt F) (VS3.writes (Elt F) VS3.junk (kernelRun3_A c i arg2 harg2 arg3 harg3 arg4 harg4 arg5 harg5 hc0 hc1 x0 x1).2.1)

/-- What case B leaves in the output's staging buffer: its pieces read back (none: a placeholder nothing consults, the window being idle there). -/
def out3_B_2 (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : ¬cond3_1 i) (x0 : Vec F S1024x64 .f32) (x1 : Vec F S64x1024 .f32) (xs0 : Vec F S1x1 .f32) : Vec F S1x1 .f32 :=
  VO3_2.read (Elt F) (VO3_2.writes (Elt F) VO3_2.junk (kernelRun3_B c i arg2 harg2 arg3 harg3 arg4 harg4 arg5 harg5 hc0 hc1 x0 x1 xs0).1)

/-- Case B's stores into the scratch word cover it. -/
theorem scover3_B (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : ¬cond3_1 i) (x0 : Vec F S1024x64 .f32) (x1 : Vec F S64x1024 .f32) (xs0 : Vec F S1x1 .f32) (y : S1x1.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1x1.size (by sl_kernel_rfl) y

/-- What case B leaves in the scratch word: its pieces read back. -/
def sout3_B (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : ¬cond3_1 i) (x0 : Vec F S1024x64 .f32) (x1 : Vec F S64x1024 .f32) (xs0 : Vec F S1x1 .f32) : Vec F S1x1 .f32 :=
  VS3.read (Elt F) (VS3.writes (Elt F) VS3.junk (kernelRun3_B c i arg2 harg2 arg3 harg3 arg4 harg4 arg5 harg5 hc0 hc1 x0 x1 xs0).2.1)

/-- What case C leaves in the output's staging buffer: its pieces read back. -/
def out3_C_2 (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) : Vec F S1x1 .f32 :=
  VO3_2.read (Elt F) (VO3_2.writes (Elt F) VO3_2.junk (kernelRun3_C c i arg2 harg2 arg3 harg3 arg4 harg4 arg5 harg5 hc0 hc1 x0 x1 xs0).1)

/-- Case C's stores into the scratch word cover it. -/
theorem scover3_C (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) (y : S1x1.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1x1.size (by sl_kernel_rfl) y

/-- What case C leaves in the scratch word: its pieces read back. -/
def sout3_C (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) : Vec F S1x1 .f32 :=
  VS3.read (Elt F) (VS3.writes (Elt F) VS3.junk (kernelRun3_C c i arg2 harg2 arg3 harg3 arg4 harg4 arg5 harg5 hc0 hc1 x0 x1 xs0).2.1)

/-- Case C's store into the output covers it. -/
theorem cover3_C_2 (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) (y : S1x1.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1x1.size (by sl_kernel_rfl) y

/-- THE ACCUMULATION: the output's staging buffer and the scratch word after the body at position `n` (a pair: output,
    scratch): the case the closed forms select at `n`, run at the point's memrefs and input blocks, the scratch the case
    reads at what this leaves at `n - 1`. -/
def outsAt3 (c : Dev nD) : (n : ℕ) → n < cfg3.N → Vec F S1x1 .f32 × Vec F S1x1 .f32
  | 0, hn =>
    (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr rfl) (fun h => by have h' := (hcond3_1 ⟨0, hn⟩).mp h; (try dsimp only at h'); omega) (iblk3 V c 0 ⟨0, hn⟩) (iblk3 V c 1 ⟨0, hn⟩),
     sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr rfl) (fun h => by have h' := (hcond3_1 ⟨0, hn⟩).mp h; (try dsimp only at h'); omega) (iblk3 V c 0 ⟨0, hn⟩) (iblk3 V c 1 ⟨0, hn⟩))
  | n + 1, hn =>
    if h1 : n + 1 = 63 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2,
       sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
    else
      (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2,
       sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- At the first point: case A's contents. -/
theorem outsAt3_A (c : Dev nD) (t : Fin cfg3.N) (h0 : t.val = 0) (h1 : ¬t.val = 63) :
    outsAt3 V c t.val t.isLt = (out3_A_2 c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t),
      sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact absurd h0 (Nat.succ_ne_zero n)

/-- At a middle point: case B's contents, over what the point before left. -/
theorem outsAt3_B (c : Dev nD) (t : Fin cfg3.N) (h0 : ¬t.val = 0) (h1 : ¬t.val = 63) :
    outsAt3 V c t.val t.isLt = (out3_B_2 c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2,
      sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact absurd rfl h0
  | succ n => exact (dif_neg h1).trans rfl

/-- At the last point: case C's contents, over what the point before left. -/
theorem outsAt3_C (c : Dev nD) (t : Fin cfg3.N) (h0 : ¬t.val = 0) (h1 : t.val = 63) :
    outsAt3 V c t.val t.isLt = (out3_C_2 c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the scratch word at anything);
    afterwards the scratch word at what the point before left in it, the other scoped buffers unopened, the generator
    register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The region's proof data on core `c`: the arrays as the region finds them; after the body at point `t` each input's
    buffer at its block and the output's at the accumulation's first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]

set_option maxHeartbeats 8000000 in
/-- The body at any point: the inputs' memrefs hold their blocks; the closed forms say which case the point is in; the
    invariant hands the body the scratch word at what the point before left (at anything at the first point) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [leaves3_0, leaves3_1]
  have hN : t.val < 64 := lt_of_lt_of_eq t.isLt (show cfg3.N = 64 from N_3)
  by_cases h0 : t.val = 0
  · have h1 : ¬t.val = 63 := by omega
    rw [Dat.leavesExact_idle (dat3 V c) 2 t (idleAt3_2 t (fun h => h1 ((hcond3_1 t).mp h))) (noFlush3_2 t (fun h => h1 ((hcond3_1 t).mp h)))]
    rw [outsAt3_A V c t h0 h1]
    unfold sout3_A; (try dsimp only)
    rw [PhiS3_castSucc V c t, PhiS3_zero V c _ _ h0, PhiA3_eq]
    iintro ⟨⟨⟨HS0, Hrest⟩, Hg⟩, Ho, ⟨%d0, H0⟩, ⟨%d1, H1⟩, ⟨%d2, H2⟩⟩
    iapply ((kernelRun3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover3_A c (grid3.coords t) (ms3_0 t) (hs3_0 t) (ms3_1 t) (hs3_1 t) (ms3_2 t) (hs3_2 t) scM3 (Memref.isWhole_whole _) _ _ _ _)
        iexact Hrest
      iexact Hg
    isplitl [Ho]; · iexact Ho
    isplitl [H0]; · iexact H0
    isplitl [H1]; · iexact H1
    iexists _; iexact H2
  · by_cases h1 : t.val = 63
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C_2 sout3_C; (try dsimp only)
      rw [PhiS3_castSucc V c t, PhiS3_pos V c _ _ h0]
      iintro ⟨⟨⟨HS0, Hrest⟩, Hg⟩, Ho, ⟨%d0, H0⟩, ⟨%d1, H1⟩, ⟨%d2, H2⟩⟩
      iapply ((kernelRun3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C c (grid3.coords t) (ms3_0 t) (hs3_0 t) (ms3_1 t) (hs3_1 t) (ms3_2 t) (hs3_2 t) scM3 (Memref.isWhole_whole _) _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c (grid3.coords t) (ms3_0 t) (hs3_0 t) (ms3_1 t) (hs3_1 t) (ms3_2 t) (hs3_2 t) scM3 (Memref.isWhole_whole _) _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold sout3_B; (try dsimp only)
      rw [PhiS3_castSucc V c t, PhiS3_pos V c _ _ h0]
      iintro ⟨⟨⟨HS0, Hrest⟩, Hg⟩, Ho, ⟨%d0, H0⟩, ⟨%d1, H1⟩, ⟨%d2, H2⟩⟩
      iapply ((kernelRun3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B c (grid3.coords t) (ms3_0 t) (hs3_0 t) (ms3_1 t) (hs3_1 t) (ms3_2 t) (hs3_2 t) scM3 (Memref.isWhole_whole _) _ _ _ _ _)
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch word's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS0, Hrest⟩, Hg⟩
  isplitl [HS0 Hrest]
  · isplitl [HS0]
    · iexists _; iexact HS0
    iexact Hrest
  iexact Hg

end Cert.Kernel.Hand

end
-- ==== Proof.K.Region4Base.lean ====
/-
  Region 4 of the program: one pass over the 8 x 8 grid of 1024 x 1024 tiles of pairs of feature rows, a running total
  kept in a one-word scratch between grid points. What the three control cases of the body share: the block each window
  shows the body at a point; the two conditions of the body (the reset at the first point, the store of the total at the last)
  in closed form over the grid; where the output window is idle; the staging and scratch memrefs; the class invariant with
  the scratch word named.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer shows its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer shows its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The reset's condition (both grid coordinates zero), as the body computes it from the coordinates. -/
abbrev cond4_0 (i : grid4.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The final store's condition (both grid coordinates 7). -/
abbrev cond4_1 (i : grid4.Coords) : Prop := k4_cond2 i = 1#1
/-- It holds at the last point only. -/
theorem hcond4_1 : ∀ t : Fin cfg4.N, cond4_1 (grid4.coords t) ↔ t.val = 63 :=
  (by decide +kernel : ∀ t : Fin grid4.N, cond4_1 (grid4.coords t) ↔ t.val = 63)

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where the final store's condition fails the output is idle and not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where it holds the output is live. -/
theorem liveAt4_2 : ∀ t : Fin cfg4.N, cond4_1 (grid4.coords t) → cfg4.idle 2 (grid4.coords t) = false := by decide +kernel

/-- One staging buffer of the output window, through which its contents are stated. -/
abbrev VO4_2 : View sig .tc .vmem S1x1 .f32 := (Memref.whole cc4_stg2_0 : Memref sig .tc .vmem S1x1 .f32).view
/-- Each window's current staging memref at point `t`, as the pipeline passes it, and its wholeness. -/
abbrev ms4_0 (t : Fin cfg4.N) : Memref sig .tc .vmem S1024x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1 .f32 := win4_2.stage (cfg4.slots t 2)
abbrev hs4_2 (t : Fin cfg4.N) : (ms4_2 t).IsWhole := hstage4_2 ((cfg4.slots t 2).cast nbuf4_2)
/-- The scratch word the kernel carries between points, as a memref and as a view. -/
abbrev scM4 : Memref sig .tc .vmem S1x1 .f32 := Memref.whole cc4_scratch0
abbrev VS4 : View sig .tc .vmem S1x1 .f32 := scM4.view

/-- The class invariant with the scratch word owned at some contents, the other scoped buffers unopened. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.Kernel.Hand

end
-- ==== Proof.K.Region4RunA.lean ====
/-
  Region 4, control case A of the body (the first point: the running total is reset, then the tile's total added; nothing stored to the output):
  the body's triple on whole staging memrefs, with the pieces its stores leave in the scratch word found by running it.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at anything, the body runs to the
    continuation holding the inputs' as they were and the scratch with its pieces written. -/
noncomputable def kernelRun4_A (c : Dev nD) (i : grid4.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : cond4_0 i) (hc1 : ¬cond4_1 i)
    (x0 : Vec F S1024x64 .f32) (x1 : Vec F S64x1024 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Region4RunB.lean ====
/-
  Region 4, control case B of the body (a middle point: the tile's total added to the running total; nothing stored to the output):
  the body's triple on whole staging memrefs, with the pieces its stores leave in the scratch word found by running it.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at what the point before left, the body runs to the
    continuation holding the inputs' as they were and the scratch with its pieces written. -/
noncomputable def kernelRun4_B (c : Dev nD) (i : grid4.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond4_0 i) (hc1 : ¬cond4_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Region4RunC.lean ====
/-
  Region 4, control case C of the body (the last point: the tile's total added to the running total, and the total stored to the output):
  the body's triple on whole staging memrefs, with the pieces its stores leave in the scratch word and in the output found by running it.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the output's at anything and the scratch at what the point before left, the body runs to the
    continuation holding the inputs' as they were, the output's with its pieces written and the scratch with its pieces written. -/
noncomputable def kernelRun4_C (c : Dev nD) (i : grid4.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond4_0 i) (hc1 : cond4_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Hand

end
-- ==== Proof.K.Region4Body.lean ====
/-
  Region 4: what the scratch word and the output's staging buffer hold after each grid point (by recursion on the
  point: the first point resets the running total and adds its tile, every later point adds its tile to what the point
  before left, the last point also stores the total to the output), the region's proof data with the invariant naming the
  scratch word's contents, and the body obligation at every point.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region4RunA
import proofs.«105377_j36833639530798_1_alg».proof.Proof.K.Region4RunB
import proofs.«105377_j36833639530798_1_alg».proof.Proof.K.Region4RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out4_A_2 (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond4_0 i) (hc1 : ¬cond4_1 i) (x0 : Vec F S1024x64 .f32) (x1 : Vec F S64x1024 .f32) : Vec F S1x1 .f32 :=
  VO4_2.read (Elt F) (VO4_2.writes (Elt F) VO4_2.junk (kernelRun4_A c i arg2 harg2 arg3 harg3 arg4 harg4 arg5 harg5 hc0 hc1 x0 x1).1)

/-- Case A's stores into the scratch word cover it. -/
theorem scover4_A (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond4_0 i) (hc1 : ¬cond4_1 i) (x0 : Vec F S1024x64 .f32) (x1 : Vec F S64x1024 .f32) (y : S1x1.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1x1.size (by sl_kernel_rfl) y

/-- What case A leaves in the scratch word: its pieces read back. -/
def sout4_A (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond4_0 i) (hc1 : ¬cond4_1 i) (x0 : Vec F S1024x64 .f32) (x1 : Vec F S64x1024 .f32) : Vec F S1x1 .f32 :=
  VS4.read (Elt F) (VS4.writes (Elt F) VS4.junk (kernelRun4_A c i arg2 harg2 arg3 harg3 arg4 harg4 arg5 harg5 hc0 hc1 x0 x1).2.1)

/-- What case B leaves in the output's staging buffer: its pieces read back (none: a placeholder nothing consults, the window being idle there). -/
def out4_B_2 (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : ¬cond4_1 i) (x0 : Vec F S1024x64 .f32) (x1 : Vec F S64x1024 .f32) (xs0 : Vec F S1x1 .f32) : Vec F S1x1 .f32 :=
  VO4_2.read (Elt F) (VO4_2.writes (Elt F) VO4_2.junk (kernelRun4_B c i arg2 harg2 arg3 harg3 arg4 harg4 arg5 harg5 hc0 hc1 x0 x1 xs0).1)

/-- Case B's stores into the scratch word cover it. -/
theorem scover4_B (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : ¬cond4_1 i) (x0 : Vec F S1024x64 .f32) (x1 : Vec F S64x1024 .f32) (xs0 : Vec F S1x1 .f32) (y : S1x1.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1x1.size (by sl_kernel_rfl) y

/-- What case B leaves in the scratch word: its pieces read back. -/
def sout4_B (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : ¬cond4_1 i) (x0 : Vec F S1024x64 .f32) (x1 : Vec F S64x1024 .f32) (xs0 : Vec F S1x1 .f32) : Vec F S1x1 .f32 :=
  VS4.read (Elt F) (VS4.writes (Elt F) VS4.junk (kernelRun4_B c i arg2 harg2 arg3 harg3 arg4 harg4 arg5 harg5 hc0 hc1 x0 x1 xs0).2.1)

/-- What case C leaves in the output's staging buffer: its pieces read back. -/
def out4_C_2 (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) : Vec F S1x1 .f32 :=
  VO4_2.read (Elt F) (VO4_2.writes (Elt F) VO4_2.junk (kernelRun4_C c i arg2 harg2 arg3 harg3 arg4 harg4 arg5 harg5 hc0 hc1 x0 x1 xs0).1)

/-- Case C's stores into the scratch word cover it. -/
theorem scover4_C (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) (y : S1x1.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1x1.size (by sl_kernel_rfl) y

/-- What case C leaves in the scratch word: its pieces read back. -/
def sout4_C (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) : Vec F S1x1 .f32 :=
  VS4.read (Elt F) (VS4.writes (Elt F) VS4.junk (kernelRun4_C c i arg2 harg2 arg3 harg3 arg4 harg4 arg5 harg5 hc0 hc1 x0 x1 xs0).2.1)

/-- Case C's store into the output covers it. -/
theorem cover4_C_2 (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) (y : S1x1.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1x1.size (by sl_kernel_rfl) y

/-- THE ACCUMULATION: the output's staging buffer and the scratch word after the body at position `n` (a pair: output,
    scratch): the case the closed forms select at `n`, run at the point's memrefs and input blocks, the scratch the case
    reads at what this leaves at `n - 1`. -/
def outsAt4 (c : Dev nD) : (n : ℕ) → n < cfg4.N → Vec F S1x1 .f32 × Vec F S1x1 .f32
  | 0, hn =>
    (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _) ((hcond4_0 ⟨0, hn⟩).mpr rfl) (fun h => by have h' := (hcond4_1 ⟨0, hn⟩).mp h; (try dsimp only at h'); omega) (iblk4 V c 0 ⟨0, hn⟩) (iblk4 V c 1 ⟨0, hn⟩),
     sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _) ((hcond4_0 ⟨0, hn⟩).mpr rfl) (fun h => by have h' := (hcond4_1 ⟨0, hn⟩).mp h; (try dsimp only at h'); omega) (iblk4 V c 0 ⟨0, hn⟩) (iblk4 V c 1 ⟨0, hn⟩))
  | n + 1, hn =>
    if h1 : n + 1 = 63 then
      (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2,
       sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2,
       sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- At the first point: case A's contents. -/
theorem outsAt4_A (c : Dev nD) (t : Fin cfg4.N) (h0 : t.val = 0) (h1 : ¬t.val = 63) :
    outsAt4 V c t.val t.isLt = (out4_A_2 c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t),
      sout4_A c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact absurd h0 (Nat.succ_ne_zero n)

/-- At a middle point: case B's contents, over what the point before left. -/
theorem outsAt4_B (c : Dev nD) (t : Fin cfg4.N) (h0 : ¬t.val = 0) (h1 : ¬t.val = 63) :
    outsAt4 V c t.val t.isLt = (out4_B_2 c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2,
      sout4_B c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact absurd rfl h0
  | succ n => exact (dif_neg h1).trans rfl

/-- At the last point: case C's contents, over what the point before left. -/
theorem outsAt4_C (c : Dev nD) (t : Fin cfg4.N) (h0 : ¬t.val = 0) (h1 : t.val = 63) :
    outsAt4 V c t.val t.isLt = (out4_C_2 c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the scratch word at anything);
    afterwards the scratch word at what the point before left in it, the other scoped buffers unopened, the generator
    register at some state. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The region's proof data on core `c`: the arrays as the region finds them; after the body at point `t` each input's
    buffer at its block and the output's at the accumulation's first component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]

set_option maxHeartbeats 8000000 in
/-- The body at any point: the inputs' memrefs hold their blocks; the closed forms say which case the point is in; the
    invariant hands the body the scratch word at what the point before left (at anything at the first point) and takes
    it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1]
  have hN : t.val < 64 := lt_of_lt_of_eq t.isLt (show cfg4.N = 64 from N_4)
  by_cases h0 : t.val = 0
  · have h1 : ¬t.val = 63 := by omega
    rw [Dat.leavesExact_idle (dat4 V c) 2 t (idleAt4_2 t (fun h => h1 ((hcond4_1 t).mp h))) (noFlush4_2 t (fun h => h1 ((hcond4_1 t).mp h)))]
    rw [outsAt4_A V c t h0 h1]
    unfold sout4_A; (try dsimp only)
    rw [PhiS4_castSucc V c t, PhiS4_zero V c _ _ h0, PhiA4_eq]
    iintro ⟨⟨⟨HS0, Hrest⟩, Hg⟩, Ho, ⟨%d0, H0⟩, ⟨%d1, H1⟩, ⟨%d2, H2⟩⟩
    iapply ((kernelRun4_A c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover4_A c (grid4.coords t) (ms4_0 t) (hs4_0 t) (ms4_1 t) (hs4_1 t) (ms4_2 t) (hs4_2 t) scM4 (Memref.isWhole_whole _) _ _ _ _)
        iexact Hrest
      iexact Hg
    isplitl [Ho]; · iexact Ho
    isplitl [H0]; · iexact H0
    isplitl [H1]; · iexact H1
    iexists _; iexact H2
  · by_cases h1 : t.val = 63
    · rw [show (dat4 V c).leavesExact 2 t = owns (c : Thread nD τ) (ms4_2 t) fullShare ((dat4 V c).after 2 t) from by
        unfold Dat.leavesExact; rw [liveAt4_2 t ((hcond4_1 t).mpr h1)], after4_2]
      rw [outsAt4_C V c t h0 h1]
      unfold out4_C_2 sout4_C; (try dsimp only)
      rw [PhiS4_castSucc V c t, PhiS4_pos V c _ _ h0]
      iintro ⟨⟨⟨HS0, Hrest⟩, Hg⟩, Ho, ⟨%d0, H0⟩, ⟨%d1, H1⟩, ⟨%d2, H2⟩⟩
      iapply ((kernelRun4_C c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C c (grid4.coords t) (ms4_0 t) (hs4_0 t) (ms4_1 t) (hs4_1 t) (ms4_2 t) (hs4_2 t) scM4 (Memref.isWhole_whole _) _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c (grid4.coords t) (ms4_0 t) (hs4_0 t) (ms4_1 t) (hs4_1 t) (ms4_2 t) (hs4_2 t) scM4 (Memref.isWhole_whole _) _ _ _ _ _)
    · rw [Dat.leavesExact_idle (dat4 V c) 2 t (idleAt4_2 t (fun h => h1 ((hcond4_1 t).mp h))) (noFlush4_2 t (fun h => h1 ((hcond4_1 t).mp h)))]
      rw [outsAt4_B V c t h0 h1]
      unfold sout4_B; (try dsimp only)
      rw [PhiS4_castSucc V c t, PhiS4_pos V c _ _ h0]
      iintro ⟨⟨⟨HS0, Hrest⟩, Hg⟩, Ho, ⟨%d0, H0⟩, ⟨%d1, H1⟩, ⟨%d2, H2⟩⟩
      iapply ((kernelRun4_B c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B c (grid4.coords t) (ms4_0 t) (hs4_0 t) (ms4_1 t) (hs4_1 t) (ms4_2 t) (hs4_2 t) scM4 (Memref.isWhole_whole _) _ _ _ _ _)
          iexact Hrest
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the scratch word's named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 64 := N_4; omega), PhiA4_eq]
  iintro ⟨⟨HS0, Hrest⟩, Hg⟩
  isplitl [HS0 Hrest]
  · isplitl [HS0]
    · iexists _; iexact HS0
    iexact Hrest
  iexact Hg

end Cert.Kernel.Hand

end
-- ==== Proof.K.RunDefs.lean ====
/-
  The run of the whole program, first half: what every buffer holds at each boundary between two items of the program
  (region, region, two transposes, region, reshape, region, reshape, region, the closing scalar arithmetic) as a fold from
  the launch memory — a region's arrays at what its write-backs leave, a host stretch by its operations —, every region's
  proof data at its entry contents, and what rides beside the buffers through every item.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Region0
import proofs.«105377_j36833639530798_1_alg».proof.Proof.K.Region1
import proofs.«105377_j36833639530798_1_alg».proof.Proof.K.Region2Body
import proofs.«105377_j36833639530798_1_alg».proof.Proof.K.Region3Body
import proofs.«105377_j36833639530798_1_alg».proof.Proof.K.Region4Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host stretch `hostOps2`. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b
theorem hostOps2_fresh : (hostOps2 : List (HloOp τ sig (Elt F))).Forall fun op => op.fresh = ∅ := by
  simp only [List.Forall]; repeat' constructor

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host stretch `hostOps3`. -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
theorem hostOps3_fresh : (hostOps3 : List (HloOp τ sig (Elt F))).Forall fun op => op.fresh = ∅ := by
  simp only [List.Forall]; repeat' constructor

/-- At region 3's exit: its arrays at what the pipeline leaves, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4`. -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
theorem hostOps4_fresh : (hostOps4 : List (HloOp τ sig (Elt F))).Forall fun op => op.fresh = ∅ := by
  simp only [List.Forall]; repeat' constructor

/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After the host stretch `hostOps5`. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
theorem hostOps5_fresh : (hostOps5 : List (HloOp τ sig (Elt F))).Forall fun op => op.fresh = ∅ := by
  simp only [List.Forall]; repeat' constructor

/-- The references `hostOps2`'s operations write, -/
abbrev hostW2 : List (Ref sig .tc) := [main_v2, main_v3]
theorem hostOps2_wr : (hostOps2 : List (HloOp τ sig (Elt F))).Forall fun op => op.writes ⊆ (hostW2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- and every other buffer passes through the stretch unchanged. -/
theorem W3_of (c : Dev nD) (r : Ref sig .tc) (h : r ∉ hostW2) : W3 m ρ c (Proc.devRef .tc r) = W2 m ρ c (Proc.devRef .tc r) :=
  StableHlo.after_of_writes_sub hostOps2 _ hostOps2_wr h

/-- The references `hostOps3`'s operations write, -/
abbrev hostW3 : List (Ref sig .tc) := [main_v5]
theorem hostOps3_wr : (hostOps3 : List (HloOp τ sig (Elt F))).Forall fun op => op.writes ⊆ (hostW3.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- and every other buffer passes through the stretch unchanged. -/
theorem W5_of (c : Dev nD) (r : Ref sig .tc) (h : r ∉ hostW3) : W5 m ρ c (Proc.devRef .tc r) = W4 m ρ c (Proc.devRef .tc r) :=
  StableHlo.after_of_writes_sub hostOps3 _ hostOps3_wr h

/-- The references `hostOps4`'s operations write, -/
abbrev hostW4 : List (Ref sig .tc) := [main_v7]
theorem hostOps4_wr : (hostOps4 : List (HloOp τ sig (Elt F))).Forall fun op => op.writes ⊆ (hostW4.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- and every other buffer passes through the stretch unchanged. -/
theorem W7_of (c : Dev nD) (r : Ref sig .tc) (h : r ∉ hostW4) : W7 m ρ c (Proc.devRef .tc r) = W6 m ρ c (Proc.devRef .tc r) :=
  StableHlo.after_of_writes_sub hostOps4 _ hostOps4_wr h

/-- The references `hostOps5`'s operations write, -/
abbrev hostW5 : List (Ref sig .tc) := [main_v9, main_cst, main_v10, main_cst_0, main_v11, main_cst_1, main_v12, main_v13, main_cst_2, main_v14, main_v15]
theorem hostOps5_wr : (hostOps5 : List (HloOp τ sig (Elt F))).Forall fun op => op.writes ⊆ (hostW5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- and every other buffer passes through the stretch unchanged. -/
theorem W9_of (c : Dev nD) (r : Ref sig .tc) (h : r ∉ hostW5) : W9 m ρ c (Proc.devRef .tc r) = W8 m ρ c (Proc.devRef .tc r) :=
  StableHlo.after_of_writes_sub hostOps5 _ hostOps5_wr h

/-- No pallas_call has a prefetched table. -/
abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V5 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

end Cert.Kernel.Hand

end
-- ==== Proof.K.Reg0.lean ====
/-
  Region 0 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Region 1 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Region 2 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  Region 3 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ (Pipeline.ΦA spec3 c : sProp 𝕄) from hout3 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
/-
  Region 4 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m ρ 4 c).Φ (Fin.last _) ⊢ (Pipeline.ΦA spec4 c : sProp 𝕄) from hout4 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunMain.lean ====
/-
  The run of the whole program, second half: the program is the run of its nine items in order, and from any memory
  with zero counters every weakly fair execution terminates, nothing faulting, in a state whose every unscoped buffer
  holds the last boundary's contents.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.Reg0
import proofs.«105377_j36833639530798_1_alg».proof.Proof.K.Reg1
import proofs.«105377_j36833639530798_1_alg».proof.Proof.K.Reg2
import proofs.«105377_j36833639530798_1_alg».proof.Proof.K.Reg3
import proofs.«105377_j36833639530798_1_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's nine items in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)) ]
/-- The program IS the run of the items. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters, every weakly fair execution of the program terminates, nothing
    faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c) ∗ R c) : sProp 𝕄)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.Kernel.Hand

end
-- ==== Proof.K.RunArgs.lean ====
/-
  The argument arrays end as launched: no host operation writes one and no region does (a region reads an argument
  through an input window, whose array the write-backs never touch, or does not stage it at all), so the fold of the
  boundaries' contents at an argument's buffer walks back to the launch memory.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := (W1_arr m ρ c 4).trans (((dat0 (V0 m ρ) c).arrAt_in 4 rfl _).trans (A_eq0 (V0 m ρ) c 4))
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 1).trans (((dat1 (V1 m ρ) c).arrAt_in 1 rfl _).trans (A_eq1 (V1 m ρ) c 1))
    _ = W0 m ρ c (Proc.devRef .tc main_arg6) := W1_of_ne m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := (W2_arr m ρ c 2).trans (((dat1 (V1 m ρ) c).arrAt_in 2 rfl _).trans (A_eq1 (V1 m ρ) c 2))
    _ = W0 m ρ c (Proc.devRef .tc main_arg7) := W1_of_ne m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := (W2_arr m ρ c 3).trans (((dat1 (V1 m ρ) c).arrAt_in 3 rfl _).trans (A_eq1 (V1 m ρ) c 3))
    _ = W0 m ρ c (Proc.devRef .tc main_arg8) := W1_of_ne m ρ c main_arg8 (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := (W2_arr m ρ c 4).trans (((dat1 (V1 m ρ) c).arrAt_in 4 rfl _).trans (A_eq1 (V1 m ρ) c 4))
    _ = W0 m ρ c (Proc.devRef .tc main_arg9) := W1_of_ne m ρ c main_arg9 (by decide)
    _ = m ((c : Thread nD τ).loc main_arg9) := rfl

end Cert.Kernel.Hand

end
-- ==== Proof.K.Frame.lean ====
/-
  The frame of the program: every weakly fair execution terminates, nothing faulting, with each of the ten argument
  arrays as launched — the run's final contents read at the arguments' buffers.
-/
import proofs.«105377_j36833639530798_1_alg».proof.Proof.Gen.Kernel.Launch
import proofs.«105377_j36833639530798_1_alg».proof.Proof.Gen.Kernel.Skeleton
import proofs.«105377_j36833639530798_1_alg».proof.Proof.Gen.Kernel.Points
import proofs.«105377_j36833639530798_1_alg».proof.Proof.K.RunMain
import proofs.«105377_j36833639530798_1_alg».proof.Proof.K.RunArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩)
    (run_main m ρ)

end Cert.Kernel.Hand

end
-- ==== Proof.KI.Region0.lean ====
/-
  Region 0 of the program: the two-layer map on one band of 1024 rows per grid point.
  At a parameter V (what the buffers hold when the region is entered): the block each window shows the body at a
  point, what the body's one store leaves in the output's staging buffer as a function of the five input blocks,
  the body's triple, the region's proof data and its body obligation at every point.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer shows its block at every point, fetched there or not (the block index
    does not move between fetches), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer shows its block at every point, fetched there or not (the block index
    does not move between fetches), for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer shows its block at every point, fetched there or not (the block index
    does not move between fetches), for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer shows its block at every point, fetched there or not (the block index
    does not move between fetches), for any proof data over `V`'s arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer shows its block at every point, fetched there or not (the block index
    does not move between fetches), for any proof data over `V`'s arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S1024x512 := Rect.unit (s := S1024x512) ![0, 0] S1024x512.size inb_S1024x512_S1024x512_0_0
abbrev rW1_0 : Rect S512x64 := Rect.unit (s := S512x64) ![0, 0] S512x64.size inb_S512x64_S512x64_0_0
abbrev rB0 : Rect S64 := Rect.unit (s := S64) ![0] S64.size inb_S64_S64_0
abbrev rW2_0 : Rect S64x64 := Rect.unit (s := S64x64) ![0, 0] S64x64.size inb_S64x64_S64x64_0_0
abbrev rO0 : Rect S1024x64 := Rect.unit (s := S1024x64) ![0, 0] S1024x64.size inb_S1024x64_S1024x64_0_0

/-- The output's staging buffer after the body: its one store, of the two-layer map of the five loaded blocks. -/
def out0_5 (x0 : Vec F S1024x512 .f32) (x1 : Vec F S512x64 .f32) (x2 : Vec F S64 .f32) (x3 : Vec F S64x64 .f32) (x4 : Vec F S64 .f32) : Vec F S1024x64 .f32 :=
  View.canon [⟨rO0, k0_pay1 (View.ld x0 rX0) (View.ld x1 rW1_0) (View.ld x2 rB0) (View.ld x3 rW2_0) (View.ld x4 rB0)⟩]

/-- The one store is of the whole buffer, so it covers it. -/
theorem cover0_5 (p0 : Vec F S1024x64 .f32) (y : S1024x64.Idx) :
    ∃ pc ∈ ([⟨rO0, p0⟩] : List (View.Piece (Elt F) S1024x64 .f32)), y ∈ pc.1.set :=
  View.cover_of_tiled [⟨rO0, p0⟩] S1024x64.size (by rfl) y

set_option maxHeartbeats 4000000 in
/-- The body on whole staging memrefs, the five inputs' at read contents and the output's at anything, runs to the
    continuation holding the inputs' as they were and the output's at `out0_5` of them. -/
theorem sound_kernel0 (c : Dev nD) (E : Set ℕ) (i : grid0.Coords)
    (arg1 : Memref sig .tc .vmem S1024x512 .f32) (harg1 : arg1.IsWhole) (arg2 : Memref sig .tc .vmem S512x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S1024x64 .f32) (harg6 : arg6.IsWhole)
    (x0 : Vec F S1024x512 .f32) (x1 : Vec F S512x64 .f32) (x2 : Vec F S64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core `c`: the arrays as the region finds them; after the body at point `t` each input's
    buffer at its block and the output's at `out0_5` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: the two-layer map on one band of 1024 rows per grid point.
  At a parameter V (what the buffers hold when the region is entered): the block each window shows the body at a
  point, what the body's one store leaves in the output's staging buffer as a function of the five input blocks,
  the body's triple, the region's proof data and its body obligation at every point.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer shows its block at every point, fetched there or not (the block index
    does not move between fetches), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer shows its block at every point, fetched there or not (the block index
    does not move between fetches), for any proof data over `V`'s arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer shows its block at every point, fetched there or not (the block index
    does not move between fetches), for any proof data over `V`'s arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer shows its block at every point, fetched there or not (the block index
    does not move between fetches), for any proof data over `V`'s arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer shows its block at every point, fetched there or not (the block index
    does not move between fetches), for any proof data over `V`'s arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S1024x512 := Rect.unit (s := S1024x512) ![0, 0] S1024x512.size inb_S1024x512_S1024x512_0_0
abbrev rW1_1 : Rect S512x64 := Rect.unit (s := S512x64) ![0, 0] S512x64.size inb_S512x64_S512x64_0_0
abbrev rB1 : Rect S64 := Rect.unit (s := S64) ![0] S64.size inb_S64_S64_0
abbrev rW2_1 : Rect S64x64 := Rect.unit (s := S64x64) ![0, 0] S64x64.size inb_S64x64_S64x64_0_0
abbrev rO1 : Rect S1024x64 := Rect.unit (s := S1024x64) ![0, 0] S1024x64.size inb_S1024x64_S1024x64_0_0

/-- The output's staging buffer after the body: its one store, of the two-layer map of the five loaded blocks. -/
def out1_5 (x0 : Vec F S1024x512 .f32) (x1 : Vec F S512x64 .f32) (x2 : Vec F S64 .f32) (x3 : Vec F S64x64 .f32) (x4 : Vec F S64 .f32) : Vec F S1024x64 .f32 :=
  View.canon [⟨rO1, k1_pay1 (View.ld x0 rX1) (View.ld x1 rW1_1) (View.ld x2 rB1) (View.ld x3 rW2_1) (View.ld x4 rB1)⟩]

/-- The one store is of the whole buffer, so it covers it. -/
theorem cover1_5 (p0 : Vec F S1024x64 .f32) (y : S1024x64.Idx) :
    ∃ pc ∈ ([⟨rO1, p0⟩] : List (View.Piece (Elt F) S1024x64 .f32)), y ∈ pc.1.set :=
  View.cover_of_tiled [⟨rO1, p0⟩] S1024x64.size (by rfl) y

set_option maxHeartbeats 4000000 in
/-- The body on whole staging memrefs, the five inputs' at read contents and the output's at anything, runs to the
    continuation holding the inputs' as they were and the output's at `out1_5` of them. -/
theorem sound_kernel1 (c : Dev nD) (E : Set ℕ) (i : grid1.Coords)
    (arg1 : Memref sig .tc .vmem S1024x512 .f32) (harg1 : arg1.IsWhole) (arg2 : Memref sig .tc .vmem S512x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S1024x64 .f32) (harg6 : arg6.IsWhole)
    (x0 : Vec F S1024x512 .f32) (x1 : Vec F S512x64 .f32) (x2 : Vec F S64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer at its block and the output's at `out1_5` of the input blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2Base.lean ====
/-
  Region 2 of the program: one pass over the 8 x 8 grid of 1024 x 1024 tiles of pairs of feature rows, a running total
  kept in a one-word scratch between grid points. What the three control cases of the body share: the block each window
  shows the body at a point; the two conditions of the body (the reset at the first point, the store of the total at the last)
  in closed form over the grid; where the output window is idle; the staging and scratch memrefs; the class invariant with
  the scratch word named.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer shows its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer shows its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The reset's condition (both grid coordinates zero), as the body computes it from the coordinates. -/
abbrev cond2_0 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The final store's condition (both grid coordinates 7). -/
abbrev cond2_1 (i : grid2.Coords) : Prop := k2_cond2 i = 1#1
/-- It holds at the last point only. -/
theorem hcond2_1 : ∀ t : Fin cfg2.N, cond2_1 (grid2.coords t) ↔ t.val = 63 :=
  (by decide +kernel : ∀ t : Fin grid2.N, cond2_1 (grid2.coords t) ↔ t.val = 63)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the final store's condition fails the output is idle and not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it holds the output is live. -/
theorem liveAt2_2 : ∀ t : Fin cfg2.N, cond2_1 (grid2.coords t) → cfg2.idle 2 (grid2.coords t) = false := by decide +kernel

/-- One staging buffer of the output window, through which its contents are stated. -/
abbrev VO2_2 : View sig .tc .vmem S1x1 .f32 := (Memref.whole cc2_stg2_0 : Memref sig .tc .vmem S1x1 .f32).view
/-- Each window's current staging memref at point `t`, as the pipeline passes it, and its wholeness. -/
abbrev ms2_0 (t : Fin cfg2.N) : Memref sig .tc .vmem S1024x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The scratch word the kernel carries between points, as a memref and as a view. -/
abbrev scM2 : Memref sig .tc .vmem S1x1 .f32 := Memref.whole cc2_scratch0
abbrev VS2 : View sig .tc .vmem S1x1 .f32 := scM2.view

/-- The class invariant with the scratch word owned at some contents, the other scoped buffers unopened. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Hand

end
-- ==== Proof.KI.Region2RunA.lean ====
/-
  Region 2, control case A of the body (the first point: the running total is reset, then the tile's total added; nothing stored to the output):
  the body's triple on whole staging memrefs, with the pieces its stores leave in the scratch word found by running it.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at anything, the body runs to the
    continuation holding the inputs' as they were and the scratch with its pieces written. -/
noncomputable def kernelRun2_A (c : Dev nD) (i : grid2.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : cond2_0 i) (hc1 : ¬cond2_1 i)
    (x0 : Vec F S1024x64 .f32) (x1 : Vec F S64x1024 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Region2RunB.lean ====
/-
  Region 2, control case B of the body (a middle point: the tile's total added to the running total; nothing stored to the output):
  the body's triple on whole staging memrefs, with the pieces its stores leave in the scratch word found by running it.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at what the point before left, the body runs to the
    continuation holding the inputs' as they were and the scratch with its pieces written. -/
noncomputable def kernelRun2_B (c : Dev nD) (i : grid2.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond2_0 i) (hc1 : ¬cond2_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Region2RunC.lean ====
/-
  Region 2, control case C of the body (the last point: the tile's total added to the running total, and the total stored to the output):
  the body's triple on whole staging memrefs, with the pieces its stores leave in the scratch word and in the output found by running it.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region2Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the output's at anything and the scratch at what the point before left, the body runs to the
    continuation holding the inputs' as they were, the output's with its pieces written and the scratch with its pieces written. -/
noncomputable def kernelRun2_C (c : Dev nD) (i : grid2.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond2_0 i) (hc1 : cond2_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.KI.Region2Body.lean ====
/-
  Region 2: what the scratch word and the output's staging buffer hold after each grid point (by recursion on the
  point: the first point resets the running total and adds its tile, every later point adds its tile to what the point
  before left, the last point also stores the total to the output), the region's proof data with the invariant naming the
  scratch word's contents, and the body obligation at every point.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region2RunA
import proofs.«105377_j36833639530798_1_alg».proof.Proof.KI.Region2RunB
import proofs.«105377_j36833639530798_1_alg».proof.Proof.KI.Region2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out2_A_2 (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 : Vec F S1024x64 .f32) (x1 : Vec F S64x1024 .f32) : Vec F S1x1 .f32 :=
  VO2_2.read (Elt F) (VO2_2.writes (Elt F) VO2_2.junk (kernelRun2_A c i arg2 harg2 arg3 harg3 arg4 harg4 arg5 harg5 hc0 hc1 x0 x1).1)

/-- Case A's stores into the scratch word cover it. -/
theorem scover2_A (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 : Vec F S1024x64 .f32) (x1 : Vec F S64x1024 .f32) (y : S1x1.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1x1.size (by sl_kernel_rfl) y

/-- What case A leaves in the scratch word: its pieces read back. -/
def sout2_A (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 : Vec F S1024x64 .f32) (x1 : Vec F S64x1024 .f32) : Vec F S1x1 .f32 :=
  VS2.read (Elt F) (VS2.writes (Elt F) VS2.junk (kernelRun2_A c i arg2 harg2 arg3 harg3 arg4 harg4 arg5 harg5 hc0 hc1 x0 x1).2.1)

/-- What case B leaves in the output's staging buffer: its pieces read back (none: a placeholder nothing consults, the window being idle there). -/
def out2_B_2 (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 : Vec F S1024x64 .f32) (x1 : Vec F S64x1024 .f32) (xs0 : Vec F S1x1 .f32) : Vec F S1x1 .f32 :=
  VO2_2.read (Elt F) (VO2_2.writes (Elt F) VO2_2.junk (kernelRun2_B c i arg2 harg2 arg3 harg3 arg4 harg4 arg5 harg5 hc0 hc1 x0 x1 xs0).1)

/-- Case B's stores into the scratch word cover it. -/
theorem scover2_B (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 : Vec F S1024x64 .f32) (x1 : Vec F S64x1024 .f32) (xs0 : Vec F S1x1 .f32) (y : S1x1.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1x1.size (by sl_kernel_rfl) y

/-- What case B leaves in the scratch word: its pieces read back. -/
def sout2_B (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 : Vec F S1024x64 .f32) (x1 : Vec F S64x1024 .f32) (xs0 : Vec F S1x1 .f32) : Vec F S1x1 .f32 :=
  VS2.read (Elt F) (VS2.writes (Elt F) VS2.junk (kernelRun2_B c i arg2 harg2 arg3 harg3 arg4 harg4 arg5 harg5 hc0 hc1 x0 x1 xs0).2.1)

/-- What case C leaves in the output's staging buffer: its pieces read back. -/
def out2_C_2 (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) : Vec F S1x1 .f32 :=
  VO2_2.read (Elt F) (VO2_2.writes (Elt F) VO2_2.junk (kernelRun2_C c i arg2 harg2 arg3 harg3 arg4 harg4 arg5 harg5 hc0 hc1 x0 x1 xs0).1)

/-- Case C's stores into the scratch word cover it. -/
theorem scover2_C (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) (y : S1x1.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x1.size (by sl_kernel_rfl) y

/-- What case C leaves in the scratch word: its pieces read back. -/
def sout2_C (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) : Vec F S1x1 .f32 :=
  VS2.read (Elt F) (VS2.writes (Elt F) VS2.junk (kernelRun2_C c i arg2 harg2 arg3 harg3 arg4 harg4 arg5 harg5 hc0 hc1 x0 x1 xs0).2.1)

/-- Case C's store into the output covers it. -/
theorem cover2_C_2 (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) (y : S1x1.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x1.size (by sl_kernel_rfl) y

/-- THE ACCUMULATION: the output's staging buffer and the scratch word after the body at position `n` (a pair: output,
    scratch): the case the closed forms select at `n`, run at the point's memrefs and input blocks, the scratch the case
    reads at what this leaves at `n - 1`. -/
def outsAt2 (c : Dev nD) : (n : ℕ) → n < cfg2.N → Vec F S1x1 .f32 × Vec F S1x1 .f32
  | 0, hn =>
    (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr rfl) (fun h => by have h' := (hcond2_1 ⟨0, hn⟩).mp h; (try dsimp only at h'); omega) (iblk2 V c 0 ⟨0, hn⟩) (iblk2 V c 1 ⟨0, hn⟩),
     sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr rfl) (fun h => by have h' := (hcond2_1 ⟨0, hn⟩).mp h; (try dsimp only at h'); omega) (iblk2 V c 0 ⟨0, hn⟩) (iblk2 V c 1 ⟨0, hn⟩))
  | n + 1, hn =>
    if h1 : n + 1 = 63 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At the first point: case A's contents. -/
theorem outsAt2_A (c : Dev nD) (t : Fin cfg2.N) (h0 : t.val = 0) (h1 : ¬t.val = 63) :
    outsAt2 V c t.val t.isLt = (out2_A_2 c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t),
      sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd h0 (Nat.succ_ne_zero n)

/-- At a middle point: case B's contents, over what the point before left. -/
theorem outsAt2_B (c : Dev nD) (t : Fin cfg2.N) (h0 : ¬t.val = 0) (h1 : ¬t.val = 63) :
    outsAt2 V c t.val t.isLt = (out2_B_2 c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
      sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point: case C's contents, over what the point before left. -/
theorem outsAt2_C (c : Dev nD) (t : Fin cfg2.N) (h0 : ¬t.val = 0) (h1 : t.val = 63) :
    outsAt2 V c t.val t.isLt = (out2_C_2 c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the scratch word at anything);
    afterwards the scratch word at what the point before left in it, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data on core `c`: the arrays as the region finds them; after the body at point `t` each input's
    buffer at its block and the output's at the accumulation's first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]

set_option maxHeartbeats 8000000 in
/-- The body at any point: the inputs' memrefs hold their blocks; the closed forms say which case the point is in; the
    invariant hands the body the scratch word at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [leaves2_0, leaves2_1]
  have hN : t.val < 64 := lt_of_lt_of_eq t.isLt (show cfg2.N = 64 from N_2)
  by_cases h0 : t.val = 0
  · have h1 : ¬t.val = 63 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    rw [PhiS2_castSucc V c t, PhiS2_zero V c _ _ h0, PhiA2_eq]
    iintro ⟨⟨⟨HS0, Hrest⟩, Hg⟩, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_A c (grid2.coords t) (ms2_0 t) (hs2_0 t) (ms2_1 t) (hs2_1 t) (ms2_2 t) (hs2_2 t) scM2 (Memref.isWhole_whole _) _ _ _ _)
        iexact Hrest
      iexact Hg
    isplitl [Ho]; · iexact Ho
    isplitl [H0]; · iexact H0
    isplitl [H1]; · iexact H1
    iexists _; iexact H2
  · by_cases h1 : t.val = 63
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C; (try dsimp only)
      rw [PhiS2_castSucc V c t, PhiS2_pos V c _ _ h0]
      iintro ⟨⟨⟨HS0, Hrest⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c (grid2.coords t) (ms2_0 t) (hs2_0 t) (ms2_1 t) (hs2_1 t) (ms2_2 t) (hs2_2 t) scM2 (Memref.isWhole_whole _) _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c (grid2.coords t) (ms2_0 t) (hs2_0 t) (ms2_1 t) (hs2_1 t) (ms2_2 t) (hs2_2 t) scM2 (Memref.isWhole_whole _) _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ h0]
      iintro ⟨⟨⟨HS0, Hrest⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c (grid2.coords t) (ms2_0 t) (hs2_0 t) (ms2_1 t) (hs2_1 t) (ms2_2 t) (hs2_2 t) scM2 (Memref.isWhole_whole _) _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch word's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Region3Base.lean ====
/-
  Region 3 of the program: one pass over the 8 x 8 grid of 1024 x 1024 tiles of pairs of feature rows, a running total
  kept in a one-word scratch between grid points. What the three control cases of the body share: the block each window
  shows the body at a point; the two conditions of the body (the reset at the first point, the store of the total at the last)
  in closed form over the grid; where the output window is idle; the staging and scratch memrefs; the class invariant with
  the scratch word named.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer shows its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer shows its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The reset's condition (both grid coordinates zero), as the body computes it from the coordinates. -/
abbrev cond3_0 (i : grid3.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The final store's condition (both grid coordinates 7). -/
abbrev cond3_1 (i : grid3.Coords) : Prop := k3_cond2 i = 1#1
/-- It holds at the last point only. -/
theorem hcond3_1 : ∀ t : Fin cfg3.N, cond3_1 (grid3.coords t) ↔ t.val = 63 :=
  (by decide +kernel : ∀ t : Fin grid3.N, cond3_1 (grid3.coords t) ↔ t.val = 63)

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Where the final store's condition fails the output is idle and not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- Where it holds the output is live. -/
theorem liveAt3_2 : ∀ t : Fin cfg3.N, cond3_1 (grid3.coords t) → cfg3.idle 2 (grid3.coords t) = false := by decide +kernel

/-- One staging buffer of the output window, through which its contents are stated. -/
abbrev VO3_2 : View sig .tc .vmem S1x1 .f32 := (Memref.whole cc3_stg2_0 : Memref sig .tc .vmem S1x1 .f32).view
/-- Each window's current staging memref at point `t`, as the pipeline passes it, and its wholeness. -/
abbrev ms3_0 (t : Fin cfg3.N) : Memref sig .tc .vmem S1024x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1 .f32 := win3_2.stage (cfg3.slots t 2)
abbrev hs3_2 (t : Fin cfg3.N) : (ms3_2 t).IsWhole := hstage3_2 ((cfg3.slots t 2).cast nbuf3_2)
/-- The scratch word the kernel carries between points, as a memref and as a view. -/
abbrev scM3 : Memref sig .tc .vmem S1x1 .f32 := Memref.whole cc3_scratch0
abbrev VS3 : View sig .tc .vmem S1x1 .f32 := scM3.view

/-- The class invariant with the scratch word owned at some contents, the other scoped buffers unopened. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Hand

end
-- ==== Proof.KI.Region3RunA.lean ====
/-
  Region 3, control case A of the body (the first point: the running total is reset, then the tile's total added; nothing stored to the output):
  the body's triple on whole staging memrefs, with the pieces its stores leave in the scratch word found by running it.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region3Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at anything, the body runs to the
    continuation holding the inputs' as they were and the scratch with its pieces written. -/
noncomputable def kernelRun3_A (c : Dev nD) (i : grid3.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : cond3_0 i) (hc1 : ¬cond3_1 i)
    (x0 : Vec F S1024x64 .f32) (x1 : Vec F S64x1024 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Region3RunB.lean ====
/-
  Region 3, control case B of the body (a middle point: the tile's total added to the running total; nothing stored to the output):
  the body's triple on whole staging memrefs, with the pieces its stores leave in the scratch word found by running it.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region3Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at what the point before left, the body runs to the
    continuation holding the inputs' as they were and the scratch with its pieces written. -/
noncomputable def kernelRun3_B (c : Dev nD) (i : grid3.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond3_0 i) (hc1 : ¬cond3_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Region3RunC.lean ====
/-
  Region 3, control case C of the body (the last point: the tile's total added to the running total, and the total stored to the output):
  the body's triple on whole staging memrefs, with the pieces its stores leave in the scratch word and in the output found by running it.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region3Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the output's at anything and the scratch at what the point before left, the body runs to the
    continuation holding the inputs' as they were, the output's with its pieces written and the scratch with its pieces written. -/
noncomputable def kernelRun3_C (c : Dev nD) (i : grid3.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond3_0 i) (hc1 : cond3_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.KI.Region3Body.lean ====
/-
  Region 3: what the scratch word and the output's staging buffer hold after each grid point (by recursion on the
  point: the first point resets the running total and adds its tile, every later point adds its tile to what the point
  before left, the last point also stores the total to the output), the region's proof data with the invariant naming the
  scratch word's contents, and the body obligation at every point.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region3RunA
import proofs.«105377_j36833639530798_1_alg».proof.Proof.KI.Region3RunB
import proofs.«105377_j36833639530798_1_alg».proof.Proof.KI.Region3RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out3_A_2 (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond3_0 i) (hc1 : ¬cond3_1 i) (x0 : Vec F S1024x64 .f32) (x1 : Vec F S64x1024 .f32) : Vec F S1x1 .f32 :=
  VO3_2.read (Elt F) (VO3_2.writes (Elt F) VO3_2.junk (kernelRun3_A c i arg2 harg2 arg3 harg3 arg4 harg4 arg5 harg5 hc0 hc1 x0 x1).1)

/-- Case A's stores into the scratch word cover it. -/
theorem scover3_A (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond3_0 i) (hc1 : ¬cond3_1 i) (x0 : Vec F S1024x64 .f32) (x1 : Vec F S64x1024 .f32) (y : S1x1.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1x1.size (by sl_kernel_rfl) y

/-- What case A leaves in the scratch word: its pieces read back. -/
def sout3_A (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond3_0 i) (hc1 : ¬cond3_1 i) (x0 : Vec F S1024x64 .f32) (x1 : Vec F S64x1024 .f32) : Vec F S1x1 .f32 :=
  VS3.read (Elt F) (VS3.writes (Elt F) VS3.junk (kernelRun3_A c i arg2 harg2 arg3 harg3 arg4 harg4 arg5 harg5 hc0 hc1 x0 x1).2.1)

/-- What case B leaves in the output's staging buffer: its pieces read back (none: a placeholder nothing consults, the window being idle there). -/
def out3_B_2 (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : ¬cond3_1 i) (x0 : Vec F S1024x64 .f32) (x1 : Vec F S64x1024 .f32) (xs0 : Vec F S1x1 .f32) : Vec F S1x1 .f32 :=
  VO3_2.read (Elt F) (VO3_2.writes (Elt F) VO3_2.junk (kernelRun3_B c i arg2 harg2 arg3 harg3 arg4 harg4 arg5 harg5 hc0 hc1 x0 x1 xs0).1)

/-- Case B's stores into the scratch word cover it. -/
theorem scover3_B (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : ¬cond3_1 i) (x0 : Vec F S1024x64 .f32) (x1 : Vec F S64x1024 .f32) (xs0 : Vec F S1x1 .f32) (y : S1x1.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1x1.size (by sl_kernel_rfl) y

/-- What case B leaves in the scratch word: its pieces read back. -/
def sout3_B (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : ¬cond3_1 i) (x0 : Vec F S1024x64 .f32) (x1 : Vec F S64x1024 .f32) (xs0 : Vec F S1x1 .f32) : Vec F S1x1 .f32 :=
  VS3.read (Elt F) (VS3.writes (Elt F) VS3.junk (kernelRun3_B c i arg2 harg2 arg3 harg3 arg4 harg4 arg5 harg5 hc0 hc1 x0 x1 xs0).2.1)

/-- What case C leaves in the output's staging buffer: its pieces read back. -/
def out3_C_2 (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) : Vec F S1x1 .f32 :=
  VO3_2.read (Elt F) (VO3_2.writes (Elt F) VO3_2.junk (kernelRun3_C c i arg2 harg2 arg3 harg3 arg4 harg4 arg5 harg5 hc0 hc1 x0 x1 xs0).1)

/-- Case C's stores into the scratch word cover it. -/
theorem scover3_C (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) (y : S1x1.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1x1.size (by sl_kernel_rfl) y

/-- What case C leaves in the scratch word: its pieces read back. -/
def sout3_C (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) : Vec F S1x1 .f32 :=
  VS3.read (Elt F) (VS3.writes (Elt F) VS3.junk (kernelRun3_C c i arg2 harg2 arg3 harg3 arg4 harg4 arg5 harg5 hc0 hc1 x0 x1 xs0).2.1)

/-- Case C's store into the output covers it. -/
theorem cover3_C_2 (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) (y : S1x1.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1x1.size (by sl_kernel_rfl) y

/-- THE ACCUMULATION: the output's staging buffer and the scratch word after the body at position `n` (a pair: output,
    scratch): the case the closed forms select at `n`, run at the point's memrefs and input blocks, the scratch the case
    reads at what this leaves at `n - 1`. -/
def outsAt3 (c : Dev nD) : (n : ℕ) → n < cfg3.N → Vec F S1x1 .f32 × Vec F S1x1 .f32
  | 0, hn =>
    (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr rfl) (fun h => by have h' := (hcond3_1 ⟨0, hn⟩).mp h; (try dsimp only at h'); omega) (iblk3 V c 0 ⟨0, hn⟩) (iblk3 V c 1 ⟨0, hn⟩),
     sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr rfl) (fun h => by have h' := (hcond3_1 ⟨0, hn⟩).mp h; (try dsimp only at h'); omega) (iblk3 V c 0 ⟨0, hn⟩) (iblk3 V c 1 ⟨0, hn⟩))
  | n + 1, hn =>
    if h1 : n + 1 = 63 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2,
       sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => Nat.succ_ne_zero n ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
    else
      (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2,
       sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => Nat.succ_ne_zero n ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- At the first point: case A's contents. -/
theorem outsAt3_A (c : Dev nD) (t : Fin cfg3.N) (h0 : t.val = 0) (h1 : ¬t.val = 63) :
    outsAt3 V c t.val t.isLt = (out3_A_2 c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t),
      sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact absurd h0 (Nat.succ_ne_zero n)

/-- At a middle point: case B's contents, over what the point before left. -/
theorem outsAt3_B (c : Dev nD) (t : Fin cfg3.N) (h0 : ¬t.val = 0) (h1 : ¬t.val = 63) :
    outsAt3 V c t.val t.isLt = (out3_B_2 c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2,
      sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact absurd rfl h0
  | succ n => exact (dif_neg h1).trans rfl

/-- At the last point: case C's contents, over what the point before left. -/
theorem outsAt3_C (c : Dev nD) (t : Fin cfg3.N) (h0 : ¬t.val = 0) (h1 : t.val = 63) :
    outsAt3 V c t.val t.isLt = (out3_C_2 c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the scratch word at anything);
    afterwards the scratch word at what the point before left in it, the other scoped buffers unopened, the generator
    register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The region's proof data on core `c`: the arrays as the region finds them; after the body at point `t` each input's
    buffer at its block and the output's at the accumulation's first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]

set_option maxHeartbeats 8000000 in
/-- The body at any point: the inputs' memrefs hold their blocks; the closed forms say which case the point is in; the
    invariant hands the body the scratch word at what the point before left (at anything at the first point) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [leaves3_0, leaves3_1]
  have hN : t.val < 64 := lt_of_lt_of_eq t.isLt (show cfg3.N = 64 from N_3)
  by_cases h0 : t.val = 0
  · have h1 : ¬t.val = 63 := by omega
    rw [Dat.leavesExact_idle (dat3 V c) 2 t (idleAt3_2 t (fun h => h1 ((hcond3_1 t).mp h))) (noFlush3_2 t (fun h => h1 ((hcond3_1 t).mp h)))]
    rw [outsAt3_A V c t h0 h1]
    unfold sout3_A; (try dsimp only)
    rw [PhiS3_castSucc V c t, PhiS3_zero V c _ _ h0, PhiA3_eq]
    iintro ⟨⟨⟨HS0, Hrest⟩, Hg⟩, Ho, ⟨%d0, H0⟩, ⟨%d1, H1⟩, ⟨%d2, H2⟩⟩
    iapply ((kernelRun3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover3_A c (grid3.coords t) (ms3_0 t) (hs3_0 t) (ms3_1 t) (hs3_1 t) (ms3_2 t) (hs3_2 t) scM3 (Memref.isWhole_whole _) _ _ _ _)
        iexact Hrest
      iexact Hg
    isplitl [Ho]; · iexact Ho
    isplitl [H0]; · iexact H0
    isplitl [H1]; · iexact H1
    iexists _; iexact H2
  · by_cases h1 : t.val = 63
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C_2 sout3_C; (try dsimp only)
      rw [PhiS3_castSucc V c t, PhiS3_pos V c _ _ h0]
      iintro ⟨⟨⟨HS0, Hrest⟩, Hg⟩, Ho, ⟨%d0, H0⟩, ⟨%d1, H1⟩, ⟨%d2, H2⟩⟩
      iapply ((kernelRun3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C c (grid3.coords t) (ms3_0 t) (hs3_0 t) (ms3_1 t) (hs3_1 t) (ms3_2 t) (hs3_2 t) scM3 (Memref.isWhole_whole _) _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c (grid3.coords t) (ms3_0 t) (hs3_0 t) (ms3_1 t) (hs3_1 t) (ms3_2 t) (hs3_2 t) scM3 (Memref.isWhole_whole _) _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold sout3_B; (try dsimp only)
      rw [PhiS3_castSucc V c t, PhiS3_pos V c _ _ h0]
      iintro ⟨⟨⟨HS0, Hrest⟩, Hg⟩, Ho, ⟨%d0, H0⟩, ⟨%d1, H1⟩, ⟨%d2, H2⟩⟩
      iapply ((kernelRun3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B c (grid3.coords t) (ms3_0 t) (hs3_0 t) (ms3_1 t) (hs3_1 t) (ms3_2 t) (hs3_2 t) scM3 (Memref.isWhole_whole _) _ _ _ _ _)
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch word's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Region4Base.lean ====
/-
  Region 4 of the program: one pass over the 8 x 8 grid of 1024 x 1024 tiles of pairs of feature rows, a running total
  kept in a one-word scratch between grid points. What the three control cases of the body share: the block each window
  shows the body at a point; the two conditions of the body (the reset at the first point, the store of the total at the last)
  in closed form over the grid; where the output window is idle; the staging and scratch memrefs; the class invariant with
  the scratch word named.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer shows its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer shows its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The reset's condition (both grid coordinates zero), as the body computes it from the coordinates. -/
abbrev cond4_0 (i : grid4.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The final store's condition (both grid coordinates 7). -/
abbrev cond4_1 (i : grid4.Coords) : Prop := k4_cond2 i = 1#1
/-- It holds at the last point only. -/
theorem hcond4_1 : ∀ t : Fin cfg4.N, cond4_1 (grid4.coords t) ↔ t.val = 63 :=
  (by decide +kernel : ∀ t : Fin grid4.N, cond4_1 (grid4.coords t) ↔ t.val = 63)

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where the final store's condition fails the output is idle and not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where it holds the output is live. -/
theorem liveAt4_2 : ∀ t : Fin cfg4.N, cond4_1 (grid4.coords t) → cfg4.idle 2 (grid4.coords t) = false := by decide +kernel

/-- One staging buffer of the output window, through which its contents are stated. -/
abbrev VO4_2 : View sig .tc .vmem S1x1 .f32 := (Memref.whole cc4_stg2_0 : Memref sig .tc .vmem S1x1 .f32).view
/-- Each window's current staging memref at point `t`, as the pipeline passes it, and its wholeness. -/
abbrev ms4_0 (t : Fin cfg4.N) : Memref sig .tc .vmem S1024x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1 .f32 := win4_2.stage (cfg4.slots t 2)
abbrev hs4_2 (t : Fin cfg4.N) : (ms4_2 t).IsWhole := hstage4_2 ((cfg4.slots t 2).cast nbuf4_2)
/-- The scratch word the kernel carries between points, as a memref and as a view. -/
abbrev scM4 : Memref sig .tc .vmem S1x1 .f32 := Memref.whole cc4_scratch0
abbrev VS4 : View sig .tc .vmem S1x1 .f32 := scM4.view

/-- The class invariant with the scratch word owned at some contents, the other scoped buffers unopened. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.KernelIdeal.Hand

end
-- ==== Proof.KI.Region4RunA.lean ====
/-
  Region 4, control case A of the body (the first point: the running total is reset, then the tile's total added; nothing stored to the output):
  the body's triple on whole staging memrefs, with the pieces its stores leave in the scratch word found by running it.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at anything, the body runs to the
    continuation holding the inputs' as they were and the scratch with its pieces written. -/
noncomputable def kernelRun4_A (c : Dev nD) (i : grid4.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : cond4_0 i) (hc1 : ¬cond4_1 i)
    (x0 : Vec F S1024x64 .f32) (x1 : Vec F S64x1024 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Region4RunB.lean ====
/-
  Region 4, control case B of the body (a middle point: the tile's total added to the running total; nothing stored to the output):
  the body's triple on whole staging memrefs, with the pieces its stores leave in the scratch word found by running it.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the idle output's at contents handed back untouched and the scratch at what the point before left, the body runs to the
    continuation holding the inputs' as they were and the scratch with its pieces written. -/
noncomputable def kernelRun4_B (c : Dev nD) (i : grid4.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond4_0 i) (hc1 : ¬cond4_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Region4RunC.lean ====
/-
  Region 4, control case C of the body (the last point: the tile's total added to the running total, and the total stored to the output):
  the body's triple on whole staging memrefs, with the pieces its stores leave in the scratch word and in the output found by running it.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region4Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (output: `L2`; scratch: `LS0`), with the proof that from the inputs' memrefs at
    their contents, the output's at anything and the scratch at what the point before left, the body runs to the
    continuation holding the inputs' as they were, the output's with its pieces written and the scratch with its pieces written. -/
noncomputable def kernelRun4_C (c : Dev nD) (i : grid4.Coords) (arg2 : Memref sig .tc .vmem S1024x64 .f32) (harg2 : arg2.IsWhole) (arg3 : Memref sig .tc .vmem S64x1024 .f32) (harg3 : arg3.IsWhole)
    (arg4 : Memref sig .tc .vmem S1x1 .f32) (harg4 : arg4.IsWhole) (arg5 : Memref sig .tc .vmem S1x1 .f32) (harg5 : arg5.IsWhole) (hc0 : ¬cond4_0 i) (hc1 : cond4_1 i)
    (x0 : Vec F S1024x64 .f32) (x1 : Vec F S64x1024 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.KI.Region4Body.lean ====
/-
  Region 4: what the scratch word and the output's staging buffer hold after each grid point (by recursion on the
  point: the first point resets the running total and adds its tile, every later point adds its tile to what the point
  before left, the last point also stores the total to the output), the region's proof data with the invariant naming the
  scratch word's contents, and the body obligation at every point.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region4RunA
import proofs.«105377_j36833639530798_1_alg».proof.Proof.KI.Region4RunB
import proofs.«105377_j36833639530798_1_alg».proof.Proof.KI.Region4RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle there). -/
def out4_A_2 (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond4_0 i) (hc1 : ¬cond4_1 i) (x0 : Vec F S1024x64 .f32) (x1 : Vec F S64x1024 .f32) : Vec F S1x1 .f32 :=
  VO4_2.read (Elt F) (VO4_2.writes (Elt F) VO4_2.junk (kernelRun4_A c i arg2 harg2 arg3 harg3 arg4 harg4 arg5 harg5 hc0 hc1 x0 x1).1)

/-- Case A's stores into the scratch word cover it. -/
theorem scover4_A (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond4_0 i) (hc1 : ¬cond4_1 i) (x0 : Vec F S1024x64 .f32) (x1 : Vec F S64x1024 .f32) (y : S1x1.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1x1.size (by sl_kernel_rfl) y

/-- What case A leaves in the scratch word: its pieces read back. -/
def sout4_A (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond4_0 i) (hc1 : ¬cond4_1 i) (x0 : Vec F S1024x64 .f32) (x1 : Vec F S64x1024 .f32) : Vec F S1x1 .f32 :=
  VS4.read (Elt F) (VS4.writes (Elt F) VS4.junk (kernelRun4_A c i arg2 harg2 arg3 harg3 arg4 harg4 arg5 harg5 hc0 hc1 x0 x1).2.1)

/-- What case B leaves in the output's staging buffer: its pieces read back (none: a placeholder nothing consults, the window being idle there). -/
def out4_B_2 (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : ¬cond4_1 i) (x0 : Vec F S1024x64 .f32) (x1 : Vec F S64x1024 .f32) (xs0 : Vec F S1x1 .f32) : Vec F S1x1 .f32 :=
  VO4_2.read (Elt F) (VO4_2.writes (Elt F) VO4_2.junk (kernelRun4_B c i arg2 harg2 arg3 harg3 arg4 harg4 arg5 harg5 hc0 hc1 x0 x1 xs0).1)

/-- Case B's stores into the scratch word cover it. -/
theorem scover4_B (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : ¬cond4_1 i) (x0 : Vec F S1024x64 .f32) (x1 : Vec F S64x1024 .f32) (xs0 : Vec F S1x1 .f32) (y : S1x1.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1x1.size (by sl_kernel_rfl) y

/-- What case B leaves in the scratch word: its pieces read back. -/
def sout4_B (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : ¬cond4_1 i) (x0 : Vec F S1024x64 .f32) (x1 : Vec F S64x1024 .f32) (xs0 : Vec F S1x1 .f32) : Vec F S1x1 .f32 :=
  VS4.read (Elt F) (VS4.writes (Elt F) VS4.junk (kernelRun4_B c i arg2 harg2 arg3 harg3 arg4 harg4 arg5 harg5 hc0 hc1 x0 x1 xs0).2.1)

/-- What case C leaves in the output's staging buffer: its pieces read back. -/
def out4_C_2 (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) : Vec F S1x1 .f32 :=
  VO4_2.read (Elt F) (VO4_2.writes (Elt F) VO4_2.junk (kernelRun4_C c i arg2 harg2 arg3 harg3 arg4 harg4 arg5 harg5 hc0 hc1 x0 x1 xs0).1)

/-- Case C's stores into the scratch word cover it. -/
theorem scover4_C (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) (y : S1x1.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1x1.size (by sl_kernel_rfl) y

/-- What case C leaves in the scratch word: its pieces read back. -/
def sout4_C (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) : Vec F S1x1 .f32 :=
  VS4.read (Elt F) (VS4.writes (Elt F) VS4.junk (kernelRun4_C c i arg2 harg2 arg3 harg3 arg4 harg4 arg5 harg5 hc0 hc1 x0 x1 xs0).2.1)

/-- Case C's store into the output covers it. -/
theorem cover4_C_2 (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) (y : S1x1.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1x1.size (by sl_kernel_rfl) y

/-- THE ACCUMULATION: the output's staging buffer and the scratch word after the body at position `n` (a pair: output,
    scratch): the case the closed forms select at `n`, run at the point's memrefs and input blocks, the scratch the case
    reads at what this leaves at `n - 1`. -/
def outsAt4 (c : Dev nD) : (n : ℕ) → n < cfg4.N → Vec F S1x1 .f32 × Vec F S1x1 .f32
  | 0, hn =>
    (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _) ((hcond4_0 ⟨0, hn⟩).mpr rfl) (fun h => by have h' := (hcond4_1 ⟨0, hn⟩).mp h; (try dsimp only at h'); omega) (iblk4 V c 0 ⟨0, hn⟩) (iblk4 V c 1 ⟨0, hn⟩),
     sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _) ((hcond4_0 ⟨0, hn⟩).mpr rfl) (fun h => by have h' := (hcond4_1 ⟨0, hn⟩).mp h; (try dsimp only at h'); omega) (iblk4 V c 0 ⟨0, hn⟩) (iblk4 V c 1 ⟨0, hn⟩))
  | n + 1, hn =>
    if h1 : n + 1 = 63 then
      (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2,
       sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2,
       sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- At the first point: case A's contents. -/
theorem outsAt4_A (c : Dev nD) (t : Fin cfg4.N) (h0 : t.val = 0) (h1 : ¬t.val = 63) :
    outsAt4 V c t.val t.isLt = (out4_A_2 c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t),
      sout4_A c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact absurd h0 (Nat.succ_ne_zero n)

/-- At a middle point: case B's contents, over what the point before left. -/
theorem outsAt4_B (c : Dev nD) (t : Fin cfg4.N) (h0 : ¬t.val = 0) (h1 : ¬t.val = 63) :
    outsAt4 V c t.val t.isLt = (out4_B_2 c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2,
      sout4_B c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact absurd rfl h0
  | succ n => exact (dif_neg h1).trans rfl

/-- At the last point: case C's contents, over what the point before left. -/
theorem outsAt4_C (c : Dev nD) (t : Fin cfg4.N) (h0 : ¬t.val = 0) (h1 : t.val = 63) :
    outsAt4 V c t.val t.isLt = (out4_C_2 c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the scratch word at anything);
    afterwards the scratch word at what the point before left in it, the other scoped buffers unopened, the generator
    register at some state. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The region's proof data on core `c`: the arrays as the region finds them; after the body at point `t` each input's
    buffer at its block and the output's at the accumulation's first component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]

set_option maxHeartbeats 8000000 in
/-- The body at any point: the inputs' memrefs hold their blocks; the closed forms say which case the point is in; the
    invariant hands the body the scratch word at what the point before left (at anything at the first point) and takes
    it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1]
  have hN : t.val < 64 := lt_of_lt_of_eq t.isLt (show cfg4.N = 64 from N_4)
  by_cases h0 : t.val = 0
  · have h1 : ¬t.val = 63 := by omega
    rw [Dat.leavesExact_idle (dat4 V c) 2 t (idleAt4_2 t (fun h => h1 ((hcond4_1 t).mp h))) (noFlush4_2 t (fun h => h1 ((hcond4_1 t).mp h)))]
    rw [outsAt4_A V c t h0 h1]
    unfold sout4_A; (try dsimp only)
    rw [PhiS4_castSucc V c t, PhiS4_zero V c _ _ h0, PhiA4_eq]
    iintro ⟨⟨⟨HS0, Hrest⟩, Hg⟩, Ho, ⟨%d0, H0⟩, ⟨%d1, H1⟩, ⟨%d2, H2⟩⟩
    iapply ((kernelRun4_A c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover4_A c (grid4.coords t) (ms4_0 t) (hs4_0 t) (ms4_1 t) (hs4_1 t) (ms4_2 t) (hs4_2 t) scM4 (Memref.isWhole_whole _) _ _ _ _)
        iexact Hrest
      iexact Hg
    isplitl [Ho]; · iexact Ho
    isplitl [H0]; · iexact H0
    isplitl [H1]; · iexact H1
    iexists _; iexact H2
  · by_cases h1 : t.val = 63
    · rw [show (dat4 V c).leavesExact 2 t = owns (c : Thread nD τ) (ms4_2 t) fullShare ((dat4 V c).after 2 t) from by
        unfold Dat.leavesExact; rw [liveAt4_2 t ((hcond4_1 t).mpr h1)], after4_2]
      rw [outsAt4_C V c t h0 h1]
      unfold out4_C_2 sout4_C; (try dsimp only)
      rw [PhiS4_castSucc V c t, PhiS4_pos V c _ _ h0]
      iintro ⟨⟨⟨HS0, Hrest⟩, Hg⟩, Ho, ⟨%d0, H0⟩, ⟨%d1, H1⟩, ⟨%d2, H2⟩⟩
      iapply ((kernelRun4_C c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C c (grid4.coords t) (ms4_0 t) (hs4_0 t) (ms4_1 t) (hs4_1 t) (ms4_2 t) (hs4_2 t) scM4 (Memref.isWhole_whole _) _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c (grid4.coords t) (ms4_0 t) (hs4_0 t) (ms4_1 t) (hs4_1 t) (ms4_2 t) (hs4_2 t) scM4 (Memref.isWhole_whole _) _ _ _ _ _)
    · rw [Dat.leavesExact_idle (dat4 V c) 2 t (idleAt4_2 t (fun h => h1 ((hcond4_1 t).mp h))) (noFlush4_2 t (fun h => h1 ((hcond4_1 t).mp h)))]
      rw [outsAt4_B V c t h0 h1]
      unfold sout4_B; (try dsimp only)
      rw [PhiS4_castSucc V c t, PhiS4_pos V c _ _ h0]
      iintro ⟨⟨⟨HS0, Hrest⟩, Hg⟩, Ho, ⟨%d0, H0⟩, ⟨%d1, H1⟩, ⟨%d2, H2⟩⟩
      iapply ((kernelRun4_B c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B c (grid4.coords t) (ms4_0 t) (hs4_0 t) (ms4_1 t) (hs4_1 t) (ms4_2 t) (hs4_2 t) scM4 (Memref.isWhole_whole _) _ _ _ _ _)
          iexact Hrest
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the scratch word's named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 64 := N_4; omega), PhiA4_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.RunDefs.lean ====
/-
  The run of the whole program, first half: what every buffer holds at each boundary between two items of the program
  (region, region, two transposes, region, reshape, region, reshape, region, the closing scalar arithmetic) as a fold from
  the launch memory — a region's arrays at what its write-backs leave, a host stretch by its operations —, every region's
  proof data at its entry contents, and what rides beside the buffers through every item.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Region0
import proofs.«105377_j36833639530798_1_alg».proof.Proof.KI.Region1
import proofs.«105377_j36833639530798_1_alg».proof.Proof.KI.Region2Body
import proofs.«105377_j36833639530798_1_alg».proof.Proof.KI.Region3Body
import proofs.«105377_j36833639530798_1_alg».proof.Proof.KI.Region4Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host stretch `hostOps2`. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b
theorem hostOps2_fresh : (hostOps2 : List (HloOp τ sig (Elt F))).Forall fun op => op.fresh = ∅ := by
  simp only [List.Forall]; repeat' constructor

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host stretch `hostOps3`. -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
theorem hostOps3_fresh : (hostOps3 : List (HloOp τ sig (Elt F))).Forall fun op => op.fresh = ∅ := by
  simp only [List.Forall]; repeat' constructor

/-- At region 3's exit: its arrays at what the pipeline leaves, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4`. -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
theorem hostOps4_fresh : (hostOps4 : List (HloOp τ sig (Elt F))).Forall fun op => op.fresh = ∅ := by
  simp only [List.Forall]; repeat' constructor

/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After the host stretch `hostOps5`. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
theorem hostOps5_fresh : (hostOps5 : List (HloOp τ sig (Elt F))).Forall fun op => op.fresh = ∅ := by
  simp only [List.Forall]; repeat' constructor

/-- The references `hostOps2`'s operations write, -/
abbrev hostW2 : List (Ref sig .tc) := [main_v2, main_v3]
theorem hostOps2_wr : (hostOps2 : List (HloOp τ sig (Elt F))).Forall fun op => op.writes ⊆ (hostW2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- and every other buffer passes through the stretch unchanged. -/
theorem W3_of (c : Dev nD) (r : Ref sig .tc) (h : r ∉ hostW2) : W3 m ρ c (Proc.devRef .tc r) = W2 m ρ c (Proc.devRef .tc r) :=
  StableHlo.after_of_writes_sub hostOps2 _ hostOps2_wr h

/-- The references `hostOps3`'s operations write, -/
abbrev hostW3 : List (Ref sig .tc) := [main_v5]
theorem hostOps3_wr : (hostOps3 : List (HloOp τ sig (Elt F))).Forall fun op => op.writes ⊆ (hostW3.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- and every other buffer passes through the stretch unchanged. -/
theorem W5_of (c : Dev nD) (r : Ref sig .tc) (h : r ∉ hostW3) : W5 m ρ c (Proc.devRef .tc r) = W4 m ρ c (Proc.devRef .tc r) :=
  StableHlo.after_of_writes_sub hostOps3 _ hostOps3_wr h

/-- The references `hostOps4`'s operations write, -/
abbrev hostW4 : List (Ref sig .tc) := [main_v7]
theorem hostOps4_wr : (hostOps4 : List (HloOp τ sig (Elt F))).Forall fun op => op.writes ⊆ (hostW4.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- and every other buffer passes through the stretch unchanged. -/
theorem W7_of (c : Dev nD) (r : Ref sig .tc) (h : r ∉ hostW4) : W7 m ρ c (Proc.devRef .tc r) = W6 m ρ c (Proc.devRef .tc r) :=
  StableHlo.after_of_writes_sub hostOps4 _ hostOps4_wr h

/-- The references `hostOps5`'s operations write, -/
abbrev hostW5 : List (Ref sig .tc) := [main_v9, main_cst, main_v10, main_cst_0, main_v11, main_cst_1, main_v12, main_v13, main_cst_2, main_v14, main_v15]
theorem hostOps5_wr : (hostOps5 : List (HloOp τ sig (Elt F))).Forall fun op => op.writes ⊆ (hostW5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- and every other buffer passes through the stretch unchanged. -/
theorem W9_of (c : Dev nD) (r : Ref sig .tc) (h : r ∉ hostW5) : W9 m ρ c (Proc.devRef .tc r) = W8 m ρ c (Proc.devRef .tc r) :=
  StableHlo.after_of_writes_sub hostOps5 _ hostOps5_wr h

/-- No pallas_call has a prefetched table. -/
abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V5 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

end Cert.KernelIdeal.Hand

end
-- ==== Proof.KI.Reg0.lean ====
/-
  Region 0 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Region 3 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ (Pipeline.ΦA spec3 c : sProp 𝕄) from hout3 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/-
  Region 4 as an item of the run: entered from every unscoped buffer at the boundary's contents, left at the next
  boundary's. Its arrays are split out of the unscoped buffers on entry and put back at their final contents on exit; the
  generator register goes into the region's invariant and comes back; nothing is owed; the kernel has no semaphore of its own.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 2000000 in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m ρ 4 c).Φ (Fin.last _) ⊢ (Pipeline.ΦA spec4 c : sProp 𝕄) from hout4 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunMain.lean ====
/-
  The run of the whole program, second half: the program is the run of its nine items in order, and from any memory
  with zero counters every weakly fair execution terminates, nothing faulting, in a state whose every unscoped buffer
  holds the last boundary's contents.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.Reg0
import proofs.«105377_j36833639530798_1_alg».proof.Proof.KI.Reg1
import proofs.«105377_j36833639530798_1_alg».proof.Proof.KI.Reg2
import proofs.«105377_j36833639530798_1_alg».proof.Proof.KI.Reg3
import proofs.«105377_j36833639530798_1_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's nine items in order. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)) ]
/-- The program IS the run of the items. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters, every weakly fair execution of the program terminates, nothing
    faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c) ∗ R c) : sProp 𝕄)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Hand

end
-- ==== Proof.KI.RunArgs.lean ====
/-
  The argument arrays end as launched: no host operation writes one and no region does (a region reads an argument
  through an input window, whose array the write-backs never touch, or does not stage it at all), so the fold of the
  boundaries' contents at an argument's buffer walks back to the launch memory.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := (W1_arr m ρ c 4).trans (((dat0 (V0 m ρ) c).arrAt_in 4 rfl _).trans (A_eq0 (V0 m ρ) c 4))
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 1).trans (((dat1 (V1 m ρ) c).arrAt_in 1 rfl _).trans (A_eq1 (V1 m ρ) c 1))
    _ = W0 m ρ c (Proc.devRef .tc main_arg6) := W1_of_ne m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := (W2_arr m ρ c 2).trans (((dat1 (V1 m ρ) c).arrAt_in 2 rfl _).trans (A_eq1 (V1 m ρ) c 2))
    _ = W0 m ρ c (Proc.devRef .tc main_arg7) := W1_of_ne m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := (W2_arr m ρ c 3).trans (((dat1 (V1 m ρ) c).arrAt_in 3 rfl _).trans (A_eq1 (V1 m ρ) c 3))
    _ = W0 m ρ c (Proc.devRef .tc main_arg8) := W1_of_ne m ρ c main_arg8 (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := (W2_arr m ρ c 4).trans (((dat1 (V1 m ρ) c).arrAt_in 4 rfl _).trans (A_eq1 (V1 m ρ) c 4))
    _ = W0 m ρ c (Proc.devRef .tc main_arg9) := W1_of_ne m ρ c main_arg9 (by decide)
    _ = m ((c : Thread nD τ).loc main_arg9) := rfl

end Cert.KernelIdeal.Hand

end
-- ==== Proof.KI.Frame.lean ====
/-
  The frame of the program: every weakly fair execution terminates, nothing faulting, with each of the ten argument
  arrays as launched — the run's final contents read at the arguments' buffers.
-/
import proofs.«105377_j36833639530798_1_alg».proof.Proof.Gen.KernelIdeal.Launch
import proofs.«105377_j36833639530798_1_alg».proof.Proof.Gen.KernelIdeal.Skeleton
import proofs.«105377_j36833639530798_1_alg».proof.Proof.Gen.KernelIdeal.Points
import proofs.«105377_j36833639530798_1_alg».proof.Proof.KI.RunMain
import proofs.«105377_j36833639530798_1_alg».proof.Proof.KI.RunArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩)
    (run_main m ρ)

end Cert.KernelIdeal.Hand

end
-- ==== Proof.Spec.lean ====
/-
  The mathematics of the claim, stated once over extended reals and literal shapes, with no program in sight.

  Two feature matrices are produced by the same two-layer map (a linear layer, a clamp at zero, a second linear layer),
  and the scalar result is the maximum-mean-discrepancy of the two sets of 8192 rows under the Gaussian kernel
  exp(-d/2), d the squared distance clamped at zero, each mean a sum over all 8192 x 8192 pairs divided by 2^26.
-/
import Idealize.ShloMosaic.PureOps.Ideal
import Idealize.ShloMosaic.Lib.ValueIdx

noncomputable section

open scoped BigOperators

namespace Cert.MMD

open Idealize.ShloMosaic Idealize.ShloMosaic.ValueIdx

/-- The float words the two programs share: 2, 1/2 and 2^26, each read as the extended real it denotes. -/
abbrev two : EReal := Ideal.ofBits .f32 0x40000000#32
abbrev half : EReal := Ideal.ofBits .f32 0x3F000000#32
abbrev count : EReal := Ideal.ofBits .f32 0x4C800000#32

/-- One entry of the two-layer map: row `n` of `X` through `W1`, `b1`, the clamp at zero, `W2`, `b2`, at column `o`. -/
def projAt {N D : Nat} (X : (⟨2, ![N, D]⟩ : Shape).Idx → EReal) (W1 : (⟨2, ![D, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (n : Fin N) (o : Fin 64) : EReal :=
  (∑ h : Fin 64, max ((∑ d : Fin D, X (ix2 n d) * W1 (ix2 d h)) + b1 (ix1 h)) 0 * W2 (ix2 h o)) + b2 (ix1 o)

/-- The two-layer map as a whole array. -/
def proj {N D : Nat} (X : (⟨2, ![N, D]⟩ : Shape).Idx → EReal) (W1 : (⟨2, ![D, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![N, 64]⟩ : Shape).Idx → EReal :=
  fun i => projAt X W1 b1 W2 b2 (i 0) (i 1)

/-- The Gaussian kernel of two feature rows: exp(-(max(|u|^2 + |v|^2 - 2 u.v, 0)) / 2), with the two squared norms and
    the inner product each a sum over the 64 features, grouped exactly as written. -/
def gauss (u v : Fin 64 → EReal) : EReal :=
  Ideal.exp (-(max (((∑ k : Fin 64, u k * u k) + (∑ k : Fin 64, v k * v k)) - two * (∑ k : Fin 64, u k * v k)) 0) * half)

/-- The sum of the kernel over all pairs of rows of `P` and `Q`. -/
def pairSum {N : Nat} (P Q : (⟨2, ![N, 64]⟩ : Shape).Idx → EReal) : EReal :=
  ∑ a : Fin N, ∑ b : Fin N, gauss (fun k => P (ix2 a k)) (fun k => Q (ix2 b k))

/-- The discrepancy from the three pair sums: the two self means added, less twice the cross mean. -/
def loss (sxx syy sxy : EReal) : EReal :=
  (Ideal.div sxx count + Ideal.div syy count) - two * Ideal.div sxy count

end Cert.MMD

end
-- ==== Proof.KI.HostValues.lean ====
/-
  What the host stretches between the regions compute, at the extended reals: the two transposes that feed the pair-sum
  regions, the reshapes of their one-word results to scalars, and the closing arithmetic (three quotients by 2^26, a sum,
  a doubling, a difference), each as a function of the buffers the stretch is entered with.
-/
import proofs.«105377_j36833639530798_1_alg».proof.Proof.KI.RunDefs
import proofs.«105377_j36833639530798_1_alg».proof.Proof.Spec
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The first transpose: `main_v2` is `main_v0` transposed. -/
theorem W3_v2_eq (c : Dev nD) : (W3 m ρ c (Proc.devRef .tc main_v2) : S64x8192.Idx → EReal)
    = transpose S64x8192 [1, 0] (W2 m ρ c (Proc.devRef .tc main_v0) : S8192x64.Idx → EReal) transposes_S8192x64_S64x8192_1_0 := by
  show StableHlo.after hostOps2 (W2 m ρ c) (Proc.devRef .tc main_v2) = _
  after_results
theorem W3_v2 (c : Dev nD) (k : Fin 64) (b : Fin 8192) :
    (W3 m ρ c (Proc.devRef .tc main_v2) : S64x8192.Idx → EReal) (ix2 k b) = (W2 m ρ c (Proc.devRef .tc main_v0) : S8192x64.Idx → EReal) (ix2 b k) := by
  rw [W3_v2_eq]; exact transpose_ix2_apply _ _ k b

/-- The second transpose: `main_v3` is `main_v1` transposed. -/
theorem W3_v3_eq (c : Dev nD) : (W3 m ρ c (Proc.devRef .tc main_v3) : S64x8192.Idx → EReal)
    = transpose S64x8192 [1, 0] (W2 m ρ c (Proc.devRef .tc main_v1) : S8192x64.Idx → EReal) transposes_S8192x64_S64x8192_1_0 := by
  show StableHlo.after hostOps2 (W2 m ρ c) (Proc.devRef .tc main_v3) = _
  after_results
theorem W3_v3 (c : Dev nD) (k : Fin 64) (b : Fin 8192) :
    (W3 m ρ c (Proc.devRef .tc main_v3) : S64x8192.Idx → EReal) (ix2 k b) = (W2 m ρ c (Proc.devRef .tc main_v1) : S8192x64.Idx → EReal) (ix2 b k) := by
  rw [W3_v3_eq]; exact transpose_ix2_apply _ _ k b

/-- A one-word array reshaped to a scalar holds the word. -/
theorem scalar_of_word (x : S1x1.Idx → EReal) (j : S_.Idx) : shapeCast S_ x shapeCasts_S1x1_S_ j = x (ix2 0 0) :=
  shapeCast_apply x shapeCasts_S1x1_S_ j (ix2 0 0) (by rw [eq_ix0 j]; decide)

/-- The closing arithmetic: the discrepancy of the three one-word totals. -/
theorem W9_v15 (c : Dev nD) (j : S_.Idx) :
    (W9 m ρ c (Proc.devRef .tc main_v15) : S_.Idx → EReal) j
      = Cert.MMD.loss ((W8 m ρ c (Proc.devRef .tc main_v5) : S_.Idx → EReal) j) ((W8 m ρ c (Proc.devRef .tc main_v7) : S_.Idx → EReal) j)
          ((W8 m ρ c (Proc.devRef .tc main_v8) : S1x1.Idx → EReal) (ix2 0 0)) := by
  have e : (W9 m ρ c (Proc.devRef .tc main_v15) : S_.Idx → EReal)
      = subf (addf (Host.divf (F := Ideal) (W8 m ρ c (Proc.devRef .tc main_v5) : S_.Idx → EReal) (constant (F := Ideal) S_ .f32 0x4C800000#32))
            (Host.divf (F := Ideal) (W8 m ρ c (Proc.devRef .tc main_v7) : S_.Idx → EReal) (constant (F := Ideal) S_ .f32 0x4C800000#32)))
          (mulf (constant (F := Ideal) S_ .f32 0x40000000#32)
            (Host.divf (F := Ideal) (shapeCast S_ (W8 m ρ c (Proc.devRef .tc main_v8) : S1x1.Idx → EReal) shapeCasts_S1x1_S_) (constant (F := Ideal) S_ .f32 0x4C800000#32))) := by
    show StableHlo.after hostOps5 (W8 m ρ c) (Proc.devRef .tc main_v15) = _
    after_results; rfl
  rw [e]
  simp only [subf, addf, mulf, Host.divf, constant, Ideal.hostDivf_def, Ideal.subf_def, Ideal.addf_def, Ideal.mulf_def, Ideal.ofBits_def, scalar_of_word, Cert.MMD.loss, Cert.MMD.two, Cert.MMD.count]

/-- The first pair sum's word, reshaped to a scalar. -/
theorem W5_v5 (c : Dev nD) (j : S_.Idx) :
    (W5 m ρ c (Proc.devRef .tc main_v5) : S_.Idx → EReal) j = (W4 m ρ c (Proc.devRef .tc main_v4) : S1x1.Idx → EReal) (ix2 0 0) := by
  have e : (W5 m ρ c (Proc.devRef .tc main_v5) : S_.Idx → EReal)
      = shapeCast S_ (W4 m ρ c (Proc.devRef .tc main_v4) : S1x1.Idx → EReal) shapeCasts_S1x1_S_ := by
    show StableHlo.after hostOps3 (W4 m ρ c) (Proc.devRef .tc main_v5) = _
    after_results <;> rfl
  rw [e]; exact scalar_of_word _ j

/-- The second pair sum's word, reshaped to a scalar. -/
theorem W7_v7 (c : Dev nD) (j : S_.Idx) :
    (W7 m ρ c (Proc.devRef .tc main_v7) : S_.Idx → EReal) j = (W6 m ρ c (Proc.devRef .tc main_v6) : S1x1.Idx → EReal) (ix2 0 0) := by
  have e : (W7 m ρ c (Proc.devRef .tc main_v7) : S_.Idx → EReal)
      = shapeCast S_ (W6 m ρ c (Proc.devRef .tc main_v6) : S1x1.Idx → EReal) shapeCasts_S1x1_S_ := by
    show StableHlo.after hostOps4 (W6 m ρ c) (Proc.devRef .tc main_v7) = _
    after_results <;> rfl
  rw [e]; exact scalar_of_word _ j

end Cert.KernelIdeal.Hand

end
-- ==== Proof.PayProj.lean ====
/-
  The first two kernels' stored block, read at one index: the two-layer map of the specification.

  Each contraction into a zero accumulator is the plain sum of products over the one contracted axis; a bias row is the
  bias vector read at the column; the clamp is the maximum with zero; the format changes are the identity on extended
  reals.
-/
import proofs.«105377_j36833639530798_1_alg».proof.Proof.Gen.KernelIdeal.Skeleton
import proofs.«105377_j36833639530798_1_alg».proof.Proof.Spec
import Idealize.ShloMosaic.Lib.ValueLayout
import Idealize.ShloMosaic.PureOps.Ideal.Laws

noncomputable section

open scoped BigOperators

namespace Cert.MMDPay

open Idealize.ShloMosaic Idealize.ShloMosaic.ValueIdx Cert.KernelIdeal Cert.KernelIdeal.Gen

/-! ## The two contractions at an index -/

theorem matmulA_lhs0 (i : S1024x64.Idx) (q : dot_S1024x512_S512x64_S1024x64_1_0_0_1_n_n.contr.Idx) : (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem matmulA_lhs1 (i : S1024x64.Idx) (q : dot_S1024x512_S512x64_S1024x64_1_0_0_1_n_n.contr.Idx) : (dot_S1024x512_S512x64_S1024x64_1_0_0_1_n_n.lhsIdx i q 1).val = (q ⟨0, by decide⟩).val :=
  dot_S1024x512_S512x64_S1024x64_1_0_0_1_n_n.lhsIdx_val_of_single rfl i q
theorem matmulA_rhs0 (i : S1024x64.Idx) (q : dot_S1024x512_S512x64_S1024x64_1_0_0_1_n_n.contr.Idx) : (dot_S1024x512_S512x64_S1024x64_1_0_0_1_n_n.rhsIdx i q 0).val = (q ⟨0, by decide⟩).val :=
  dot_S1024x512_S512x64_S1024x64_1_0_0_1_n_n.rhsIdx_val_of_single rfl i q
theorem matmulA_rhs1 (i : S1024x64.Idx) (q : dot_S1024x512_S512x64_S1024x64_1_0_0_1_n_n.contr.Idx) : (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- A 1024 x 512 by 512 x 64 contraction into the zero accumulator, at row `r` and column `c`: the sum over the 512
    contracted positions of the products. -/
theorem matmulA_apply {φ₁ φ₂ : FTy} (lhs : FVec Ideal S1024x512 φ₁) (rhs : FVec Ideal S512x64 φ₂) (r : Fin 1024) (c : Fin 64) :
    FloatOps.matmul dot_S1024x512_S512x64_S1024x64_1_0_0_1_n_n none lhs rhs (constant (F := Ideal) S1024x64 .f32 0x00000000#32) (ix2 r c)
      = ∑ k : Fin 512, lhs (ix2 r k) * rhs (ix2 k c) := by
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 r c) ((contrEquiv1 dot_S1024x512_S512x64_S1024x64_1_0_0_1_n_n 512 rfl rfl).symm k) = ix2 r k := funext fun a => Fin.ext (by
    match a with
    | ⟨0, _⟩ => exact matmulA_lhs0 _ _
    | ⟨1, _⟩ => exact (matmulA_lhs1 _ _).trans hk)
  have er : dot_S1024x512_S512x64_S1024x64_1_0_0_1_n_n.rhsIdx (ix2 r c) ((contrEquiv1 dot_S1024x512_S512x64_S1024x64_1_0_0_1_n_n 512 rfl rfl).symm k) = ix2 k c := funext fun a => Fin.ext (by
    match a with
    | ⟨0, _⟩ => exact (matmulA_rhs0 _ _).trans hk
    | ⟨1, _⟩ => exact matmulA_rhs1 _ _)
  rw [el, er]

theorem matmulB_lhs0 (i : S1024x64.Idx) (q : dot_S1024x64_S64x64_S1024x64_1_0_0_1_n_n.contr.Idx) : (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem matmulB_lhs1 (i : S1024x64.Idx) (q : dot_S1024x64_S64x64_S1024x64_1_0_0_1_n_n.contr.Idx) : (dot_S1024x64_S64x64_S1024x64_1_0_0_1_n_n.lhsIdx i q 1).val = (q ⟨0, by decide⟩).val :=
  dot_S1024x64_S64x64_S1024x64_1_0_0_1_n_n.lhsIdx_val_of_single rfl i q
theorem matmulB_rhs0 (i : S1024x64.Idx) (q : dot_S1024x64_S64x64_S1024x64_1_0_0_1_n_n.contr.Idx) : (dot_S1024x64_S64x64_S1024x64_1_0_0_1_n_n.rhsIdx i q 0).val = (q ⟨0, by decide⟩).val :=
  dot_S1024x64_S64x64_S1024x64_1_0_0_1_n_n.rhsIdx_val_of_single rfl i q
theorem matmulB_rhs1 (i : S1024x64.Idx) (q : dot_S1024x64_S64x64_S1024x64_1_0_0_1_n_n.contr.Idx) : (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- A 1024 x 64 by 64 x 64 contraction into the zero accumulator, at row `r` and column `c`. -/
theorem matmulB_apply {φ₁ φ₂ : FTy} (lhs : FVec Ideal S1024x64 φ₁) (rhs : FVec Ideal S64x64 φ₂) (r : Fin 1024) (c : Fin 64) :
    FloatOps.matmul dot_S1024x64_S64x64_S1024x64_1_0_0_1_n_n none lhs rhs (constant (F := Ideal) S1024x64 .f32 0x00000000#32) (ix2 r c)
      = ∑ k : Fin 64, lhs (ix2 r k) * rhs (ix2 k c) := by
  rw [Ideal.matmul_constant_zero_apply, ← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 r c) ((contrEquiv1 dot_S1024x64_S64x64_S1024x64_1_0_0_1_n_n 64 rfl rfl).symm k) = ix2 r k := funext fun a => Fin.ext (by
    match a with
    | ⟨0, _⟩ => exact matmulB_lhs0 _ _
    | ⟨1, _⟩ => exact (matmulB_lhs1 _ _).trans hk)
  have er : dot_S1024x64_S64x64_S1024x64_1_0_0_1_n_n.rhsIdx (ix2 r c) ((contrEquiv1 dot_S1024x64_S64x64_S1024x64_1_0_0_1_n_n 64 rfl rfl).symm k) = ix2 k c := funext fun a => Fin.ext (by
    match a with
    | ⟨0, _⟩ => exact (matmulB_rhs0 _ _).trans hk
    | ⟨1, _⟩ => exact matmulB_rhs1 _ _)
  rw [el, er]

/-! ## A bias row -/

/-- A bias vector laid out as one row and repeated down the 1024 rows reads, at `(r, c)`, the bias at `c`. -/
theorem biasRow_apply (b : FVec Ideal S64 .f32) (h₁ : S64.ShapeCasts S1x64) (h₂ : S1x64.Broadcasts S1024x64)
    (r : Fin 1024) (c : Fin 64) :
    broadcastTo S1024x64 (shapeCast S1x64 b h₁) h₂ (ix2 r c) = b (ix1 c) :=
  (broadcastTo_1b_ab_apply _ h₂ r c).trans (shapeCast_a_1a_apply b h₁ 0 c)

/-! ## The stored blocks -/

/-- Block of the first feature matrix: the stored value at row `r`, column `o` is the two-layer map there. -/
theorem proj_block0 (x : FVec Ideal S1024x512 .f32) (w1 : FVec Ideal S512x64 .f32) (b1 : FVec Ideal S64 .f32)
    (w2 : FVec Ideal S64x64 .f32) (b2 : FVec Ideal S64 .f32) (r : Fin 1024) (o : Fin 64) :
    k0_pay1 (F := Ideal) x w1 b1 w2 b2 (ix2 r o) = Cert.MMD.projAt x w1 b1 w2 b2 r o := by
  unfold k0_pay1 Cert.MMD.projAt
  -- the outer sum: second contraction plus the second bias row
  refine (addf_apply _ _ _).trans ?_
  refine congrArg₂ (· + ·) ?_ (biasRow_apply b2 _ _ r o)
  refine (matmulB_apply _ _ r o).trans ?_
  refine Finset.sum_congr rfl fun h _ => ?_
  refine congrArg₂ (· * ·) ?_ (truncf_apply (φ := .f32) (ψ := .bf16) _ _ _)
  -- the hidden layer at `(r, h)`: the clamp of the first contraction plus the first bias row
  refine (truncf_apply (φ := .f32) (ψ := .bf16) _ _ _).trans ?_
  refine (maximumf_apply _ _ _).trans ?_
  refine congrArg₂ max ?_ Ideal.ofBits_zero_f32
  refine (addf_apply _ _ _).trans ?_
  refine congrArg₂ (· + ·) ?_ (biasRow_apply b1 _ _ r h)
  refine (matmulA_apply _ _ r h).trans ?_
  exact Finset.sum_congr rfl fun d _ => rfl

/-- Block of the second feature matrix: the stored value at row `r`, column `o` is the two-layer map there. -/
theorem proj_block1 (x : FVec Ideal S1024x512 .f32) (w1 : FVec Ideal S512x64 .f32) (b1 : FVec Ideal S64 .f32)
    (w2 : FVec Ideal S64x64 .f32) (b2 : FVec Ideal S64 .f32) (r : Fin 1024) (o : Fin 64) :
    k1_pay1 (F := Ideal) x w1 b1 w2 b2 (ix2 r o) = Cert.MMD.projAt x w1 b1 w2 b2 r o := by
  unfold k1_pay1 Cert.MMD.projAt
  -- the outer sum: second contraction plus the second bias row
  refine (addf_apply _ _ _).trans ?_
  refine congrArg₂ (· + ·) ?_ (biasRow_apply b2 _ _ r o)
  refine (matmulB_apply _ _ r o).trans ?_
  refine Finset.sum_congr rfl fun h _ => ?_
  refine congrArg₂ (· * ·) ?_ (truncf_apply (φ := .f32) (ψ := .bf16) _ _ _)
  -- the hidden layer at `(r, h)`: the clamp of the first contraction plus the first bias row
  refine (truncf_apply (φ := .f32) (ψ := .bf16) _ _ _).trans ?_
  refine (maximumf_apply _ _ _).trans ?_
  refine congrArg₂ max ?_ Ideal.ofBits_zero_f32
  refine (addf_apply _ _ _).trans ?_
  refine congrArg₂ (· + ·) ?_ (biasRow_apply b1 _ _ r h)
  refine (matmulA_apply _ _ r h).trans ?_
  exact Finset.sum_congr rfl fun d _ => rfl

end Cert.MMDPay

end
-- ==== Proof.KI.ProjArray.lean ====
/-
  From blocks to the array, for the two projection regions: each of the 8 grid points writes back one band of 1024 rows
  of the two-layer map of the argument arrays, the bands tile the 8192 rows, so the output array ends holding the
  specification's two-layer map of the arguments as the region finds them.
-/
import proofs.«105377_j36833639530798_1_alg».proof.Proof.KI.Region0
import proofs.«105377_j36833639530798_1_alg».proof.Proof.KI.Region1
import proofs.«105377_j36833639530798_1_alg».proof.Proof.PayProj
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- One band of the two-layer map: when the loaded block of the first argument is rows `n` of the array at block rows `r`,
    the stored value at `(r, o)` is the two-layer map of the arrays at `(n, o)`. -/
theorem proj_point0 (A0 : FVec Ideal S8192x512 .f32) (W1 : FVec Ideal S512x64 .f32) (B1 : FVec Ideal S64 .f32)
    (W2 : FVec Ideal S64x64 .f32) (B2 : FVec Ideal S64 .f32) (x0 : FVec Ideal S1024x512 .f32)
    (r : Fin 1024) (o : Fin 64) (n : Fin 8192) (hx0 : ∀ d : Fin 512, x0 (ix2 r d) = A0 (ix2 n d)) :
    k0_pay1 (F := Ideal) x0 W1 B1 W2 B2 (ix2 r o) = Cert.MMD.proj A0 W1 B1 W2 B2 (ix2 n o) := by
  rw [Cert.MMDPay.proj_block0]
  show Cert.MMD.projAt x0 W1 B1 W2 B2 r o = Cert.MMD.projAt A0 W1 B1 W2 B2 n o
  unfold Cert.MMD.projAt
  simp only [hx0]
/-- One band of the two-layer map: when the loaded block of the first argument is rows `n` of the array at block rows `r`,
    the stored value at `(r, o)` is the two-layer map of the arrays at `(n, o)`. -/
theorem proj_point1 (A0 : FVec Ideal S8192x512 .f32) (W1 : FVec Ideal S512x64 .f32) (B1 : FVec Ideal S64 .f32)
    (W2 : FVec Ideal S64x64 .f32) (B2 : FVec Ideal S64 .f32) (x0 : FVec Ideal S1024x512 .f32)
    (r : Fin 1024) (o : Fin 64) (n : Fin 8192) (hx0 : ∀ d : Fin 512, x0 (ix2 r d) = A0 (ix2 n d)) :
    k1_pay1 (F := Ideal) x0 W1 B1 W2 B2 (ix2 r o) = Cert.MMD.proj A0 W1 B1 W2 B2 (ix2 n o) := by
  rw [Cert.MMDPay.proj_block1]
  show Cert.MMD.projAt x0 W1 B1 W2 B2 r o = Cert.MMD.projAt A0 W1 B1 W2 B2 n o
  unfold Cert.MMD.projAt
  simp only [hx0]

/-! ## Region 0 -/

/-- The printed index maps, decided over the grid: the first argument's and the output's blocks are band `t`; the four
    parameter arrays are read whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Window 1 of region 0 shows its whole array at every point. -/
theorem iblk0_1 (c : Dev nD) (t : Fin cfg0.N) : iblk0 V c 1 t = V c main_arg2 := by
  obtain ⟨-, -, e0, e1, -⟩ := idx_facts0 t
  funext x
  unfold iblk0
  rw [View.read_apply]
  show V c main_arg2 (((cfg0.win 1).blk t).view.emb x) = V c main_arg2 x
  refine congrArg (V c main_arg2) (funext fun a => Fin.ext ?_)
  match a with
  | ⟨0, _⟩ => show win0_1.index t (0 : Fin 2) * 512 + 1 * (x 0).val = (x 0).val; rw [e0]; omega
  | ⟨1, _⟩ => show win0_1.index t (1 : Fin 2) * 64 + 1 * (x 1).val = (x 1).val; rw [e1]; omega

/-- Window 2 of region 0 shows its whole array at every point. -/
theorem iblk0_2 (c : Dev nD) (t : Fin cfg0.N) : iblk0 V c 2 t = V c main_arg3 := by
  obtain ⟨-, -, -, -, e0, -⟩ := idx_facts0 t
  funext x
  unfold iblk0
  rw [View.read_apply]
  show V c main_arg3 (((cfg0.win 2).blk t).view.emb x) = V c main_arg3 x
  refine congrArg (V c main_arg3) (funext fun a => Fin.ext ?_)
  match a with
  | ⟨0, _⟩ => show win0_2.index t (0 : Fin 1) * 64 + 1 * (x 0).val = (x 0).val; rw [e0]; omega

/-- Window 3 of region 0 shows its whole array at every point. -/
theorem iblk0_3 (c : Dev nD) (t : Fin cfg0.N) : iblk0 V c 3 t = V c main_arg4 := by
  obtain ⟨-, -, -, -, -, e0, e1, -⟩ := idx_facts0 t
  funext x
  unfold iblk0
  rw [View.read_apply]
  show V c main_arg4 (((cfg0.win 3).blk t).view.emb x) = V c main_arg4 x
  refine congrArg (V c main_arg4) (funext fun a => Fin.ext ?_)
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega

/-- Window 4 of region 0 shows its whole array at every point. -/
theorem iblk0_4 (c : Dev nD) (t : Fin cfg0.N) : iblk0 V c 4 t = V c main_arg5 := by
  obtain ⟨-, -, -, -, -, -, -, e0, -⟩ := idx_facts0 t
  funext x
  unfold iblk0
  rw [View.read_apply]
  show V c main_arg5 (((cfg0.win 4).blk t).view.emb x) = V c main_arg5 x
  refine congrArg (V c main_arg5) (funext fun a => Fin.ext ?_)
  match a with
  | ⟨0, _⟩ => show win0_4.index t (0 : Fin 1) * 64 + 1 * (x 0).val = (x 0).val; rw [e0]; omega

/-- WHAT POINT `t` WRITES BACK is band `t` of the two-layer map of the argument arrays as the region finds them. -/
theorem flushed0_eq (c : Dev nD) (t : Fin cfg0.N) :
    (dat0 (F := Ideal) V c).flushed 5 t = ((cfg0.win 5).blk t).view.read (Elt Ideal)
      (Cert.MMD.proj (V c main_arg0) (V c main_arg2) (V c main_arg3) (V c main_arg4) (V c main_arg5)) := by
  show (cfg0.win 5).cut (grid0.coords t) ((dat0 V c).after 5 t) = _
  rw [after0_5, iblk0_1, iblk0_2, iblk0_3, iblk0_4]
  unfold out0_5
  rw [View.canon_unit_zero zeros2]
  simp only [View.ld_unit_zero (S := S1024x512) zeros2, View.ld_unit_zero (S := S512x64) zeros2,
    View.ld_unit_zero (S := S64) zeros1, View.ld_unit_zero (S := S64x64) zeros2]
  obtain ⟨e0, e1, -, -, -, -, -, -, e8, e9⟩ := idx_facts0 t
  funext y
  have hN : cfg0.N = 8 := N_0
  have hy0 : (y 0).val < 1024 := (y 0).isLt
  have hy1 : (y 1).val < 64 := (y 1).isLt
  have ht : t.val < 8 := hN ▸ t.isLt
  show k0_pay1 (F := Ideal) (iblk0 V c 0 t) (V c main_arg2) (V c main_arg3) (V c main_arg4) (V c main_arg5) y
    = Cert.MMD.proj (V c main_arg0) (V c main_arg2) (V c main_arg3) (V c main_arg4) (V c main_arg5) (((cfg0.win 5).blk t).view.emb y)
  refine (congrArg _ (eq_ix2 (n0 := 1024) (n1 := 64) y)).trans ?_
  refine (proj_point0 (V c main_arg0) (V c main_arg2) (V c main_arg3) (V c main_arg4) (V c main_arg5) (iblk0 V c 0 t) (y 0) (y 1) ⟨t.val * 1024 + (y 0).val, by omega⟩ ?_).trans ?_
  · -- the loaded block of the first argument is band `t` of the array
    intro d
    unfold iblk0
    rw [View.read_apply]
    show V c main_arg0 (((cfg0.win 0).blk t).view.emb (ix2 (y 0) d)) = V c main_arg0 (ix2 ⟨t.val * 1024 + (y 0).val, _⟩ d)
    refine congrArg (V c main_arg0) (funext fun a => Fin.ext ?_)
    match a with
    | ⟨0, _⟩ => show win0_0.index t (0 : Fin 2) * 1024 + 1 * (y 0).val = t.val * 1024 + (y 0).val; rw [e0]; omega
    | ⟨1, _⟩ => show win0_0.index t (1 : Fin 2) * 512 + 1 * d.val = d.val; rw [e1]; omega
  · -- and the output's block sits at the same rows
    refine congrArg (Cert.MMD.proj (V c main_arg0) (V c main_arg2) (V c main_arg3) (V c main_arg4) (V c main_arg5)) (funext fun a => Fin.ext ?_)
    match a with
    | ⟨0, _⟩ => show t.val * 1024 + (y 0).val = win0_5.index t (0 : Fin 2) * 1024 + 1 * (y 0).val; rw [e8]; omega
    | ⟨1, _⟩ => show (y 1).val = win0_5.index t (1 : Fin 2) * 64 + 1 * (y 1).val; rw [e9]; omega

/-- An index of the array is in point `t`'s block iff each coordinate is in the block's range on its axis. -/
theorem mem_blk0 (t : Fin cfg0.N) (i : S8192x64.Idx) :
    i ∈ ((cfg0.win 5).blk t).view.set ↔ ∀ a : Fin 2, win0_5.index t a * S1024x64.size a ≤ (i a).val
      ∧ (i a).val < win0_5.index t a * S1024x64.size a + S1024x64.size a := by
  show i ∈ ((View.whole main_v0).slice (win0_5.rect t)).set ↔ _
  rw [View.set_slice_whole, Rect.mem_set_unit]
  exact Iff.rfl

/-- Every row of the array is in the band of the point its row number divided by 1024 names. -/
theorem cover0 (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  have hN : cfg0.N = 8 := N_0
  obtain ⟨-, -, -, -, -, -, -, -, e8, e9⟩ := idx_facts0 ⟨(i 0).val / 1024, by rw [hN]; omega⟩
  refine ⟨⟨(i 0).val / 1024, by rw [hN]; omega⟩, flush0_5 _, ?_⟩
  rw [mem_blk0]
  intro a
  match a with
  | ⟨0, _⟩ =>
    show win0_5.index ⟨(i 0).val / 1024, _⟩ (0 : Fin 2) * 1024 ≤ (i 0).val
      ∧ (i 0).val < win0_5.index ⟨(i 0).val / 1024, _⟩ (0 : Fin 2) * 1024 + 1024
    rw [e8]; show (i 0).val / 1024 * 1024 ≤ (i 0).val ∧ (i 0).val < (i 0).val / 1024 * 1024 + 1024; omega
  | ⟨1, _⟩ =>
    show win0_5.index ⟨(i 0).val / 1024, _⟩ (1 : Fin 2) * 64 ≤ (i 1).val
      ∧ (i 1).val < win0_5.index ⟨(i 0).val / 1024, _⟩ (1 : Fin 2) * 64 + 64
    rw [e9]; omega

/-- THE ARRAY after region 0: the two-layer map of the argument arrays as the region finds them. -/
theorem proj_array0 (c : Dev nD) :
    (dat0 (F := Ideal) V c).arrAt 5 cfg0.N
      = Cert.MMD.proj (V c main_arg0) (V c main_arg2) (V c main_arg3) (V c main_arg4) (V c main_arg5) :=
  (dat0 (F := Ideal) V c).arrAt_eq_of_cover 5 _ (fun t _ => flushed0_eq V c t) cover0

/-! ## Region 1 -/

/-- The printed index maps, decided over the grid: the first argument's and the output's blocks are band `t`; the four
    parameter arrays are read whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Window 1 of region 1 shows its whole array at every point. -/
theorem iblk1_1 (c : Dev nD) (t : Fin cfg1.N) : iblk1 V c 1 t = V c main_arg6 := by
  obtain ⟨-, -, e0, e1, -⟩ := idx_facts1 t
  funext x
  unfold iblk1
  rw [View.read_apply]
  show V c main_arg6 (((cfg1.win 1).blk t).view.emb x) = V c main_arg6 x
  refine congrArg (V c main_arg6) (funext fun a => Fin.ext ?_)
  match a with
  | ⟨0, _⟩ => show win1_1.index t (0 : Fin 2) * 512 + 1 * (x 0).val = (x 0).val; rw [e0]; omega
  | ⟨1, _⟩ => show win1_1.index t (1 : Fin 2) * 64 + 1 * (x 1).val = (x 1).val; rw [e1]; omega

/-- Window 2 of region 1 shows its whole array at every point. -/
theorem iblk1_2 (c : Dev nD) (t : Fin cfg1.N) : iblk1 V c 2 t = V c main_arg7 := by
  obtain ⟨-, -, -, -, e0, -⟩ := idx_facts1 t
  funext x
  unfold iblk1
  rw [View.read_apply]
  show V c main_arg7 (((cfg1.win 2).blk t).view.emb x) = V c main_arg7 x
  refine congrArg (V c main_arg7) (funext fun a => Fin.ext ?_)
  match a with
  | ⟨0, _⟩ => show win1_2.index t (0 : Fin 1) * 64 + 1 * (x 0).val = (x 0).val; rw [e0]; omega

/-- Window 3 of region 1 shows its whole array at every point. -/
theorem iblk1_3 (c : Dev nD) (t : Fin cfg1.N) : iblk1 V c 3 t = V c main_arg8 := by
  obtain ⟨-, -, -, -, -, e0, e1, -⟩ := idx_facts1 t
  funext x
  unfold iblk1
  rw [View.read_apply]
  show V c main_arg8 (((cfg1.win 3).blk t).view.emb x) = V c main_arg8 x
  refine congrArg (V c main_arg8) (funext fun a => Fin.ext ?_)
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- Window 4 of region 1 shows its whole array at every point. -/
theorem iblk1_4 (c : Dev nD) (t : Fin cfg1.N) : iblk1 V c 4 t = V c main_arg9 := by
  obtain ⟨-, -, -, -, -, -, -, e0, -⟩ := idx_facts1 t
  funext x
  unfold iblk1
  rw [View.read_apply]
  show V c main_arg9 (((cfg1.win 4).blk t).view.emb x) = V c main_arg9 x
  refine congrArg (V c main_arg9) (funext fun a => Fin.ext ?_)
  match a with
  | ⟨0, _⟩ => show win1_4.index t (0 : Fin 1) * 64 + 1 * (x 0).val = (x 0).val; rw [e0]; omega

/-- WHAT POINT `t` WRITES BACK is band `t` of the two-layer map of the argument arrays as the region finds them. -/
theorem flushed1_eq (c : Dev nD) (t : Fin cfg1.N) :
    (dat1 (F := Ideal) V c).flushed 5 t = ((cfg1.win 5).blk t).view.read (Elt Ideal)
      (Cert.MMD.proj (V c main_arg1) (V c main_arg6) (V c main_arg7) (V c main_arg8) (V c main_arg9)) := by
  show (cfg1.win 5).cut (grid1.coords t) ((dat1 V c).after 5 t) = _
  rw [after1_5, iblk1_1, iblk1_2, iblk1_3, iblk1_4]
  unfold out1_5
  rw [View.canon_unit_zero zeros2]
  simp only [View.ld_unit_zero (S := S1024x512) zeros2, View.ld_unit_zero (S := S512x64) zeros2,
    View.ld_unit_zero (S := S64) zeros1, View.ld_unit_zero (S := S64x64) zeros2]
  obtain ⟨e0, e1, -, -, -, -, -, -, e8, e9⟩ := idx_facts1 t
  funext y
  have hN : cfg1.N = 8 := N_1
  have hy0 : (y 0).val < 1024 := (y 0).isLt
  have hy1 : (y 1).val < 64 := (y 1).isLt
  have ht : t.val < 8 := hN ▸ t.isLt
  show k1_pay1 (F := Ideal) (iblk1 V c 0 t) (V c main_arg6) (V c main_arg7) (V c main_arg8) (V c main_arg9) y
    = Cert.MMD.proj (V c main_arg1) (V c main_arg6) (V c main_arg7) (V c main_arg8) (V c main_arg9) (((cfg1.win 5).blk t).view.emb y)
  refine (congrArg _ (eq_ix2 (n0 := 1024) (n1 := 64) y)).trans ?_
  refine (proj_point1 (V c main_arg1) (V c main_arg6) (V c main_arg7) (V c main_arg8) (V c main_arg9) (iblk1 V c 0 t) (y 0) (y 1) ⟨t.val * 1024 + (y 0).val, by omega⟩ ?_).trans ?_
  · -- the loaded block of the first argument is band `t` of the array
    intro d
    unfold iblk1
    rw [View.read_apply]
    show V c main_arg1 (((cfg1.win 0).blk t).view.emb (ix2 (y 0) d)) = V c main_arg1 (ix2 ⟨t.val * 1024 + (y 0).val, _⟩ d)
    refine congrArg (V c main_arg1) (funext fun a => Fin.ext ?_)
    match a with
    | ⟨0, _⟩ => show win1_0.index t (0 : Fin 2) * 1024 + 1 * (y 0).val = t.val * 1024 + (y 0).val; rw [e0]; omega
    | ⟨1, _⟩ => show win1_0.index t (1 : Fin 2) * 512 + 1 * d.val = d.val; rw [e1]; omega
  · -- and the output's block sits at the same rows
    refine congrArg (Cert.MMD.proj (V c main_arg1) (V c main_arg6) (V c main_arg7) (V c main_arg8) (V c main_arg9)) (funext fun a => Fin.ext ?_)
    match a with
    | ⟨0, _⟩ => show t.val * 1024 + (y 0).val = win1_5.index t (0 : Fin 2) * 1024 + 1 * (y 0).val; rw [e8]; omega
    | ⟨1, _⟩ => show (y 1).val = win1_5.index t (1 : Fin 2) * 64 + 1 * (y 1).val; rw [e9]; omega

/-- An index of the array is in point `t`'s block iff each coordinate is in the block's range on its axis. -/
theorem mem_blk1 (t : Fin cfg1.N) (i : S8192x64.Idx) :
    i ∈ ((cfg1.win 5).blk t).view.set ↔ ∀ a : Fin 2, win1_5.index t a * S1024x64.size a ≤ (i a).val
      ∧ (i a).val < win1_5.index t a * S1024x64.size a + S1024x64.size a := by
  show i ∈ ((View.whole main_v1).slice (win1_5.rect t)).set ↔ _
  rw [View.set_slice_whole, Rect.mem_set_unit]
  exact Iff.rfl

/-- Every row of the array is in the band of the point its row number divided by 1024 names. -/
theorem cover1 (i : S8192x64.Idx) : ∃ t : Fin cfg1.N, (cfg1.win 5).flush t = true ∧ i ∈ ((cfg1.win 5).blk t).view.set := by
  have hi0 : (i 0).val < 8192 := (i 0).isLt
  have hi1 : (i 1).val < 64 := (i 1).isLt
  have hN : cfg1.N = 8 := N_1
  obtain ⟨-, -, -, -, -, -, -, -, e8, e9⟩ := idx_facts1 ⟨(i 0).val / 1024, by rw [hN]; omega⟩
  refine ⟨⟨(i 0).val / 1024, by rw [hN]; omega⟩, flush1_5 _, ?_⟩
  rw [mem_blk1]
  intro a
  match a with
  | ⟨0, _⟩ =>
    show win1_5.index ⟨(i 0).val / 1024, _⟩ (0 : Fin 2) * 1024 ≤ (i 0).val
      ∧ (i 0).val < win1_5.index ⟨(i 0).val / 1024, _⟩ (0 : Fin 2) * 1024 + 1024
    rw [e8]; show (i 0).val / 1024 * 1024 ≤ (i 0).val ∧ (i 0).val < (i 0).val / 1024 * 1024 + 1024; omega
  | ⟨1, _⟩ =>
    show win1_5.index ⟨(i 0).val / 1024, _⟩ (1 : Fin 2) * 64 ≤ (i 1).val
      ∧ (i 1).val < win1_5.index ⟨(i 0).val / 1024, _⟩ (1 : Fin 2) * 64 + 64
    rw [e9]; omega

/-- THE ARRAY after region 1: the two-layer map of the argument arrays as the region finds them. -/
theorem proj_array1 (c : Dev nD) :
    (dat1 (F := Ideal) V c).arrAt 5 cfg1.N
      = Cert.MMD.proj (V c main_arg1) (V c main_arg6) (V c main_arg7) (V c main_arg8) (V c main_arg9) :=
  (dat1 (F := Ideal) V c).arrAt_eq_of_cover 5 _ (fun t _ => flushed1_eq V c t) cover1

end Cert.KernelIdeal.Hand

end
-- ==== Proof.KI.PairPieces2.lean ====
import proofs.«105377_j36833639530798_1_alg».proof.Proof.KI.Region2Body
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a one-word block, as a constant function. -/
theorem hz11_2 : (![0, 0] : Fin 2 → Nat) = fun _ => 0 := funext fun a => by fin_cases a <;> rfl

/-- At the first point the scratch word ends at the tile's total added to the reset's zero: the reset is stored, read
    back, and the total stored over it. -/
theorem sout2_A_eq (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 : Vec F S1024x64 .f32) (x1 : Vec F S64x1024 .f32) :
    sout2_A c i arg2 harg2 arg3 harg3 arg4 harg4 arg5 harg5 hc0 hc1 x0 x1 = k2_pay1 (k2_pay3 x0 x1 (k2_pay2 (F := F))) := by
  have hz11 := hz11_2
  unfold sout2_A
  rw [View.read_writes_eq_canon _ _ _ (scover2_A c i arg2 harg2 arg3 harg3 arg4 harg4 arg5 harg5 hc0 hc1 x0 x1)]
  unfold kernelRun2_A
  dsimp only
  sl_unfold_words
  rw [View.canon_cons_unit_zero (S := S1x1) hz11, View.readCov_unit_zero (S := S1x1) _ hz11]
  simp only [View.readAt_eq_ld, harg2.read_unread, harg3.read_unread, View.ld_unit_zero (S := S1024x64) hz11, View.ld_unit_zero (S := S64x1024) hz11]

/-- At a middle point the scratch word ends at the tile's total added to what the point before left. -/
theorem sout2_B_eq (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 : Vec F S1024x64 .f32) (x1 : Vec F S64x1024 .f32) (xs0 : Vec F S1x1 .f32) :
    sout2_B c i arg2 harg2 arg3 harg3 arg4 harg4 arg5 harg5 hc0 hc1 x0 x1 xs0 = k2_pay1 (k2_pay3 x0 x1 xs0) := by
  have hz11 := hz11_2
  unfold sout2_B
  rw [View.read_writes_eq_canon _ _ _ (scover2_B c i arg2 harg2 arg3 harg3 arg4 harg4 arg5 harg5 hc0 hc1 x0 x1 xs0)]
  unfold kernelRun2_B
  dsimp only
  sl_unfold_words
  rw [View.canon_unit_zero (S := S1x1) hz11]
  simp only [View.readAt_eq_ld, harg2.read_unread, harg3.read_unread, harg5.read_unread, View.ld_unit_zero (S := S1024x64) hz11, View.ld_unit_zero (S := S64x1024) hz11, View.ld_unit_zero (S := S1x1) hz11]

/-- At the last point the scratch word ends at the tile's total added to what the point before left. -/
theorem sout2_C_eq (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) :
    sout2_C c i arg2 harg2 arg3 harg3 arg4 harg4 arg5 harg5 hc0 hc1 x0 x1 xs0 = k2_pay1 (k2_pay3 x0 x1 xs0) := by
  have hz11 := hz11_2
  unfold sout2_C
  rw [View.read_writes_eq_canon _ _ _ (scover2_C c i arg2 harg2 arg3 harg3 arg4 harg4 arg5 harg5 hc0 hc1 x0 x1 xs0)]
  unfold kernelRun2_C
  dsimp only
  sl_unfold_words
  rw [View.canon_unit_zero (S := S1x1) hz11]
  simp only [View.readAt_eq_ld, harg2.read_unread, harg3.read_unread, harg5.read_unread, View.ld_unit_zero (S := S1024x64) hz11, View.ld_unit_zero (S := S64x1024) hz11, View.ld_unit_zero (S := S1x1) hz11]

/-- At the last point the output's staging buffer receives the scratch word read back: the tile's total added to what
    the point before left. -/
theorem out2_C_eq (c : Dev nD) (i : grid2.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 : Vec F S1024x64 .f32) (x1 : Vec F S64x1024 .f32) (xs0 : Vec F S1x1 .f32) :
    out2_C_2 c i arg2 harg2 arg3 harg3 arg4 harg4 arg5 harg5 hc0 hc1 x0 x1 xs0 = k2_pay1 (k2_pay3 x0 x1 xs0) := by
  have hz11 := hz11_2
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_words
  rw [View.canon_unit_zero (S := S1x1) hz11, View.readCov_unit_zero (S := S1x1) _ hz11]
  simp only [View.readAt_eq_ld, harg2.read_unread, harg3.read_unread, harg5.read_unread, View.ld_unit_zero (S := S1024x64) hz11, View.ld_unit_zero (S := S64x1024) hz11, View.ld_unit_zero (S := S1x1) hz11]

end Cert.KernelIdeal.Hand

end
-- ==== Proof.KI.PairBlocks2.lean ====
import proofs.«105377_j36833639530798_1_alg».proof.Proof.KI.Region2Body
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The left window's block index over the grid: the block row is the point's quotient by 8, the block column 0. -/
theorem widx2_0 : ∀ t : Fin cfg2.N, win2_0.index t 0 = t.val / 8 ∧ win2_0.index t 1 = 0 :=
  (by decide +kernel : ∀ t : Fin grid2.N, win2_0.index t 0 = t.val / 8 ∧ win2_0.index t 1 = 0)

/-- The right window's block index over the grid: the block row 0, the block column the point's remainder by 8. -/
theorem widx2_1 : ∀ t : Fin cfg2.N, win2_1.index t 0 = 0 ∧ win2_1.index t 1 = t.val % 8 :=
  (by decide +kernel : ∀ t : Fin grid2.N, win2_1.index t 0 = 0 ∧ win2_1.index t 1 = t.val % 8)

/-- A point is below 64. -/
theorem tlt2 (t : Fin cfg2.N) : t.val < 64 := lt_of_lt_of_eq t.isLt (show cfg2.N = 64 from N_2)

/-- Row `r` of the left block at point `t` is row `1024 * (t / 8) + r` of the left array. -/
theorem iblk2_0_apply (c : Dev nD) (t : Fin cfg2.N) (r : Fin 1024) (k : Fin 64) :
    (iblk2 V c 0 t : Vec F S1024x64 .f32) (ix2 r k)
      = (V c main_v0 : Vec F S8192x64 .f32) (ix2 (⟨1024 * (t.val / 8) + r.val, by have := tlt2 t; have := r.isLt; omega⟩ : Fin 8192) k) := by
  unfold iblk2
  rw [View.read_apply]
  show V c main_v0 _ = V c main_v0 _
  congr 1
  funext a
  apply Fin.ext
  match a with
  | ⟨0, _⟩ => show win2_0.index t 0 * 1024 + 1 * r.val = 1024 * (t.val / 8) + r.val; rw [(widx2_0 t).1]; omega
  | ⟨1, _⟩ => show win2_0.index t 1 * 64 + 1 * k.val = k.val; rw [(widx2_0 t).2]; omega

/-- Column `q` of the right block at point `t` is column `1024 * (t % 8) + q` of the right array. -/
theorem iblk2_1_apply (c : Dev nD) (t : Fin cfg2.N) (k : Fin 64) (q : Fin 1024) :
    (iblk2 V c 1 t : Vec F S64x1024 .f32) (ix2 k q)
      = (V c main_v2 : Vec F S64x8192 .f32) (ix2 k (⟨1024 * (t.val % 8) + q.val, by have := q.isLt; omega⟩ : Fin 8192)) := by
  unfold iblk2
  rw [View.read_apply]
  show V c main_v2 _ = V c main_v2 _
  congr 1
  funext a
  apply Fin.ext
  match a with
  | ⟨0, _⟩ => show win2_1.index t 0 * 64 + 1 * k.val = k.val; rw [(widx2_1 t).1]; omega
  | ⟨1, _⟩ => show win2_1.index t 1 * 1024 + 1 * q.val = 1024 * (t.val % 8) + q.val; rw [(widx2_1 t).2]; omega

end Cert.KernelIdeal.Hand

end
-- ==== Proof.PayTile.lean ====
/-
  The three pair-sum kernels' loop payload, read at its one index: the running value plus the sum of the Gaussian
  kernel over one 1024 x 1024 tile of pairs of rows.

  The squared norms are lane sums kept as a column and as a row and spread over the tile; the inner products are one
  contraction into a zero accumulator; the exponent is assembled entry by entry; the two closing lane sums add the tile
  up, rows last.
-/
import proofs.«105377_j36833639530798_1_alg».proof.Proof.Gen.KernelIdeal.Skeleton
import proofs.«105377_j36833639530798_1_alg».proof.Proof.Spec
import Idealize.ShloMosaic.Lib.ValueLayout
import Idealize.ShloMosaic.PureOps.Ideal.Laws

noncomputable section

open scoped BigOperators

namespace Cert.MMDPay

open Idealize.ShloMosaic Idealize.ShloMosaic.ValueIdx Cert.KernelIdeal Cert.KernelIdeal.Gen

/-! ## The contraction at an index -/

theorem matmulC_lhs0 (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem matmulC_lhs1 (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem matmulC_rhs0 (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q
theorem matmulC_rhs1 (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- A 1024 x 64 by 64 x 1024 contraction into the zero accumulator, at row `r` and column `c`: the inner product of row
    `r` of the left operand and column `c` of the right. -/
theorem matmulC_apply {φ₁ φ₂ : FTy} (lhs : FVec Ideal S1024x64 φ₁) (rhs : FVec Ideal S64x1024 φ₂) (r : Fin 1024) (c : Fin 1024) :
    FloatOps.matmul dot_S1024x64_S64x1024_S1024x1024_1_0_0_1_n_n none lhs rhs (constant (F := Ideal) S1024x1024 .f32 0x00000000#32) (ix2 r c)
      = ∑ k : Fin 64, lhs (ix2 r k) * rhs (ix2 k c) := by
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r c) ((contrEquiv1 dot_S1024x64_S64x1024_S1024x1024_1_0_0_1_n_n 64 rfl rfl).symm k) = ix2 r k := funext fun a => Fin.ext (by
    match a with
    | ⟨0, _⟩ => exact matmulC_lhs0 _ _
    | ⟨1, _⟩ => exact (matmulC_lhs1 _ _).trans hk)
  have er : dot_S1024x64_S64x1024_S1024x1024_1_0_0_1_n_n.rhsIdx (ix2 r c) ((contrEquiv1 dot_S1024x64_S64x1024_S1024x1024_1_0_0_1_n_n 64 rfl rfl).symm k) = ix2 k c := funext fun a => Fin.ext (by
    match a with
    | ⟨0, _⟩ => exact (matmulC_rhs0 _ _).trans hk
    | ⟨1, _⟩ => exact matmulC_rhs1 _ _)
  rw [el, er]

/-! ## Keepdims layout: a vector as a column, a column spread over a matrix -/

/-- An `[a]` array cast to one column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Lane sums of a matrix -/

/-- The sum of an `[a, b]` array along axis 1, at `r`: the sum of row `r`. -/
theorem laneSum1_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun ax => Fin.ext ?_)
  match ax with
  | ⟨0, _⟩ => rfl
  | ⟨1, _⟩ => rfl

/-- The sum of an `[a, b]` array along axis 0, at `c`: the sum of column `c`. -/
theorem laneSum0_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (c : Fin b) :
    multiReduction (F := Ideal) .add [0] ⟨1, ![b]⟩ src 0x00000000#32 h hφ hacc (ix1 c) = ∑ k : Fin a, src (ix2 k c) := by
  refine (Ideal.multiReduction_add_single src 0x00000000#32 h hφ hacc (ix1 c)).trans ?_
  show ∑ k : Fin a, src (h.lift (ix1 c) k) = _
  refine Finset.sum_congr rfl fun k _ => congrArg src (funext fun ax => Fin.ext ?_)
  match ax with
  | ⟨0, _⟩ => rfl
  | ⟨1, _⟩ => rfl

/-! ## The loop payloads -/

/-- Tile pass of kernel 2: the running value after one tile is the value before plus the sum of the Gaussian kernel over the
    tile's 1024 x 1024 pairs of rows. -/
theorem tile_block2 (p : FVec Ideal S1024x64 .f32) (qt : FVec Ideal S64x1024 .f32) (a : FVec Ideal S1x1 .f32) (j : S1x1.Idx) :
    k2_pay3 (F := Ideal) p qt a j
      = a j + ∑ r : Fin 1024, ∑ c : Fin 1024, Cert.MMD.gauss (fun k => p (ix2 r k)) (fun k => qt (ix2 k c)) := by
  obtain ⟨u, v, rfl⟩ : ∃ (u : Fin 1) (v : Fin 1), j = ix2 u v := ⟨j 0, j 1, eq_ix2 j⟩
  unfold k2_pay3
  rw [shapeCast_self p, shapeCast_self qt]
  refine (addf_apply _ _ _).trans ?_
  refine congrArg (a (ix2 u v) + ·) ?_
  -- the two closing lane sums: over the rows of the column of row sums
  refine (shapeCast_a_1a_apply _ _ u v).trans ?_
  refine (laneSum0_apply _ _ _ _ v).trans ?_
  refine Finset.sum_congr rfl fun r _ => ?_
  refine (shapeCast_a_a1_apply _ _ r v).trans ?_
  refine (laneSum1_apply _ _ _ _ r).trans ?_
  refine Finset.sum_congr rfl fun c _ => ?_
  -- one entry of the tile: the exponential of minus half the clamped squared distance
  unfold Cert.MMD.gauss
  refine congrArg Ideal.exp ?_
  refine (mulf_apply _ _ _).trans ?_
  refine congrArg₂ (· * ·) ?_ rfl
  refine (subf_apply _ _ _).trans ?_
  refine (congrArg₂ (· - ·) Ideal.ofBits_zero_f32 ?_).trans (zero_sub _)
  refine (maximumf_apply _ _ _).trans ?_
  refine congrArg₂ max ?_ Ideal.ofBits_zero_f32
  refine (subf_apply _ _ _).trans ?_
  refine congrArg₂ (· - ·) ?_ ?_
  · -- the two squared norms, one spread along the row and one along the column
    refine (addf_apply _ _ _).trans ?_
    refine congrArg₂ (· + ·) ?_ ?_
    · refine (broadcastTo_a1_ab_apply _ _ r c).trans ?_
      refine (shapeCast_a_a1_apply _ _ r 0).trans ?_
      refine (laneSum1_apply _ _ _ _ r).trans ?_
      exact Finset.sum_congr rfl fun k _ => rfl
    · refine (broadcastTo_1b_ab_apply _ _ r c).trans ?_
      refine (shapeCast_a_1a_apply _ _ 0 c).trans ?_
      refine (laneSum0_apply _ _ _ _ c).trans ?_
      exact Finset.sum_congr rfl fun k _ => rfl
  · -- twice the inner product
    refine (mulf_apply _ _ _).trans ?_
    refine congrArg₂ (· * ·) rfl ?_
    refine (matmulC_apply _ _ r c).trans ?_
    exact Finset.sum_congr rfl fun k _ => rfl

/-- Tile pass of kernel 3: the running value after one tile is the value before plus the sum of the Gaussian kernel over the
    tile's 1024 x 1024 pairs of rows. -/
theorem tile_block3 (p : FVec Ideal S1024x64 .f32) (qt : FVec Ideal S64x1024 .f32) (a : FVec Ideal S1x1 .f32) (j : S1x1.Idx) :
    k3_pay3 (F := Ideal) p qt a j
      = a j + ∑ r : Fin 1024, ∑ c : Fin 1024, Cert.MMD.gauss (fun k => p (ix2 r k)) (fun k => qt (ix2 k c)) := by
  obtain ⟨u, v, rfl⟩ : ∃ (u : Fin 1) (v : Fin 1), j = ix2 u v := ⟨j 0, j 1, eq_ix2 j⟩
  unfold k3_pay3
  rw [shapeCast_self p, shapeCast_self qt]
  refine (addf_apply _ _ _).trans ?_
  refine congrArg (a (ix2 u v) + ·) ?_
  -- the two closing lane sums: over the rows of the column of row sums
  refine (shapeCast_a_1a_apply _ _ u v).trans ?_
  refine (laneSum0_apply _ _ _ _ v).trans ?_
  refine Finset.sum_congr rfl fun r _ => ?_
  refine (shapeCast_a_a1_apply _ _ r v).trans ?_
  refine (laneSum1_apply _ _ _ _ r).trans ?_
  refine Finset.sum_congr rfl fun c _ => ?_
  -- one entry of the tile: the exponential of minus half the clamped squared distance
  unfold Cert.MMD.gauss
  refine congrArg Ideal.exp ?_
  refine (mulf_apply _ _ _).trans ?_
  refine congrArg₂ (· * ·) ?_ rfl
  refine (subf_apply _ _ _).trans ?_
  refine (congrArg₂ (· - ·) Ideal.ofBits_zero_f32 ?_).trans (zero_sub _)
  refine (maximumf_apply _ _ _).trans ?_
  refine congrArg₂ max ?_ Ideal.ofBits_zero_f32
  refine (subf_apply _ _ _).trans ?_
  refine congrArg₂ (· - ·) ?_ ?_
  · -- the two squared norms, one spread along the row and one along the column
    refine (addf_apply _ _ _).trans ?_
    refine congrArg₂ (· + ·) ?_ ?_
    · refine (broadcastTo_a1_ab_apply _ _ r c).trans ?_
      refine (shapeCast_a_a1_apply _ _ r 0).trans ?_
      refine (laneSum1_apply _ _ _ _ r).trans ?_
      exact Finset.sum_congr rfl fun k _ => rfl
    · refine (broadcastTo_1b_ab_apply _ _ r c).trans ?_
      refine (shapeCast_a_1a_apply _ _ 0 c).trans ?_
      refine (laneSum0_apply _ _ _ _ c).trans ?_
      exact Finset.sum_congr rfl fun k _ => rfl
  · -- twice the inner product
    refine (mulf_apply _ _ _).trans ?_
    refine congrArg₂ (· * ·) rfl ?_
    refine (matmulC_apply _ _ r c).trans ?_
    exact Finset.sum_congr rfl fun k _ => rfl

/-- Tile pass of kernel 4: the running value after one tile is the value before plus the sum of the Gaussian kernel over the
    tile's 1024 x 1024 pairs of rows. -/
theorem tile_block4 (p : FVec Ideal S1024x64 .f32) (qt : FVec Ideal S64x1024 .f32) (a : FVec Ideal S1x1 .f32) (j : S1x1.Idx) :
    k4_pay3 (F := Ideal) p qt a j
      = a j + ∑ r : Fin 1024, ∑ c : Fin 1024, Cert.MMD.gauss (fun k => p (ix2 r k)) (fun k => qt (ix2 k c)) := by
  obtain ⟨u, v, rfl⟩ : ∃ (u : Fin 1) (v : Fin 1), j = ix2 u v := ⟨j 0, j 1, eq_ix2 j⟩
  unfold k4_pay3
  rw [shapeCast_self p, shapeCast_self qt]
  refine (addf_apply _ _ _).trans ?_
  refine congrArg (a (ix2 u v) + ·) ?_
  -- the two closing lane sums: over the rows of the column of row sums
  refine (shapeCast_a_1a_apply _ _ u v).trans ?_
  refine (laneSum0_apply _ _ _ _ v).trans ?_
  refine Finset.sum_congr rfl fun r _ => ?_
  refine (shapeCast_a_a1_apply _ _ r v).trans ?_
  refine (laneSum1_apply _ _ _ _ r).trans ?_
  refine Finset.sum_congr rfl fun c _ => ?_
  -- one entry of the tile: the exponential of minus half the clamped squared distance
  unfold Cert.MMD.gauss
  refine congrArg Ideal.exp ?_
  refine (mulf_apply _ _ _).trans ?_
  refine congrArg₂ (· * ·) ?_ rfl
  refine (subf_apply _ _ _).trans ?_
  refine (congrArg₂ (· - ·) Ideal.ofBits_zero_f32 ?_).trans (zero_sub _)
  refine (maximumf_apply _ _ _).trans ?_
  refine congrArg₂ max ?_ Ideal.ofBits_zero_f32
  refine (subf_apply _ _ _).trans ?_
  refine congrArg₂ (· - ·) ?_ ?_
  · -- the two squared norms, one spread along the row and one along the column
    refine (addf_apply _ _ _).trans ?_
    refine congrArg₂ (· + ·) ?_ ?_
    · refine (broadcastTo_a1_ab_apply _ _ r c).trans ?_
      refine (shapeCast_a_a1_apply _ _ r 0).trans ?_
      refine (laneSum1_apply _ _ _ _ r).trans ?_
      exact Finset.sum_congr rfl fun k _ => rfl
    · refine (broadcastTo_1b_ab_apply _ _ r c).trans ?_
      refine (shapeCast_a_1a_apply _ _ 0 c).trans ?_
      refine (laneSum0_apply _ _ _ _ c).trans ?_
      exact Finset.sum_congr rfl fun k _ => rfl
  · -- twice the inner product
    refine (mulf_apply _ _ _).trans ?_
    refine congrArg₂ (· * ·) rfl ?_
    refine (matmulC_apply _ _ r c).trans ?_
    exact Finset.sum_congr rfl fun k _ => rfl

/-! ## The stores before and after the loop -/

/-- The value kernel 2 stores at the end is the running value unchanged (a cast of a shape to itself). -/
theorem pay1_id2 (v : FVec Ideal S1x1 .f32) : k2_pay1 (F := Ideal) v = v := by
  unfold k2_pay1
  exact shapeCast_self v _

/-- The value kernel 2 stores at the start is zero. -/
theorem pay2_zero2 : k2_pay2 (F := Ideal) = fun _ => (0 : EReal) := by
  unfold k2_pay2
  exact (shapeCast_self _ _).trans (funext fun _ => Ideal.ofBits_zero_f32)

/-- The value kernel 3 stores at the end is the running value unchanged (a cast of a shape to itself). -/
theorem pay1_id3 (v : FVec Ideal S1x1 .f32) : k3_pay1 (F := Ideal) v = v := by
  unfold k3_pay1
  exact shapeCast_self v _

/-- The value kernel 3 stores at the start is zero. -/
theorem pay2_zero3 : k3_pay2 (F := Ideal) = fun _ => (0 : EReal) := by
  unfold k3_pay2
  exact (shapeCast_self _ _).trans (funext fun _ => Ideal.ofBits_zero_f32)

/-- The value kernel 4 stores at the end is the running value unchanged (a cast of a shape to itself). -/
theorem pay1_id4 (v : FVec Ideal S1x1 .f32) : k4_pay1 (F := Ideal) v = v := by
  unfold k4_pay1
  exact shapeCast_self v _

/-- The value kernel 4 stores at the start is zero. -/
theorem pay2_zero4 : k4_pay2 (F := Ideal) = fun _ => (0 : EReal) := by
  unfold k4_pay2
  exact (shapeCast_self _ _).trans (funext fun _ => Ideal.ofBits_zero_f32)

end Cert.MMDPay

end
-- ==== Proof.LibTileSum.lean ====
/-
  A general regrouping law for finite sums: a square index range of side `n * b`, cut into `n * n` square tiles of
  side `b` numbered row-major, is summed tile by tile.
-/
import Mathlib.Algebra.BigOperators.Fin
import Mathlib.Algebra.BigOperators.Group.Finset.Basic
import Mathlib.Logic.Equiv.Fin.Basic

open scoped BigOperators

namespace Cert.MMDPay

/-- A sum over `n * b` consecutive naturals is the sum over `n` blocks of `b` consecutive naturals. -/
theorem sum_fin_mul {M : Type*} [AddCommMonoid M] (n b : ℕ) (h : ℕ → M) :
    (∑ a : Fin (n * b), h a.val) = ∑ i : Fin n, ∑ r : Fin b, h (b * i.val + r.val) := by
  rw [← (finProdFinEquiv (m := n) (n := b)).sum_comp, Fintype.sum_prod_type]
  refine Finset.sum_congr rfl fun i _ => Finset.sum_congr rfl fun r _ => ?_
  rw [finProdFinEquiv_apply_val, Nat.add_comm]

/-- A sum over `n * n` naturals read through quotient and remainder by `n` is the double sum over the pairs. -/
theorem sum_fin_divMod {M : Type*} [AddCommMonoid M] (n : ℕ) (g : ℕ → ℕ → M) :
    (∑ t : Fin (n * n), g (t.val / n) (t.val % n)) = ∑ i : Fin n, ∑ j : Fin n, g i.val j.val := by
  rw [sum_fin_mul n n (fun t => g (t / n) (t % n))]
  refine Finset.sum_congr rfl fun i _ => Finset.sum_congr rfl fun j _ => ?_
  have hn : 0 < n := Nat.pos_of_ne_zero (fun h0 => by have := j.isLt; omega)
  rw [Nat.mul_add_div hn, Nat.div_eq_of_lt j.isLt, Nat.add_zero, Nat.mul_add_mod, Nat.mod_eq_of_lt j.isLt]

/-- **Tile sum, general form.** Summing `f` over the `n * n` tiles of side `b` of a square of side `n * b`, tile `t`
    covering rows `b * (t / n) + r` and columns `b * (t % n) + c`, is summing `f` over the whole square. -/
theorem tiles_sum_general {M : Type*} [AddCommMonoid M] (n b : ℕ) (f : ℕ → ℕ → M) :
    (∑ t : Fin (n * n), ∑ r : Fin b, ∑ c : Fin b, f (b * (t.val / n) + r.val) (b * (t.val % n) + c.val))
      = ∑ x : Fin (n * b), ∑ y : Fin (n * b), f x.val y.val := by
  rw [sum_fin_divMod n (fun i j => ∑ r : Fin b, ∑ c : Fin b, f (b * i + r.val) (b * j + c.val))]
  rw [sum_fin_mul n b (fun x => ∑ y : Fin (n * b), f x y.val)]
  refine Finset.sum_congr rfl fun i _ => ?_
  rw [Finset.sum_comm]
  refine Finset.sum_congr rfl fun r _ => ?_
  rw [sum_fin_mul n b (fun y => f (b * i.val + r.val) y)]

/-- **Tile sum.** A square of side 8192 summed as 64 tiles of side 1024, tile `t` at block row `t / 8` and block
    column `t % 8`. -/
theorem tiles_sum {M : Type*} [AddCommMonoid M] (f : ℕ → ℕ → M) :
    (∑ t : Fin 64, ∑ r : Fin 1024, ∑ c : Fin 1024, f (1024 * (t.val / 8) + r.val) (1024 * (t.val % 8) + c.val))
      = ∑ a : Fin 8192, ∑ b : Fin 8192, f a.val b.val :=
  tiles_sum_general 8 1024 f

end Cert.MMDPay
-- ==== Proof.KI.PairSum2.lean ====
import proofs.«105377_j36833639530798_1_alg».proof.Proof.KI.PairPieces2
import proofs.«105377_j36833639530798_1_alg».proof.Proof.KI.PairBlocks2
import proofs.«105377_j36833639530798_1_alg».proof.Proof.PayTile
import proofs.«105377_j36833639530798_1_alg».proof.Proof.LibTileSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The Gaussian kernel of row `a` of the left array and column `b` of the right one, over natural numbers (zero outside
    the arrays). -/
def pairAt2 (c : Dev nD) (a b : ℕ) : EReal :=
  if h : a < 8192 ∧ b < 8192 then
    Cert.MMD.gauss (fun k => (V c main_v0 : Vec Ideal S8192x64 .f32) (ix2 (⟨a, h.1⟩ : Fin 8192) k))
      (fun k => (V c main_v2 : Vec Ideal S64x8192 .f32) (ix2 k (⟨b, h.2⟩ : Fin 8192)))
  else 0

/-- The total of tile `t`: block row `t / 8`, block column `t % 8`. -/
def tileAt2 (c : Dev nD) (t : ℕ) : EReal :=
  ∑ r : Fin 1024, ∑ q : Fin 1024, pairAt2 V c (1024 * (t / 8) + r.val) (1024 * (t % 8) + q.val)

/-- The sum of the kernel over the two blocks the body sees at point `t` is that tile's total. -/
theorem tile_eq2 (c : Dev nD) (t : Fin cfg2.N) :
    (∑ r : Fin 1024, ∑ q : Fin 1024, Cert.MMD.gauss (fun k => (iblk2 V c 0 t : Vec Ideal S1024x64 .f32) (ix2 r k))
        (fun k => (iblk2 V c 1 t : Vec Ideal S64x1024 .f32) (ix2 k q))) = tileAt2 V c t.val := by
  unfold tileAt2
  refine Finset.sum_congr rfl fun r _ => Finset.sum_congr rfl fun q _ => ?_
  have ha : 1024 * (t.val / 8) + r.val < 8192 := by have := tlt2 t; have := r.isLt; omega
  have hb : 1024 * (t.val % 8) + q.val < 8192 := by have := q.isLt; omega
  unfold pairAt2
  rw [dif_pos ⟨ha, hb⟩]
  congr 1 <;> funext k
  · exact iblk2_0_apply V c t r k
  · exact iblk2_1_apply V c t k q

/-- One step of the accumulation: the word the body stores is the word it read plus the tile's total. -/
theorem step2 (c : Dev nD) (t : Fin cfg2.N) (prev : Vec Ideal S1x1 .f32) (j : S1x1.Idx) :
    k2_pay1 (F := Ideal) (k2_pay3 (F := Ideal) (iblk2 V c 0 t) (iblk2 V c 1 t) prev) j = prev j + tileAt2 V c t.val :=
  (congrFun (Cert.MMDPay.pay1_id2 _) j).trans
    ((Cert.MMDPay.tile_block2 _ _ _ j).trans (congrArg (fun z => prev j + z) (tile_eq2 V c t)))

/-- After the first point the scratch word holds the first tile's total. -/
theorem first2 (c : Dev nD) (t : Fin cfg2.N) (h0 : t.val = 0) (j : S1x1.Idx) :
    (outsAt2 V c t.val t.isLt).2 j = tileAt2 V c t.val := by
  have h1 : ¬t.val = 63 := by omega
  refine (congrFun (congrArg Prod.snd (outsAt2_A V c t h0 h1)) j).trans ?_
  refine (congrFun (sout2_A_eq (F := Ideal) c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) j).trans ?_
  refine (step2 V c t _ j).trans ?_
  rw [Cert.MMDPay.pay2_zero2, zero_add]

/-- After a later point the scratch word holds what the point before left plus this tile's total. -/
theorem next2 (c : Dev nD) (t : Fin cfg2.N) (h0 : ¬t.val = 0) (j : S1x1.Idx) :
    (outsAt2 V c t.val t.isLt).2 j = (outsAt2 V c (t.val - 1) (Nat.lt_of_le_of_lt (Nat.sub_le _ _) t.isLt)).2 j + tileAt2 V c t.val := by
  by_cases h1 : t.val = 63
  · refine (congrFun (congrArg Prod.snd (outsAt2_C V c t h0 h1)) j).trans ?_
    refine (congrFun (sout2_C_eq (F := Ideal) c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) j).trans ?_
    exact step2 V c t _ j
  · refine (congrFun (congrArg Prod.snd (outsAt2_B V c t h0 h1)) j).trans ?_
    refine (congrFun (sout2_B_eq (F := Ideal) c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) j).trans ?_
    exact step2 V c t _ j

/-- At the last point the output's staging buffer receives the same word. -/
theorem outLast2 (c : Dev nD) (t : Fin cfg2.N) (h0 : ¬t.val = 0) (h1 : t.val = 63) (j : S1x1.Idx) :
    (outsAt2 V c t.val t.isLt).1 j = (outsAt2 V c (t.val - 1) (Nat.lt_of_le_of_lt (Nat.sub_le _ _) t.isLt)).2 j + tileAt2 V c t.val := by
  refine (congrFun (congrArg Prod.fst (outsAt2_C V c t h0 h1)) j).trans ?_
  refine (congrFun (out2_C_eq (F := Ideal) c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) j).trans ?_
  exact step2 V c t _ j

/-- THE RUNNING TOTAL: after point `n` the scratch word holds the totals of tiles `0 … n`, by induction on the point. -/
theorem scratch2 (c : Dev nD) : ∀ (n : ℕ) (hn : n < cfg2.N) (j : S1x1.Idx),
    (outsAt2 V c n hn).2 j = ∑ t ∈ Finset.range (n + 1), tileAt2 V c t
  | 0, hn, j => by
    rw [Finset.sum_range_one]
    exact first2 V c ⟨0, hn⟩ rfl j
  | n + 1, hn, j => by
    rw [Finset.sum_range_succ]
    refine (next2 V c ⟨n + 1, hn⟩ (Nat.succ_ne_zero n) j).trans ?_
    exact congrArg (fun z => z + tileAt2 V c (n + 1)) (scratch2 c n (Nat.lt_of_succ_lt hn) j)

/-- The 64 tiles' totals add up to the sum of the kernel over all pairs of a row of the left array and a column of the
    right one. -/
theorem total2 (c : Dev nD) :
    (∑ t ∈ Finset.range 64, tileAt2 V c t)
      = ∑ a : Fin 8192, ∑ b : Fin 8192, Cert.MMD.gauss (fun k => (V c main_v0 : Vec Ideal S8192x64 .f32) (ix2 a k)) (fun k => (V c main_v2 : Vec Ideal S64x8192 .f32) (ix2 k b)) := by
  rw [← Fin.sum_univ_eq_sum_range (fun t => tileAt2 V c t) 64]
  refine (Cert.MMDPay.tiles_sum (pairAt2 V c)).trans ?_
  refine Finset.sum_congr rfl fun a _ => Finset.sum_congr rfl fun b _ => ?_
  unfold pairAt2
  rw [dif_pos ⟨a.isLt, b.isLt⟩]

/-- What the last point stores to the output: the sum over all pairs. -/
theorem outFinal2 (c : Dev nD) (t : Fin cfg2.N) (h1 : t.val = 63) (j : S1x1.Idx) :
    (outsAt2 V c t.val t.isLt).1 j
      = ∑ a : Fin 8192, ∑ b : Fin 8192, Cert.MMD.gauss (fun k => (V c main_v0 : Vec Ideal S8192x64 .f32) (ix2 a k)) (fun k => (V c main_v2 : Vec Ideal S64x8192 .f32) (ix2 k b)) := by
  refine (outLast2 V c t (by omega) h1 j).trans ?_
  rw [← total2 V c, Finset.sum_range_succ, scratch2 V c (t.val - 1) _ j]
  have e : t.val - 1 + 1 = 63 := by omega
  rw [e, h1]

end Cert.KernelIdeal.Hand

end
-- ==== Proof.KI.PairArray2.lean ====
import proofs.«105377_j36833639530798_1_alg».proof.Proof.KI.PairSum2
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The last grid point. -/
abbrev tLast2 : Fin cfg2.N := ⟨63, lt_of_lt_of_eq (by decide : 63 < 64) (show cfg2.N = 64 from N_2).symm⟩

/-- The sum of the Gaussian kernel over all pairs of a row of the left array and a column of the right one. -/
abbrev pairTotal2 (c : Dev nD) : EReal :=
  (∑ a : Fin 8192, ∑ b : Fin 8192, Cert.MMD.gauss (fun k => (V c main_v0 : Vec Ideal S8192x64 .f32) (ix2 a k)) (fun k => (V c main_v2 : Vec Ideal S64x8192 .f32) (ix2 k b)))

/-- The one write-back, at the last point, writes the sum over all pairs: the output's one block read through the
    constant array. -/
theorem flushed_eq2 (c : Dev nD) (t : Fin cfg2.N) (hf : (cfg2.win 2).flush t = true) :
    (dat2 (F := Ideal) V c).flushed 2 t
      = ((cfg2.win 2).blk t).view.read (Elt Ideal) (fun _ => pairTotal2 V c) := by
  have h63 : t.val = 63 := by have := (flush2_2 t).mp hf; have := tlt2 t; omega
  funext y
  rw [View.read_apply]
  show (dat2 (F := Ideal) V c).after 2 t _ = _
  rw [after2_2]
  exact outFinal2 V c t h63 _

/-- THE REGION'S VALUE: its one-word output array ends holding the sum of the Gaussian kernel over all pairs of a row of
    the left array and a column of the right one. -/
theorem pair_array2 (c : Dev nD) :
    (dat2 (F := Ideal) V c).arrAt 2 cfg2.N = fun _ => pairTotal2 V c :=
  (dat2 (F := Ideal) V c).arrAt_eq_of_cover 2 (fun _ => pairTotal2 V c) (flushed_eq2 V c) fun i =>
    ⟨tLast2, (flush2_2 tLast2).mpr rfl, by
      show i ∈ ((View.whole main_v4).slice (win2_2.rect tLast2)).set
      rw [View.set_slice_whole, Rect.mem_set_unit]
      intro a
      have h0 : (i 0 : Nat) < 1 := (i 0).isLt
      have h1 : (i 1 : Nat) < 1 := (i 1).isLt
      match a with
      | ⟨0, _⟩ =>
        show win2_2.index tLast2 0 * win2_2.size 0 ≤ (i 0 : Nat) ∧ (i 0 : Nat) < win2_2.index tLast2 0 * win2_2.size 0 + win2_2.xsize (grid2.coords tLast2) 0
        rw [show win2_2.index tLast2 0 * win2_2.size 0 = 0 from by decide +kernel, show win2_2.xsize (grid2.coords tLast2) 0 = 1 from by decide +kernel]
        omega
      | ⟨1, _⟩ =>
        show win2_2.index tLast2 1 * win2_2.size 1 ≤ (i 1 : Nat) ∧ (i 1 : Nat) < win2_2.index tLast2 1 * win2_2.size 1 + win2_2.xsize (grid2.coords tLast2) 1
        rw [show win2_2.index tLast2 1 * win2_2.size 1 = 0 from by decide +kernel, show win2_2.xsize (grid2.coords tLast2) 1 = 1 from by decide +kernel]
        omega⟩

end Cert.KernelIdeal.Hand

end
-- ==== Proof.KI.PairPieces3.lean ====
import proofs.«105377_j36833639530798_1_alg».proof.Proof.KI.Region3Body
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a one-word block, as a constant function. -/
theorem hz11_3 : (![0, 0] : Fin 2 → Nat) = fun _ => 0 := funext fun a => by fin_cases a <;> rfl

/-- At the first point the scratch word ends at the tile's total added to the reset's zero: the reset is stored, read
    back, and the total stored over it. -/
theorem sout3_A_eq (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond3_0 i) (hc1 : ¬cond3_1 i) (x0 : Vec F S1024x64 .f32) (x1 : Vec F S64x1024 .f32) :
    sout3_A c i arg2 harg2 arg3 harg3 arg4 harg4 arg5 harg5 hc0 hc1 x0 x1 = k3_pay1 (k3_pay3 x0 x1 (k3_pay2 (F := F))) := by
  have hz11 := hz11_3
  unfold sout3_A
  rw [View.read_writes_eq_canon _ _ _ (scover3_A c i arg2 harg2 arg3 harg3 arg4 harg4 arg5 harg5 hc0 hc1 x0 x1)]
  unfold kernelRun3_A
  dsimp only
  sl_unfold_words
  rw [View.canon_cons_unit_zero (S := S1x1) hz11, View.readCov_unit_zero (S := S1x1) _ hz11]
  simp only [View.readAt_eq_ld, harg2.read_unread, harg3.read_unread, View.ld_unit_zero (S := S1024x64) hz11, View.ld_unit_zero (S := S64x1024) hz11]

/-- At a middle point the scratch word ends at the tile's total added to what the point before left. -/
theorem sout3_B_eq (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : ¬cond3_1 i) (x0 : Vec F S1024x64 .f32) (x1 : Vec F S64x1024 .f32) (xs0 : Vec F S1x1 .f32) :
    sout3_B c i arg2 harg2 arg3 harg3 arg4 harg4 arg5 harg5 hc0 hc1 x0 x1 xs0 = k3_pay1 (k3_pay3 x0 x1 xs0) := by
  have hz11 := hz11_3
  unfold sout3_B
  rw [View.read_writes_eq_canon _ _ _ (scover3_B c i arg2 harg2 arg3 harg3 arg4 harg4 arg5 harg5 hc0 hc1 x0 x1 xs0)]
  unfold kernelRun3_B
  dsimp only
  sl_unfold_words
  rw [View.canon_unit_zero (S := S1x1) hz11]
  simp only [View.readAt_eq_ld, harg2.read_unread, harg3.read_unread, harg5.read_unread, View.ld_unit_zero (S := S1024x64) hz11, View.ld_unit_zero (S := S64x1024) hz11, View.ld_unit_zero (S := S1x1) hz11]

/-- At the last point the scratch word ends at the tile's total added to what the point before left. -/
theorem sout3_C_eq (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) :
    sout3_C c i arg2 harg2 arg3 harg3 arg4 harg4 arg5 harg5 hc0 hc1 x0 x1 xs0 = k3_pay1 (k3_pay3 x0 x1 xs0) := by
  have hz11 := hz11_3
  unfold sout3_C
  rw [View.read_writes_eq_canon _ _ _ (scover3_C c i arg2 harg2 arg3 harg3 arg4 harg4 arg5 harg5 hc0 hc1 x0 x1 xs0)]
  unfold kernelRun3_C
  dsimp only
  sl_unfold_words
  rw [View.canon_unit_zero (S := S1x1) hz11]
  simp only [View.readAt_eq_ld, harg2.read_unread, harg3.read_unread, harg5.read_unread, View.ld_unit_zero (S := S1024x64) hz11, View.ld_unit_zero (S := S64x1024) hz11, View.ld_unit_zero (S := S1x1) hz11]

/-- At the last point the output's staging buffer receives the scratch word read back: the tile's total added to what
    the point before left. -/
theorem out3_C_eq (c : Dev nD) (i : grid3.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond3_0 i) (hc1 : cond3_1 i) (x0 : Vec F S1024x64 .f32) (x1 : Vec F S64x1024 .f32) (xs0 : Vec F S1x1 .f32) :
    out3_C_2 c i arg2 harg2 arg3 harg3 arg4 harg4 arg5 harg5 hc0 hc1 x0 x1 xs0 = k3_pay1 (k3_pay3 x0 x1 xs0) := by
  have hz11 := hz11_3
  unfold out3_C_2
  rw [View.read_writes_eq_canon _ _ _ (cover3_C_2 c i arg2 harg2 arg3 harg3 arg4 harg4 arg5 harg5 hc0 hc1 x0 x1 xs0)]
  unfold kernelRun3_C
  dsimp only
  sl_unfold_words
  rw [View.canon_unit_zero (S := S1x1) hz11, View.readCov_unit_zero (S := S1x1) _ hz11]
  simp only [View.readAt_eq_ld, harg2.read_unread, harg3.read_unread, harg5.read_unread, View.ld_unit_zero (S := S1024x64) hz11, View.ld_unit_zero (S := S64x1024) hz11, View.ld_unit_zero (S := S1x1) hz11]

end Cert.KernelIdeal.Hand

end
-- ==== Proof.KI.PairBlocks3.lean ====
import proofs.«105377_j36833639530798_1_alg».proof.Proof.KI.Region3Body
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The left window's block index over the grid: the block row is the point's quotient by 8, the block column 0. -/
theorem widx3_0 : ∀ t : Fin cfg3.N, win3_0.index t 0 = t.val / 8 ∧ win3_0.index t 1 = 0 :=
  (by decide +kernel : ∀ t : Fin grid3.N, win3_0.index t 0 = t.val / 8 ∧ win3_0.index t 1 = 0)

/-- The right window's block index over the grid: the block row 0, the block column the point's remainder by 8. -/
theorem widx3_1 : ∀ t : Fin cfg3.N, win3_1.index t 0 = 0 ∧ win3_1.index t 1 = t.val % 8 :=
  (by decide +kernel : ∀ t : Fin grid3.N, win3_1.index t 0 = 0 ∧ win3_1.index t 1 = t.val % 8)

/-- A point is below 64. -/
theorem tlt3 (t : Fin cfg3.N) : t.val < 64 := lt_of_lt_of_eq t.isLt (show cfg3.N = 64 from N_3)

/-- Row `r` of the left block at point `t` is row `1024 * (t / 8) + r` of the left array. -/
theorem iblk3_0_apply (c : Dev nD) (t : Fin cfg3.N) (r : Fin 1024) (k : Fin 64) :
    (iblk3 V c 0 t : Vec F S1024x64 .f32) (ix2 r k)
      = (V c main_v1 : Vec F S8192x64 .f32) (ix2 (⟨1024 * (t.val / 8) + r.val, by have := tlt3 t; have := r.isLt; omega⟩ : Fin 8192) k) := by
  unfold iblk3
  rw [View.read_apply]
  show V c main_v1 _ = V c main_v1 _
  congr 1
  funext a
  apply Fin.ext
  match a with
  | ⟨0, _⟩ => show win3_0.index t 0 * 1024 + 1 * r.val = 1024 * (t.val / 8) + r.val; rw [(widx3_0 t).1]; omega
  | ⟨1, _⟩ => show win3_0.index t 1 * 64 + 1 * k.val = k.val; rw [(widx3_0 t).2]; omega

/-- Column `q` of the right block at point `t` is column `1024 * (t % 8) + q` of the right array. -/
theorem iblk3_1_apply (c : Dev nD) (t : Fin cfg3.N) (k : Fin 64) (q : Fin 1024) :
    (iblk3 V c 1 t : Vec F S64x1024 .f32) (ix2 k q)
      = (V c main_v3 : Vec F S64x8192 .f32) (ix2 k (⟨1024 * (t.val % 8) + q.val, by have := q.isLt; omega⟩ : Fin 8192)) := by
  unfold iblk3
  rw [View.read_apply]
  show V c main_v3 _ = V c main_v3 _
  congr 1
  funext a
  apply Fin.ext
  match a with
  | ⟨0, _⟩ => show win3_1.index t 0 * 64 + 1 * k.val = k.val; rw [(widx3_1 t).1]; omega
  | ⟨1, _⟩ => show win3_1.index t 1 * 1024 + 1 * q.val = 1024 * (t.val % 8) + q.val; rw [(widx3_1 t).2]; omega

end Cert.KernelIdeal.Hand

end
-- ==== Proof.KI.PairSum3.lean ====
import proofs.«105377_j36833639530798_1_alg».proof.Proof.KI.PairPieces3
import proofs.«105377_j36833639530798_1_alg».proof.Proof.KI.PairBlocks3
import proofs.«105377_j36833639530798_1_alg».proof.Proof.PayTile
import proofs.«105377_j36833639530798_1_alg».proof.Proof.LibTileSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The Gaussian kernel of row `a` of the left array and column `b` of the right one, over natural numbers (zero outside
    the arrays). -/
def pairAt3 (c : Dev nD) (a b : ℕ) : EReal :=
  if h : a < 8192 ∧ b < 8192 then
    Cert.MMD.gauss (fun k => (V c main_v1 : Vec Ideal S8192x64 .f32) (ix2 (⟨a, h.1⟩ : Fin 8192) k))
      (fun k => (V c main_v3 : Vec Ideal S64x8192 .f32) (ix2 k (⟨b, h.2⟩ : Fin 8192)))
  else 0

/-- The total of tile `t`: block row `t / 8`, block column `t % 8`. -/
def tileAt3 (c : Dev nD) (t : ℕ) : EReal :=
  ∑ r : Fin 1024, ∑ q : Fin 1024, pairAt3 V c (1024 * (t / 8) + r.val) (1024 * (t % 8) + q.val)

/-- The sum of the kernel over the two blocks the body sees at point `t` is that tile's total. -/
theorem tile_eq3 (c : Dev nD) (t : Fin cfg3.N) :
    (∑ r : Fin 1024, ∑ q : Fin 1024, Cert.MMD.gauss (fun k => (iblk3 V c 0 t : Vec Ideal S1024x64 .f32) (ix2 r k))
        (fun k => (iblk3 V c 1 t : Vec Ideal S64x1024 .f32) (ix2 k q))) = tileAt3 V c t.val := by
  unfold tileAt3
  refine Finset.sum_congr rfl fun r _ => Finset.sum_congr rfl fun q _ => ?_
  have ha : 1024 * (t.val / 8) + r.val < 8192 := by have := tlt3 t; have := r.isLt; omega
  have hb : 1024 * (t.val % 8) + q.val < 8192 := by have := q.isLt; omega
  unfold pairAt3
  rw [dif_pos ⟨ha, hb⟩]
  congr 1 <;> funext k
  · exact iblk3_0_apply V c t r k
  · exact iblk3_1_apply V c t k q

/-- One step of the accumulation: the word the body stores is the word it read plus the tile's total. -/
theorem step3 (c : Dev nD) (t : Fin cfg3.N) (prev : Vec Ideal S1x1 .f32) (j : S1x1.Idx) :
    k3_pay1 (F := Ideal) (k3_pay3 (F := Ideal) (iblk3 V c 0 t) (iblk3 V c 1 t) prev) j = prev j + tileAt3 V c t.val :=
  (congrFun (Cert.MMDPay.pay1_id3 _) j).trans
    ((Cert.MMDPay.tile_block3 _ _ _ j).trans (congrArg (fun z => prev j + z) (tile_eq3 V c t)))

/-- After the first point the scratch word holds the first tile's total. -/
theorem first3 (c : Dev nD) (t : Fin cfg3.N) (h0 : t.val = 0) (j : S1x1.Idx) :
    (outsAt3 V c t.val t.isLt).2 j = tileAt3 V c t.val := by
  have h1 : ¬t.val = 63 := by omega
  refine (congrFun (congrArg Prod.snd (outsAt3_A V c t h0 h1)) j).trans ?_
  refine (congrFun (sout3_A_eq (F := Ideal) c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t)) j).trans ?_
  refine (step3 V c t _ j).trans ?_
  rw [Cert.MMDPay.pay2_zero3, zero_add]

/-- After a later point the scratch word holds what the point before left plus this tile's total. -/
theorem next3 (c : Dev nD) (t : Fin cfg3.N) (h0 : ¬t.val = 0) (j : S1x1.Idx) :
    (outsAt3 V c t.val t.isLt).2 j = (outsAt3 V c (t.val - 1) (Nat.lt_of_le_of_lt (Nat.sub_le _ _) t.isLt)).2 j + tileAt3 V c t.val := by
  by_cases h1 : t.val = 63
  · refine (congrFun (congrArg Prod.snd (outsAt3_C V c t h0 h1)) j).trans ?_
    refine (congrFun (sout3_C_eq (F := Ideal) c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) j).trans ?_
    exact step3 V c t _ j
  · refine (congrFun (congrArg Prod.snd (outsAt3_B V c t h0 h1)) j).trans ?_
    refine (congrFun (sout3_B_eq (F := Ideal) c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) j).trans ?_
    exact step3 V c t _ j

/-- At the last point the output's staging buffer receives the same word. -/
theorem outLast3 (c : Dev nD) (t : Fin cfg3.N) (h0 : ¬t.val = 0) (h1 : t.val = 63) (j : S1x1.Idx) :
    (outsAt3 V c t.val t.isLt).1 j = (outsAt3 V c (t.val - 1) (Nat.lt_of_le_of_lt (Nat.sub_le _ _) t.isLt)).2 j + tileAt3 V c t.val := by
  refine (congrFun (congrArg Prod.fst (outsAt3_C V c t h0 h1)) j).trans ?_
  refine (congrFun (out3_C_eq (F := Ideal) c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) j).trans ?_
  exact step3 V c t _ j

/-- THE RUNNING TOTAL: after point `n` the scratch word holds the totals of tiles `0 … n`, by induction on the point. -/
theorem scratch3 (c : Dev nD) : ∀ (n : ℕ) (hn : n < cfg3.N) (j : S1x1.Idx),
    (outsAt3 V c n hn).2 j = ∑ t ∈ Finset.range (n + 1), tileAt3 V c t
  | 0, hn, j => by
    rw [Finset.sum_range_one]
    exact first3 V c ⟨0, hn⟩ rfl j
  | n + 1, hn, j => by
    rw [Finset.sum_range_succ]
    refine (next3 V c ⟨n + 1, hn⟩ (Nat.succ_ne_zero n) j).trans ?_
    exact congrArg (fun z => z + tileAt3 V c (n + 1)) (scratch3 c n (Nat.lt_of_succ_lt hn) j)

/-- The 64 tiles' totals add up to the sum of the kernel over all pairs of a row of the left array and a column of the
    right one. -/
theorem total3 (c : Dev nD) :
    (∑ t ∈ Finset.range 64, tileAt3 V c t)
      = ∑ a : Fin 8192, ∑ b : Fin 8192, Cert.MMD.gauss (fun k => (V c main_v1 : Vec Ideal S8192x64 .f32) (ix2 a k)) (fun k => (V c main_v3 : Vec Ideal S64x8192 .f32) (ix2 k b)) := by
  rw [← Fin.sum_univ_eq_sum_range (fun t => tileAt3 V c t) 64]
  refine (Cert.MMDPay.tiles_sum (pairAt3 V c)).trans ?_
  refine Finset.sum_congr rfl fun a _ => Finset.sum_congr rfl fun b _ => ?_
  unfold pairAt3
  rw [dif_pos ⟨a.isLt, b.isLt⟩]

/-- What the last point stores to the output: the sum over all pairs. -/
theorem outFinal3 (c : Dev nD) (t : Fin cfg3.N) (h1 : t.val = 63) (j : S1x1.Idx) :
    (outsAt3 V c t.val t.isLt).1 j
      = ∑ a : Fin 8192, ∑ b : Fin 8192, Cert.MMD.gauss (fun k => (V c main_v1 : Vec Ideal S8192x64 .f32) (ix2 a k)) (fun k => (V c main_v3 : Vec Ideal S64x8192 .f32) (ix2 k b)) := by
  refine (outLast3 V c t (by omega) h1 j).trans ?_
  rw [← total3 V c, Finset.sum_range_succ, scratch3 V c (t.val - 1) _ j]
  have e : t.val - 1 + 1 = 63 := by omega
  rw [e, h1]

end Cert.KernelIdeal.Hand

end
-- ==== Proof.KI.PairArray3.lean ====
import proofs.«105377_j36833639530798_1_alg».proof.Proof.KI.PairSum3
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The last grid point. -/
abbrev tLast3 : Fin cfg3.N := ⟨63, lt_of_lt_of_eq (by decide : 63 < 64) (show cfg3.N = 64 from N_3).symm⟩

/-- The sum of the Gaussian kernel over all pairs of a row of the left array and a column of the right one. -/
abbrev pairTotal3 (c : Dev nD) : EReal :=
  (∑ a : Fin 8192, ∑ b : Fin 8192, Cert.MMD.gauss (fun k => (V c main_v1 : Vec Ideal S8192x64 .f32) (ix2 a k)) (fun k => (V c main_v3 : Vec Ideal S64x8192 .f32) (ix2 k b)))

/-- The one write-back, at the last point, writes the sum over all pairs: the output's one block read through the
    constant array. -/
theorem flushed_eq3 (c : Dev nD) (t : Fin cfg3.N) (hf : (cfg3.win 2).flush t = true) :
    (dat3 (F := Ideal) V c).flushed 2 t
      = ((cfg3.win 2).blk t).view.read (Elt Ideal) (fun _ => pairTotal3 V c) := by
  have h63 : t.val = 63 := by have := (flush3_2 t).mp hf; have := tlt3 t; omega
  funext y
  rw [View.read_apply]
  show (dat3 (F := Ideal) V c).after 2 t _ = _
  rw [after3_2]
  exact outFinal3 V c t h63 _

/-- THE REGION'S VALUE: its one-word output array ends holding the sum of the Gaussian kernel over all pairs of a row of
    the left array and a column of the right one. -/
theorem pair_array3 (c : Dev nD) :
    (dat3 (F := Ideal) V c).arrAt 2 cfg3.N = fun _ => pairTotal3 V c :=
  (dat3 (F := Ideal) V c).arrAt_eq_of_cover 2 (fun _ => pairTotal3 V c) (flushed_eq3 V c) fun i =>
    ⟨tLast3, (flush3_2 tLast3).mpr rfl, by
      show i ∈ ((View.whole main_v6).slice (win3_2.rect tLast3)).set
      rw [View.set_slice_whole, Rect.mem_set_unit]
      intro a
      have h0 : (i 0 : Nat) < 1 := (i 0).isLt
      have h1 : (i 1 : Nat) < 1 := (i 1).isLt
      match a with
      | ⟨0, _⟩ =>
        show win3_2.index tLast3 0 * win3_2.size 0 ≤ (i 0 : Nat) ∧ (i 0 : Nat) < win3_2.index tLast3 0 * win3_2.size 0 + win3_2.xsize (grid3.coords tLast3) 0
        rw [show win3_2.index tLast3 0 * win3_2.size 0 = 0 from by decide +kernel, show win3_2.xsize (grid3.coords tLast3) 0 = 1 from by decide +kernel]
        omega
      | ⟨1, _⟩ =>
        show win3_2.index tLast3 1 * win3_2.size 1 ≤ (i 1 : Nat) ∧ (i 1 : Nat) < win3_2.index tLast3 1 * win3_2.size 1 + win3_2.xsize (grid3.coords tLast3) 1
        rw [show win3_2.index tLast3 1 * win3_2.size 1 = 0 from by decide +kernel, show win3_2.xsize (grid3.coords tLast3) 1 = 1 from by decide +kernel]
        omega⟩

end Cert.KernelIdeal.Hand

end
-- ==== Proof.KI.PairPieces4.lean ====
import proofs.«105377_j36833639530798_1_alg».proof.Proof.KI.Region4Body
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a one-word block, as a constant function. -/
theorem hz11_4 : (![0, 0] : Fin 2 → Nat) = fun _ => 0 := funext fun a => by fin_cases a <;> rfl

/-- At the first point the scratch word ends at the tile's total added to the reset's zero: the reset is stored, read
    back, and the total stored over it. -/
theorem sout4_A_eq (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : cond4_0 i) (hc1 : ¬cond4_1 i) (x0 : Vec F S1024x64 .f32) (x1 : Vec F S64x1024 .f32) :
    sout4_A c i arg2 harg2 arg3 harg3 arg4 harg4 arg5 harg5 hc0 hc1 x0 x1 = k4_pay1 (k4_pay3 x0 x1 (k4_pay2 (F := F))) := by
  have hz11 := hz11_4
  unfold sout4_A
  rw [View.read_writes_eq_canon _ _ _ (scover4_A c i arg2 harg2 arg3 harg3 arg4 harg4 arg5 harg5 hc0 hc1 x0 x1)]
  unfold kernelRun4_A
  dsimp only
  sl_unfold_words
  rw [View.canon_cons_unit_zero (S := S1x1) hz11, View.readCov_unit_zero (S := S1x1) _ hz11]
  simp only [View.readAt_eq_ld, harg2.read_unread, harg3.read_unread, View.ld_unit_zero (S := S1024x64) hz11, View.ld_unit_zero (S := S64x1024) hz11]

/-- At a middle point the scratch word ends at the tile's total added to what the point before left. -/
theorem sout4_B_eq (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : ¬cond4_1 i) (x0 : Vec F S1024x64 .f32) (x1 : Vec F S64x1024 .f32) (xs0 : Vec F S1x1 .f32) :
    sout4_B c i arg2 harg2 arg3 harg3 arg4 harg4 arg5 harg5 hc0 hc1 x0 x1 xs0 = k4_pay1 (k4_pay3 x0 x1 xs0) := by
  have hz11 := hz11_4
  unfold sout4_B
  rw [View.read_writes_eq_canon _ _ _ (scover4_B c i arg2 harg2 arg3 harg3 arg4 harg4 arg5 harg5 hc0 hc1 x0 x1 xs0)]
  unfold kernelRun4_B
  dsimp only
  sl_unfold_words
  rw [View.canon_unit_zero (S := S1x1) hz11]
  simp only [View.readAt_eq_ld, harg2.read_unread, harg3.read_unread, harg5.read_unread, View.ld_unit_zero (S := S1024x64) hz11, View.ld_unit_zero (S := S64x1024) hz11, View.ld_unit_zero (S := S1x1) hz11]

/-- At the last point the scratch word ends at the tile's total added to what the point before left. -/
theorem sout4_C_eq (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) :
    sout4_C c i arg2 harg2 arg3 harg3 arg4 harg4 arg5 harg5 hc0 hc1 x0 x1 xs0 = k4_pay1 (k4_pay3 x0 x1 xs0) := by
  have hz11 := hz11_4
  unfold sout4_C
  rw [View.read_writes_eq_canon _ _ _ (scover4_C c i arg2 harg2 arg3 harg3 arg4 harg4 arg5 harg5 hc0 hc1 x0 x1 xs0)]
  unfold kernelRun4_C
  dsimp only
  sl_unfold_words
  rw [View.canon_unit_zero (S := S1x1) hz11]
  simp only [View.readAt_eq_ld, harg2.read_unread, harg3.read_unread, harg5.read_unread, View.ld_unit_zero (S := S1024x64) hz11, View.ld_unit_zero (S := S64x1024) hz11, View.ld_unit_zero (S := S1x1) hz11]

/-- At the last point the output's staging buffer receives the scratch word read back: the tile's total added to what
    the point before left. -/
theorem out4_C_eq (c : Dev nD) (i : grid4.Coords) (arg2 : Memref sig .tc .vmem S1024x64 .f32) (harg2 : arg2.IsWhole) (arg3 : Memref sig .tc .vmem S64x1024 .f32) (harg3 : arg3.IsWhole) (arg4 : Memref sig .tc .vmem S1x1 .f32) (harg4 : arg4.IsWhole) (arg5 : Memref sig .tc .vmem S1x1 .f32) (harg5 : arg5.IsWhole) (hc0 : ¬cond4_0 i) (hc1 : cond4_1 i) (x0 : Vec F S1024x64 .f32) (x1 : Vec F S64x1024 .f32) (xs0 : Vec F S1x1 .f32) :
    out4_C_2 c i arg2 harg2 arg3 harg3 arg4 harg4 arg5 harg5 hc0 hc1 x0 x1 xs0 = k4_pay1 (k4_pay3 x0 x1 xs0) := by
  have hz11 := hz11_4
  unfold out4_C_2
  rw [View.read_writes_eq_canon _ _ _ (cover4_C_2 c i arg2 harg2 arg3 harg3 arg4 harg4 arg5 harg5 hc0 hc1 x0 x1 xs0)]
  unfold kernelRun4_C
  dsimp only
  sl_unfold_words
  rw [View.canon_unit_zero (S := S1x1) hz11, View.readCov_unit_zero (S := S1x1) _ hz11]
  simp only [View.readAt_eq_ld, harg2.read_unread, harg3.read_unread, harg5.read_unread, View.ld_unit_zero (S := S1024x64) hz11, View.ld_unit_zero (S := S64x1024) hz11, View.ld_unit_zero (S := S1x1) hz11]

end Cert.KernelIdeal.Hand

end
-- ==== Proof.KI.PairBlocks4.lean ====
import proofs.«105377_j36833639530798_1_alg».proof.Proof.KI.Region4Body
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The left window's block index over the grid: the block row is the point's quotient by 8, the block column 0. -/
theorem widx4_0 : ∀ t : Fin cfg4.N, win4_0.index t 0 = t.val / 8 ∧ win4_0.index t 1 = 0 :=
  (by decide +kernel : ∀ t : Fin grid4.N, win4_0.index t 0 = t.val / 8 ∧ win4_0.index t 1 = 0)

/-- The right window's block index over the grid: the block row 0, the block column the point's remainder by 8. -/
theorem widx4_1 : ∀ t : Fin cfg4.N, win4_1.index t 0 = 0 ∧ win4_1.index t 1 = t.val % 8 :=
  (by decide +kernel : ∀ t : Fin grid4.N, win4_1.index t 0 = 0 ∧ win4_1.index t 1 = t.val % 8)

/-- A point is below 64. -/
theorem tlt4 (t : Fin cfg4.N) : t.val < 64 := lt_of_lt_of_eq t.isLt (show cfg4.N = 64 from N_4)

/-- Row `r` of the left block at point `t` is row `1024 * (t / 8) + r` of the left array. -/
theorem iblk4_0_apply (c : Dev nD) (t : Fin cfg4.N) (r : Fin 1024) (k : Fin 64) :
    (iblk4 V c 0 t : Vec F S1024x64 .f32) (ix2 r k)
      = (V c main_v0 : Vec F S8192x64 .f32) (ix2 (⟨1024 * (t.val / 8) + r.val, by have := tlt4 t; have := r.isLt; omega⟩ : Fin 8192) k) := by
  unfold iblk4
  rw [View.read_apply]
  show V c main_v0 _ = V c main_v0 _
  congr 1
  funext a
  apply Fin.ext
  match a with
  | ⟨0, _⟩ => show win4_0.index t 0 * 1024 + 1 * r.val = 1024 * (t.val / 8) + r.val; rw [(widx4_0 t).1]; omega
  | ⟨1, _⟩ => show win4_0.index t 1 * 64 + 1 * k.val = k.val; rw [(widx4_0 t).2]; omega

/-- Column `q` of the right block at point `t` is column `1024 * (t % 8) + q` of the right array. -/
theorem iblk4_1_apply (c : Dev nD) (t : Fin cfg4.N) (k : Fin 64) (q : Fin 1024) :
    (iblk4 V c 1 t : Vec F S64x1024 .f32) (ix2 k q)
      = (V c main_v3 : Vec F S64x8192 .f32) (ix2 k (⟨1024 * (t.val % 8) + q.val, by have := q.isLt; omega⟩ : Fin 8192)) := by
  unfold iblk4
  rw [View.read_apply]
  show V c main_v3 _ = V c main_v3 _
  congr 1
  funext a
  apply Fin.ext
  match a with
  | ⟨0, _⟩ => show win4_1.index t 0 * 64 + 1 * k.val = k.val; rw [(widx4_1 t).1]; omega
  | ⟨1, _⟩ => show win4_1.index t 1 * 1024 + 1 * q.val = 1024 * (t.val % 8) + q.val; rw [(widx4_1 t).2]; omega

end Cert.KernelIdeal.Hand

end
-- ==== Proof.KI.PairSum4.lean ====
import proofs.«105377_j36833639530798_1_alg».proof.Proof.KI.PairPieces4
import proofs.«105377_j36833639530798_1_alg».proof.Proof.KI.PairBlocks4
import proofs.«105377_j36833639530798_1_alg».proof.Proof.PayTile
import proofs.«105377_j36833639530798_1_alg».proof.Proof.LibTileSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The Gaussian kernel of row `a` of the left array and column `b` of the right one, over natural numbers (zero outside
    the arrays). -/
def pairAt4 (c : Dev nD) (a b : ℕ) : EReal :=
  if h : a < 8192 ∧ b < 8192 then
    Cert.MMD.gauss (fun k => (V c main_v0 : Vec Ideal S8192x64 .f32) (ix2 (⟨a, h.1⟩ : Fin 8192) k))
      (fun k => (V c main_v3 : Vec Ideal S64x8192 .f32) (ix2 k (⟨b, h.2⟩ : Fin 8192)))
  else 0

/-- The total of tile `t`: block row `t / 8`, block column `t % 8`. -/
def tileAt4 (c : Dev nD) (t : ℕ) : EReal :=
  ∑ r : Fin 1024, ∑ q : Fin 1024, pairAt4 V c (1024 * (t / 8) + r.val) (1024 * (t % 8) + q.val)

/-- The sum of the kernel over the two blocks the body sees at point `t` is that tile's total. -/
theorem tile_eq4 (c : Dev nD) (t : Fin cfg4.N) :
    (∑ r : Fin 1024, ∑ q : Fin 1024, Cert.MMD.gauss (fun k => (iblk4 V c 0 t : Vec Ideal S1024x64 .f32) (ix2 r k))
        (fun k => (iblk4 V c 1 t : Vec Ideal S64x1024 .f32) (ix2 k q))) = tileAt4 V c t.val := by
  unfold tileAt4
  refine Finset.sum_congr rfl fun r _ => Finset.sum_congr rfl fun q _ => ?_
  have ha : 1024 * (t.val / 8) + r.val < 8192 := by have := tlt4 t; have := r.isLt; omega
  have hb : 1024 * (t.val % 8) + q.val < 8192 := by have := q.isLt; omega
  unfold pairAt4
  rw [dif_pos ⟨ha, hb⟩]
  congr 1 <;> funext k
  · exact iblk4_0_apply V c t r k
  · exact iblk4_1_apply V c t k q

/-- One step of the accumulation: the word the body stores is the word it read plus the tile's total. -/
theorem step4 (c : Dev nD) (t : Fin cfg4.N) (prev : Vec Ideal S1x1 .f32) (j : S1x1.Idx) :
    k4_pay1 (F := Ideal) (k4_pay3 (F := Ideal) (iblk4 V c 0 t) (iblk4 V c 1 t) prev) j = prev j + tileAt4 V c t.val :=
  (congrFun (Cert.MMDPay.pay1_id4 _) j).trans
    ((Cert.MMDPay.tile_block4 _ _ _ j).trans (congrArg (fun z => prev j + z) (tile_eq4 V c t)))

/-- After the first point the scratch word holds the first tile's total. -/
theorem first4 (c : Dev nD) (t : Fin cfg4.N) (h0 : t.val = 0) (j : S1x1.Idx) :
    (outsAt4 V c t.val t.isLt).2 j = tileAt4 V c t.val := by
  have h1 : ¬t.val = 63 := by omega
  refine (congrFun (congrArg Prod.snd (outsAt4_A V c t h0 h1)) j).trans ?_
  refine (congrFun (sout4_A_eq (F := Ideal) c (grid4.coords t) (ms4_0 t) (hs4_0 t) (ms4_1 t) (hs4_1 t) (ms4_2 t) (hs4_2 t) scM4 (Memref.isWhole_whole _) ((hcond4_0 t).mpr h0) (fun h => h1 ((hcond4_1 t).mp h)) (iblk4 V c 0 t) (iblk4 V c 1 t)) j).trans ?_
  refine (step4 V c t _ j).trans ?_
  rw [Cert.MMDPay.pay2_zero4, zero_add]

/-- After a later point the scratch word holds what the point before left plus this tile's total. -/
theorem next4 (c : Dev nD) (t : Fin cfg4.N) (h0 : ¬t.val = 0) (j : S1x1.Idx) :
    (outsAt4 V c t.val t.isLt).2 j = (outsAt4 V c (t.val - 1) (Nat.lt_of_le_of_lt (Nat.sub_le _ _) t.isLt)).2 j + tileAt4 V c t.val := by
  by_cases h1 : t.val = 63
  · refine (congrFun (congrArg Prod.snd (outsAt4_C V c t h0 h1)) j).trans ?_
    refine (congrFun (sout4_C_eq (F := Ideal) c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) j).trans ?_
    exact step4 V c t _ j
  · refine (congrFun (congrArg Prod.snd (outsAt4_B V c t h0 h1)) j).trans ?_
    refine (congrFun (sout4_B_eq (F := Ideal) c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) j).trans ?_
    exact step4 V c t _ j

/-- At the last point the output's staging buffer receives the same word. -/
theorem outLast4 (c : Dev nD) (t : Fin cfg4.N) (h0 : ¬t.val = 0) (h1 : t.val = 63) (j : S1x1.Idx) :
    (outsAt4 V c t.val t.isLt).1 j = (outsAt4 V c (t.val - 1) (Nat.lt_of_le_of_lt (Nat.sub_le _ _) t.isLt)).2 j + tileAt4 V c t.val := by
  refine (congrFun (congrArg Prod.fst (outsAt4_C V c t h0 h1)) j).trans ?_
  refine (congrFun (out4_C_eq (F := Ideal) c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) j).trans ?_
  exact step4 V c t _ j

/-- THE RUNNING TOTAL: after point `n` the scratch word holds the totals of tiles `0 … n`, by induction on the point. -/
theorem scratch4 (c : Dev nD) : ∀ (n : ℕ) (hn : n < cfg4.N) (j : S1x1.Idx),
    (outsAt4 V c n hn).2 j = ∑ t ∈ Finset.range (n + 1), tileAt4 V c t
  | 0, hn, j => by
    rw [Finset.sum_range_one]
    exact first4 V c ⟨0, hn⟩ rfl j
  | n + 1, hn, j => by
    rw [Finset.sum_range_succ]
    refine (next4 V c ⟨n + 1, hn⟩ (Nat.succ_ne_zero n) j).trans ?_
    exact congrArg (fun z => z + tileAt4 V c (n + 1)) (scratch4 c n (Nat.lt_of_succ_lt hn) j)

/-- The 64 tiles' totals add up to the sum of the kernel over all pairs of a row of the left array and a column of the
    right one. -/
theorem total4 (c : Dev nD) :
    (∑ t ∈ Finset.range 64, tileAt4 V c t)
      = ∑ a : Fin 8192, ∑ b : Fin 8192, Cert.MMD.gauss (fun k => (V c main_v0 : Vec Ideal S8192x64 .f32) (ix2 a k)) (fun k => (V c main_v3 : Vec Ideal S64x8192 .f32) (ix2 k b)) := by
  rw [← Fin.sum_univ_eq_sum_range (fun t => tileAt4 V c t) 64]
  refine (Cert.MMDPay.tiles_sum (pairAt4 V c)).trans ?_
  refine Finset.sum_congr rfl fun a _ => Finset.sum_congr rfl fun b _ => ?_
  unfold pairAt4
  rw [dif_pos ⟨a.isLt, b.isLt⟩]

/-- What the last point stores to the output: the sum over all pairs. -/
theorem outFinal4 (c : Dev nD) (t : Fin cfg4.N) (h1 : t.val = 63) (j : S1x1.Idx) :
    (outsAt4 V c t.val t.isLt).1 j
      = ∑ a : Fin 8192, ∑ b : Fin 8192, Cert.MMD.gauss (fun k => (V c main_v0 : Vec Ideal S8192x64 .f32) (ix2 a k)) (fun k => (V c main_v3 : Vec Ideal S64x8192 .f32) (ix2 k b)) := by
  refine (outLast4 V c t (by omega) h1 j).trans ?_
  rw [← total4 V c, Finset.sum_range_succ, scratch4 V c (t.val - 1) _ j]
  have e : t.val - 1 + 1 = 63 := by omega
  rw [e, h1]

end Cert.KernelIdeal.Hand

end
-- ==== Proof.KI.PairArray4.lean ====
import proofs.«105377_j36833639530798_1_alg».proof.Proof.KI.PairSum4
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The last grid point. -/
abbrev tLast4 : Fin cfg4.N := ⟨63, lt_of_lt_of_eq (by decide : 63 < 64) (show cfg4.N = 64 from N_4).symm⟩

/-- The sum of the Gaussian kernel over all pairs of a row of the left array and a column of the right one. -/
abbrev pairTotal4 (c : Dev nD) : EReal :=
  (∑ a : Fin 8192, ∑ b : Fin 8192, Cert.MMD.gauss (fun k => (V c main_v0 : Vec Ideal S8192x64 .f32) (ix2 a k)) (fun k => (V c main_v3 : Vec Ideal S64x8192 .f32) (ix2 k b)))

/-- The one write-back, at the last point, writes the sum over all pairs: the output's one block read through the
    constant array. -/
theorem flushed_eq4 (c : Dev nD) (t : Fin cfg4.N) (hf : (cfg4.win 2).flush t = true) :
    (dat4 (F := Ideal) V c).flushed 2 t
      = ((cfg4.win 2).blk t).view.read (Elt Ideal) (fun _ => pairTotal4 V c) := by
  have h63 : t.val = 63 := by have := (flush4_2 t).mp hf; have := tlt4 t; omega
  funext y
  rw [View.read_apply]
  show (dat4 (F := Ideal) V c).after 2 t _ = _
  rw [after4_2]
  exact outFinal4 V c t h63 _

/-- THE REGION'S VALUE: its one-word output array ends holding the sum of the Gaussian kernel over all pairs of a row of
    the left array and a column of the right one. -/
theorem pair_array4 (c : Dev nD) :
    (dat4 (F := Ideal) V c).arrAt 2 cfg4.N = fun _ => pairTotal4 V c :=
  (dat4 (F := Ideal) V c).arrAt_eq_of_cover 2 (fun _ => pairTotal4 V c) (flushed_eq4 V c) fun i =>
    ⟨tLast4, (flush4_2 tLast4).mpr rfl, by
      show i ∈ ((View.whole main_v8).slice (win4_2.rect tLast4)).set
      rw [View.set_slice_whole, Rect.mem_set_unit]
      intro a
      have h0 : (i 0 : Nat) < 1 := (i 0).isLt
      have h1 : (i 1 : Nat) < 1 := (i 1).isLt
      match a with
      | ⟨0, _⟩ =>
        show win4_2.index tLast4 0 * win4_2.size 0 ≤ (i 0 : Nat) ∧ (i 0 : Nat) < win4_2.index tLast4 0 * win4_2.size 0 + win4_2.xsize (grid4.coords tLast4) 0
        rw [show win4_2.index tLast4 0 * win4_2.size 0 = 0 from by decide +kernel, show win4_2.xsize (grid4.coords tLast4) 0 = 1 from by decide +kernel]
        omega
      | ⟨1, _⟩ =>
        show win4_2.index tLast4 1 * win4_2.size 1 ≤ (i 1 : Nat) ∧ (i 1 : Nat) < win4_2.index tLast4 1 * win4_2.size 1 + win4_2.xsize (grid4.coords tLast4) 1
        rw [show win4_2.index tLast4 1 * win4_2.size 1 = 0 from by decide +kernel, show win4_2.xsize (grid4.coords tLast4) 1 = 1 from by decide +kernel]
        omega⟩

end Cert.KernelIdeal.Hand

end
-- ==== Proof.KI.PairArray.lean ====
/-
  The three pair-sum regions' values, gathered: each region's one-word output array ends holding the sum of the Gaussian
  kernel over all pairs of a row of its left array and a column of its right one.
-/
import proofs.«105377_j36833639530798_1_alg».proof.Proof.KI.PairArray2
import proofs.«105377_j36833639530798_1_alg».proof.Proof.KI.PairArray3
import proofs.«105377_j36833639530798_1_alg».proof.Proof.KI.PairArray4
-- ==== Proof.KI.Values.lean ====
/-
  The three results of the idealized kernel program as functions of its arguments: the two feature matrices are the
  two-layer map of the arguments (each pass over the row bands writes every band back, so the whole array is the map),
  and the scalar is the discrepancy of three pair sums — each region's running total over its 64 tiles is the sum over all
  pairs of rows, the second operand being read through the transpose the program took of it.
-/
import proofs.«105377_j36833639530798_1_alg».proof.Proof.KI.HostValues
import proofs.«105377_j36833639530798_1_alg».proof.Proof.KI.ProjArray
import proofs.«105377_j36833639530798_1_alg».proof.Proof.KI.PairArray

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-- The two feature matrices, as the specification's map of the launch contents. -/
abbrev MA (c : Dev nD) : S8192x64.Idx → EReal :=
  Cert.MMD.proj (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
abbrev MB (c : Dev nD) : S8192x64.Idx → EReal :=
  Cert.MMD.proj (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))

/-- After region 0, `main_v0` holds the first feature matrix. -/
theorem W1_v0 (c : Dev nD) : (W1 m ρ c (Proc.devRef .tc main_v0) : S8192x64.Idx → EReal) = MA m c :=
  (W1_arr m ρ c 5).trans (proj_array0 (V0 m ρ) c)

/-- After region 1, `main_v1` holds the second (region 1 finds its five arguments as launched). -/
theorem W2_v1 (c : Dev nD) : (W2 m ρ c (Proc.devRef .tc main_v1) : S8192x64.Idx → EReal) = MB m c := by
  refine (W2_arr m ρ c 5).trans ((proj_array1 (V1 m ρ) c).trans ?_)
  show Cert.MMD.proj (W1 m ρ c (Proc.devRef .tc main_arg1)) (W1 m ρ c (Proc.devRef .tc main_arg6)) (W1 m ρ c (Proc.devRef .tc main_arg7))
    (W1 m ρ c (Proc.devRef .tc main_arg8)) (W1 m ρ c (Proc.devRef .tc main_arg9)) = _
  rw [W1_of_ne m ρ c main_arg1 (by decide), W1_of_ne m ρ c main_arg6 (by decide), W1_of_ne m ρ c main_arg7 (by decide),
    W1_of_ne m ρ c main_arg8 (by decide), W1_of_ne m ρ c main_arg9 (by decide)]

/-- `main_v0` is not written after region 0, -/
theorem W2_v0 (c : Dev nD) : (W2 m ρ c (Proc.devRef .tc main_v0) : S8192x64.Idx → EReal) = MA m c :=
  (W2_of_ne m ρ c main_v0 (by decide)).trans (W1_v0 m ρ c)
theorem W3_v0 (c : Dev nD) : (W3 m ρ c (Proc.devRef .tc main_v0) : S8192x64.Idx → EReal) = MA m c :=
  (W3_of m ρ c main_v0 (by decide)).trans (W2_v0 m ρ c)
theorem W3_v1 (c : Dev nD) : (W3 m ρ c (Proc.devRef .tc main_v1) : S8192x64.Idx → EReal) = MB m c :=
  (W3_of m ρ c main_v1 (by decide)).trans (W2_v1 m ρ c)
/-- nor `main_v1` after region 1: they reach the end. -/
theorem W9_v0 (c : Dev nD) : (W9 m ρ c (Proc.devRef .tc main_v0) : S8192x64.Idx → EReal) = MA m c :=
  calc (W9 m ρ c (Proc.devRef .tc main_v0) : S8192x64.Idx → EReal)
    _ = W8 m ρ c (Proc.devRef .tc main_v0) := W9_of m ρ c main_v0 (by decide)
    _ = W7 m ρ c (Proc.devRef .tc main_v0) := (W8_arr m ρ c 0).trans (((dat4 (V7 m ρ) c).arrAt_in 0 rfl _).trans (A_eq4 (V7 m ρ) c 0))
    _ = W6 m ρ c (Proc.devRef .tc main_v0) := W7_of m ρ c main_v0 (by decide)
    _ = W5 m ρ c (Proc.devRef .tc main_v0) := W6_of_ne m ρ c main_v0 (by decide)
    _ = W4 m ρ c (Proc.devRef .tc main_v0) := W5_of m ρ c main_v0 (by decide)
    _ = W3 m ρ c (Proc.devRef .tc main_v0) := (W4_arr m ρ c 0).trans (((dat2 (V3 m ρ) c).arrAt_in 0 rfl _).trans (A_eq2 (V3 m ρ) c 0))
    _ = MA m c := W3_v0 m ρ c
theorem W9_v1 (c : Dev nD) : (W9 m ρ c (Proc.devRef .tc main_v1) : S8192x64.Idx → EReal) = MB m c :=
  calc (W9 m ρ c (Proc.devRef .tc main_v1) : S8192x64.Idx → EReal)
    _ = W8 m ρ c (Proc.devRef .tc main_v1) := W9_of m ρ c main_v1 (by decide)
    _ = W7 m ρ c (Proc.devRef .tc main_v1) := W8_of_ne m ρ c main_v1 (by decide)
    _ = W6 m ρ c (Proc.devRef .tc main_v1) := W7_of m ρ c main_v1 (by decide)
    _ = W5 m ρ c (Proc.devRef .tc main_v1) := (W6_arr m ρ c 0).trans (((dat3 (V5 m ρ) c).arrAt_in 0 rfl _).trans (A_eq3 (V5 m ρ) c 0))
    _ = W4 m ρ c (Proc.devRef .tc main_v1) := W5_of m ρ c main_v1 (by decide)
    _ = W3 m ρ c (Proc.devRef .tc main_v1) := W4_of_ne m ρ c main_v1 (by decide)
    _ = MB m c := W3_v1 m ρ c

/-- The first pair sum: region 2 finds `main_v0` and its transpose. -/
theorem W4_v4 (c : Dev nD) : (W4 m ρ c (Proc.devRef .tc main_v4) : S1x1.Idx → EReal) (ix2 0 0) = Cert.MMD.pairSum (MA m c) (MA m c) := by
  have h : (W4 m ρ c (Proc.devRef .tc main_v4) : S1x1.Idx → EReal)
      = fun _ => ∑ a : Fin 8192, ∑ b : Fin 8192, Cert.MMD.gauss (fun k => (V3 m ρ c main_v0 : S8192x64.Idx → EReal) (ix2 a k)) (fun k => (V3 m ρ c main_v2 : S64x8192.Idx → EReal) (ix2 k b)) :=
    Eq.trans (W4_arr m ρ c 2) (pair_array2 (V3 m ρ) c)
  have key : (∑ a : Fin 8192, ∑ b : Fin 8192, Cert.MMD.gauss (fun k => (V3 m ρ c main_v0 : S8192x64.Idx → EReal) (ix2 a k)) (fun k => (V3 m ρ c main_v2 : S64x8192.Idx → EReal) (ix2 k b)) : EReal)
      = Cert.MMD.pairSum (MA m c) (MA m c) := by
    unfold Cert.MMD.pairSum
    refine Finset.sum_congr rfl fun a _ => Finset.sum_congr rfl fun b _ => ?_
    congr 1
    · funext k
      exact congrFun (W3_v0 m ρ c) (ix2 a k)
    · funext k
      exact (W3_v2 m ρ c k b).trans (congrFun (W2_v0 m ρ c) (ix2 b k))
  exact (congrFun h (ix2 0 0)).trans key

/-- The second: region 3 finds `main_v1` and its transpose. -/
theorem W6_v6 (c : Dev nD) : (W6 m ρ c (Proc.devRef .tc main_v6) : S1x1.Idx → EReal) (ix2 0 0) = Cert.MMD.pairSum (MB m c) (MB m c) := by
  have h : (W6 m ρ c (Proc.devRef .tc main_v6) : S1x1.Idx → EReal)
      = fun _ => ∑ a : Fin 8192, ∑ b : Fin 8192, Cert.MMD.gauss (fun k => (V5 m ρ c main_v1 : S8192x64.Idx → EReal) (ix2 a k)) (fun k => (V5 m ρ c main_v3 : S64x8192.Idx → EReal) (ix2 k b)) :=
    Eq.trans (W6_arr m ρ c 2) (pair_array3 (V5 m ρ) c)
  have key : (∑ a : Fin 8192, ∑ b : Fin 8192, Cert.MMD.gauss (fun k => (V5 m ρ c main_v1 : S8192x64.Idx → EReal) (ix2 a k)) (fun k => (V5 m ρ c main_v3 : S64x8192.Idx → EReal) (ix2 k b)) : EReal)
      = Cert.MMD.pairSum (MB m c) (MB m c) := by
    unfold Cert.MMD.pairSum
    refine Finset.sum_congr rfl fun a _ => Finset.sum_congr rfl fun b _ => ?_
    congr 1
    · funext k
      exact congrFun ((W5_of m ρ c main_v1 (by decide)).trans ((W4_of_ne m ρ c main_v1 (by decide)).trans (W3_v1 m ρ c))) (ix2 a k)
    · funext k
      exact (congrFun ((W5_of m ρ c main_v3 (by decide)).trans (W4_of_ne m ρ c main_v3 (by decide))) (ix2 k b)).trans
        ((W3_v3 m ρ c k b).trans (congrFun (W2_v1 m ρ c) (ix2 b k)))
  exact (congrFun h (ix2 0 0)).trans key

/-- The third: region 4 finds `main_v0` and the transpose of `main_v1`. -/
theorem W8_v8 (c : Dev nD) : (W8 m ρ c (Proc.devRef .tc main_v8) : S1x1.Idx → EReal) (ix2 0 0) = Cert.MMD.pairSum (MA m c) (MB m c) := by
  have h : (W8 m ρ c (Proc.devRef .tc main_v8) : S1x1.Idx → EReal)
      = fun _ => ∑ a : Fin 8192, ∑ b : Fin 8192, Cert.MMD.gauss (fun k => (V7 m ρ c main_v0 : S8192x64.Idx → EReal) (ix2 a k)) (fun k => (V7 m ρ c main_v3 : S64x8192.Idx → EReal) (ix2 k b)) :=
    Eq.trans (W8_arr m ρ c 2) (pair_array4 (V7 m ρ) c)
  have key : (∑ a : Fin 8192, ∑ b : Fin 8192, Cert.MMD.gauss (fun k => (V7 m ρ c main_v0 : S8192x64.Idx → EReal) (ix2 a k)) (fun k => (V7 m ρ c main_v3 : S64x8192.Idx → EReal) (ix2 k b)) : EReal)
      = Cert.MMD.pairSum (MA m c) (MB m c) := by
    unfold Cert.MMD.pairSum
    refine Finset.sum_congr rfl fun a _ => Finset.sum_congr rfl fun b _ => ?_
    congr 1
    · funext k
      exact congrFun ((W7_of m ρ c main_v0 (by decide)).trans ((W6_of_ne m ρ c main_v0 (by decide)).trans ((W5_of m ρ c main_v0 (by decide)).trans
        (((W4_arr m ρ c 0).trans (((dat2 (V3 m ρ) c).arrAt_in 0 rfl _).trans (A_eq2 (V3 m ρ) c 0))).trans (W3_v0 m ρ c))))) (ix2 a k)
    · funext k
      exact (congrFun ((W7_of m ρ c main_v3 (by decide)).trans (((W6_arr m ρ c 1).trans (((dat3 (V5 m ρ) c).arrAt_in 1 rfl _).trans (A_eq3 (V5 m ρ) c 1))).trans
        ((W5_of m ρ c main_v3 (by decide)).trans (W4_of_ne m ρ c main_v3 (by decide))))) (ix2 k b)).trans
        ((W3_v3 m ρ c k b).trans (congrFun (W2_v1 m ρ c) (ix2 b k)))
  exact (congrFun h (ix2 0 0)).trans key

/-- The scalar result is the discrepancy of the three pair sums. -/
theorem W9_loss (c : Dev nD) : (W9 m ρ c (Proc.devRef .tc main_v15) : S_.Idx → EReal)
    = fun _ => Cert.MMD.loss (Cert.MMD.pairSum (MA m c) (MA m c)) (Cert.MMD.pairSum (MB m c) (MB m c)) (Cert.MMD.pairSum (MA m c) (MB m c)) := by
  funext j
  rw [W9_v15 m ρ c j]
  have h5 : (W8 m ρ c (Proc.devRef .tc main_v5) : S_.Idx → EReal) j = Cert.MMD.pairSum (MA m c) (MA m c) :=
    (congrFun ((W8_of_ne m ρ c main_v5 (by decide)).trans ((W7_of m ρ c main_v5 (by decide)).trans (W6_of_ne m ρ c main_v5 (by decide)))) j).trans
      ((W5_v5 m ρ c j).trans (W4_v4 m ρ c))
  have h7 : (W8 m ρ c (Proc.devRef .tc main_v7) : S_.Idx → EReal) j = Cert.MMD.pairSum (MB m c) (MB m c) :=
    (congrFun (W8_of_ne m ρ c main_v7 (by decide)) j).trans ((W7_v7 m ρ c j).trans (W6_v6 m ρ c))
  rw [h5, h7, W8_v8 m ρ c]

end Cert.KernelIdeal.Hand

end
-- ==== Proof.RefImports.lean ====
/-
  The reference's run and its read-at-an-index lemmas, gathered for the modules that state the reference's values.
-/
import proofs.«105377_j36833639530798_1_alg».proof.Proof.Gen.ReferenceIdeal.Read
import proofs.«105377_j36833639530798_1_alg».proof.Proof.Spec
-- ==== Proof.RefProj.lean ====
import proofs.«105377_j36833639530798_1_alg».proof.Proof.RefImports

noncomputable section

open scoped BigOperators

namespace Cert.MMDRef

open Cert.ReferenceIdeal Cert.ReferenceIdeal.Gen Cert.ReferenceIdeal.Read Idealize.ShloMosaic Idealize.ShloMosaic.ValueIdx

/-! ### The two-layer map, A copy -/

/-- The hidden layer at row `n`, unit `h`: the first linear layer plus its bias, clamped at zero. -/
theorem hidden_A (x0 : (⟨S8192x512, .f32⟩ : BufTy).Contents (Elt Ideal)) (x2 : (⟨S512x64, .f32⟩ : BufTy).Contents (Elt Ideal)) (x3 : (⟨S64, .f32⟩ : BufTy).Contents (Elt Ideal)) (n : Fin 8192) (h : Fin 64) :
    val_main_v4 (F := Ideal) x0 x2 x3 (ix2 n h)
      = max ((∑ d : Fin 512, x0 (ix2 n d) * x2 (ix2 d h)) + x3 (ix1 h)) 0 := by
  have el : ∀ d : Fin 512, lidx_main_v0 (ix2 n h) d = ix2 n d := fun d => funext fun a => by
    match a with | ⟨0, _⟩ => rfl | ⟨1, _⟩ => rfl
  have er : ∀ d : Fin 512, ridx_main_v0 (ix2 n h) d = ix2 d h := fun d => funext fun a => by
    match a with | ⟨0, _⟩ => rfl | ⟨1, _⟩ => rfl
  have eb : idx_main_v1 (idx_main_v2 (ix2 n h)) = ix1 h := funext fun a => by
    match a with | ⟨0, _⟩ => rfl
  rw [val_main_v4_apply, val_main_v3_apply, val_main_v0_apply, val_main_v2_apply, val_main_v1_apply,
    val_main_call0_v0_apply, val_main_call0_cst_apply, eb]
  simp only [el, er, Ideal.maximumf_def, Ideal.addf_def, Ideal.ofBits_def, Ideal.ofBits_zero_f32]

/-- The whole map is the specification's two-layer map. -/
theorem proj_A (x0 : (⟨S8192x512, .f32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v8 (F := Ideal) x0 x2 x3 x4 x5 = Cert.MMD.proj (N := 8192) (D := 512) x0 x2 x3 x4 x5 := by
  funext i
  obtain ⟨n, o, rfl⟩ : ∃ (n : Fin 8192) (o : Fin 64), i = ix2 n o := ⟨i 0, i 1, eq_ix2 i⟩
  have el : ∀ h : Fin 64, lidx_main_v5 (ix2 n o) h = ix2 n h := fun h => funext fun a => by
    match a with | ⟨0, _⟩ => rfl | ⟨1, _⟩ => rfl
  have er : ∀ h : Fin 64, ridx_main_v5 (ix2 n o) h = ix2 h o := fun h => funext fun a => by
    match a with | ⟨0, _⟩ => rfl | ⟨1, _⟩ => rfl
  have eb : idx_main_v6 (idx_main_v7 (ix2 n o)) = ix1 o := funext fun a => by
    match a with | ⟨0, _⟩ => rfl
  rw [val_main_v8_apply, val_main_v5_apply, val_main_v7_apply, val_main_v6_apply, eb]
  simp only [el, er, hidden_A, Ideal.addf_def]
  rfl

/-! ### The two-layer map, B copy -/

/-- The hidden layer at row `n`, unit `h`: the first linear layer plus its bias, clamped at zero. -/
theorem hidden_B (x1 : (⟨S8192x512, .f32⟩ : BufTy).Contents (Elt Ideal)) (x6 : (⟨S512x64, .f32⟩ : BufTy).Contents (Elt Ideal)) (x7 : (⟨S64, .f32⟩ : BufTy).Contents (Elt Ideal)) (n : Fin 8192) (h : Fin 64) :
    val_main_v13 (F := Ideal) x1 x6 x7 (ix2 n h)
      = max ((∑ d : Fin 512, x1 (ix2 n d) * x6 (ix2 d h)) + x7 (ix1 h)) 0 := by
  have el : ∀ d : Fin 512, lidx_main_v9 (ix2 n h) d = ix2 n d := fun d => funext fun a => by
    match a with | ⟨0, _⟩ => rfl | ⟨1, _⟩ => rfl
  have er : ∀ d : Fin 512, ridx_main_v9 (ix2 n h) d = ix2 d h := fun d => funext fun a => by
    match a with | ⟨0, _⟩ => rfl | ⟨1, _⟩ => rfl
  have eb : idx_main_v10 (idx_main_v11 (ix2 n h)) = ix1 h := funext fun a => by
    match a with | ⟨0, _⟩ => rfl
  rw [val_main_v13_apply, val_main_v12_apply, val_main_v9_apply, val_main_v11_apply, val_main_v10_apply,
    val_main_call1_v0_apply, val_main_call1_cst_apply, eb]
  simp only [el, er, Ideal.maximumf_def, Ideal.addf_def, Ideal.ofBits_def, Ideal.ofBits_zero_f32]

/-- The whole map is the specification's two-layer map. -/
theorem proj_B (x1 : (⟨S8192x512, .f32⟩ : BufTy).Contents (Elt Ideal)) (x6 : (⟨S512x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v17 (F := Ideal) x1 x6 x7 x8 x9 = Cert.MMD.proj (N := 8192) (D := 512) x1 x6 x7 x8 x9 := by
  funext i
  obtain ⟨n, o, rfl⟩ : ∃ (n : Fin 8192) (o : Fin 64), i = ix2 n o := ⟨i 0, i 1, eq_ix2 i⟩
  have el : ∀ h : Fin 64, lidx_main_v14 (ix2 n o) h = ix2 n h := fun h => funext fun a => by
    match a with | ⟨0, _⟩ => rfl | ⟨1, _⟩ => rfl
  have er : ∀ h : Fin 64, ridx_main_v14 (ix2 n o) h = ix2 h o := fun h => funext fun a => by
    match a with | ⟨0, _⟩ => rfl | ⟨1, _⟩ => rfl
  have eb : idx_main_v15 (idx_main_v16 (ix2 n o)) = ix1 o := funext fun a => by
    match a with | ⟨0, _⟩ => rfl
  rw [val_main_v17_apply, val_main_v14_apply, val_main_v16_apply, val_main_v15_apply, eb]
  simp only [el, er, hidden_B, Ideal.addf_def]
  rfl

end Cert.MMDRef

end
-- ==== Proof.RefPair.lean ====
import proofs.«105377_j36833639530798_1_alg».proof.Proof.RefImports

noncomputable section

open scoped BigOperators

namespace Cert.MMDRef

open Cert.ReferenceIdeal Cert.ReferenceIdeal.Gen Cert.ReferenceIdeal.Read Idealize.ShloMosaic Idealize.ShloMosaic.ValueIdx

/-! ### The AA pair sum -/

/-- One entry of the kernel matrix: the reduce-add, broadcast, product-against-the-transpose, clamp, negate, halve,
    exponential chain at row `a`, column `b` is the Gaussian kernel of row `a` of the left array and row `b` of the right. -/
theorem kern_AA (x0 : (⟨S8192x512, .f32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (a b : Fin 8192) :
    val_main_v37 (F := Ideal) x0 x2 x3 x4 x5 (ix2 a b)
      = Cert.MMD.gauss (fun k => val_main_v8 (F := Ideal) x0 x2 x3 x4 x5 (ix2 a k)) (fun k => val_main_v8 (F := Ideal) x0 x2 x3 x4 x5 (ix2 b k)) := by
  have e1 : ∀ k : Fin 64, idx_main_v19 (idx_main_v20 (idx_main_v24 (ix2 a b))) k = ix2 a k := fun k => funext fun d => by
    match d with | ⟨0, _⟩ => rfl | ⟨1, _⟩ => rfl
  have e2 : ∀ k : Fin 64, idx_main_v22 (idx_main_v23 (idx_main_v25 (ix2 a b))) k = ix2 b k := fun k => funext fun d => by
    match d with | ⟨0, _⟩ => rfl | ⟨1, _⟩ => rfl
  have e3 : ∀ k : Fin 64, lidx_main_v28 (ix2 a b) k = ix2 a k := fun k => funext fun d => by
    match d with | ⟨0, _⟩ => rfl | ⟨1, _⟩ => rfl
  have e4 : ∀ k : Fin 64, idx_main_v27 (ridx_main_v28 (ix2 a b) k) = ix2 b k := fun k => funext fun d => by
    match d with | ⟨0, _⟩ => rfl | ⟨1, _⟩ => rfl
  simp only [val_main_v37_apply, val_main_v36_apply, val_main_v34_apply, val_main_v33_apply, val_main_v31_apply, val_main_v26_apply, val_main_v24_apply, val_main_v20_apply, val_main_v19_apply, val_main_v18_apply, val_main_v25_apply, val_main_v23_apply, val_main_v22_apply, val_main_v21_apply, val_main_v30_apply, val_main_v29_apply, val_main_v28_apply, val_main_v27_apply, val_main_v32_apply, val_main_v35_apply, val_main_cst_apply, val_main_cst_0_apply, val_main_cst_1_apply, val_main_cst_2_apply, val_main_cst_3_apply,
    e1, e2, e3, e4, Ideal.hostUnary_exp_def, Ideal.hostNegf_def, Ideal.negf_def, Ideal.mulf_def, Ideal.maximumf_def, Ideal.subf_def,
    Ideal.addf_def, Ideal.ofBits_def, Ideal.ofBits_zero_f32, zero_add]
  rfl

/-- The sum of the kernel matrix over both axes is the specification's pair sum. -/
theorem pair_AA (x0 : (⟨S8192x512, .f32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v38 (F := Ideal) x0 x2 x3 x4 x5 = fun _ => Cert.MMD.pairSum (N := 8192) (val_main_v8 (F := Ideal) x0 x2 x3 x4 x5) (val_main_v8 (F := Ideal) x0 x2 x3 x4 x5) := by
  funext i
  rw [val_main_v38_apply, val_main_cst_4_apply, sum_idx2]
  simp only [kern_AA, Ideal.ofBits_def, Ideal.ofBits_zero_f32, zero_add]
  rfl

/-! ### The BB pair sum -/

/-- One entry of the kernel matrix: the reduce-add, broadcast, product-against-the-transpose, clamp, negate, halve,
    exponential chain at row `a`, column `b` is the Gaussian kernel of row `a` of the left array and row `b` of the right. -/
theorem kern_BB (x1 : (⟨S8192x512, .f32⟩ : BufTy).Contents (Elt Ideal)) (x6 : (⟨S512x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (a b : Fin 8192) :
    val_main_v59 (F := Ideal) x1 x6 x7 x8 x9 (ix2 a b)
      = Cert.MMD.gauss (fun k => val_main_v17 (F := Ideal) x1 x6 x7 x8 x9 (ix2 a k)) (fun k => val_main_v17 (F := Ideal) x1 x6 x7 x8 x9 (ix2 b k)) := by
  have e1 : ∀ k : Fin 64, idx_main_v41 (idx_main_v42 (idx_main_v46 (ix2 a b))) k = ix2 a k := fun k => funext fun d => by
    match d with | ⟨0, _⟩ => rfl | ⟨1, _⟩ => rfl
  have e2 : ∀ k : Fin 64, idx_main_v44 (idx_main_v45 (idx_main_v47 (ix2 a b))) k = ix2 b k := fun k => funext fun d => by
    match d with | ⟨0, _⟩ => rfl | ⟨1, _⟩ => rfl
  have e3 : ∀ k : Fin 64, lidx_main_v50 (ix2 a b) k = ix2 a k := fun k => funext fun d => by
    match d with | ⟨0, _⟩ => rfl | ⟨1, _⟩ => rfl
  have e4 : ∀ k : Fin 64, idx_main_v49 (ridx_main_v50 (ix2 a b) k) = ix2 b k := fun k => funext fun d => by
    match d with | ⟨0, _⟩ => rfl | ⟨1, _⟩ => rfl
  simp only [val_main_v59_apply, val_main_v58_apply, val_main_v56_apply, val_main_v55_apply, val_main_v53_apply, val_main_v48_apply, val_main_v46_apply, val_main_v42_apply, val_main_v41_apply, val_main_v40_apply, val_main_v47_apply, val_main_v45_apply, val_main_v44_apply, val_main_v43_apply, val_main_v52_apply, val_main_v51_apply, val_main_v50_apply, val_main_v49_apply, val_main_v54_apply, val_main_v57_apply, val_main_cst_6_apply, val_main_cst_7_apply, val_main_cst_8_apply, val_main_cst_9_apply, val_main_cst_10_apply,
    e1, e2, e3, e4, Ideal.hostUnary_exp_def, Ideal.hostNegf_def, Ideal.negf_def, Ideal.mulf_def, Ideal.maximumf_def, Ideal.subf_def,
    Ideal.addf_def, Ideal.ofBits_def, Ideal.ofBits_zero_f32, zero_add]
  rfl

/-- The sum of the kernel matrix over both axes is the specification's pair sum. -/
theorem pair_BB (x1 : (⟨S8192x512, .f32⟩ : BufTy).Contents (Elt Ideal)) (x6 : (⟨S512x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v60 (F := Ideal) x1 x6 x7 x8 x9 = fun _ => Cert.MMD.pairSum (N := 8192) (val_main_v17 (F := Ideal) x1 x6 x7 x8 x9) (val_main_v17 (F := Ideal) x1 x6 x7 x8 x9) := by
  funext i
  rw [val_main_v60_apply, val_main_cst_11_apply, sum_idx2]
  simp only [kern_BB, Ideal.ofBits_def, Ideal.ofBits_zero_f32, zero_add]
  rfl

/-! ### The AB pair sum -/

/-- One entry of the kernel matrix: the reduce-add, broadcast, product-against-the-transpose, clamp, negate, halve,
    exponential chain at row `a`, column `b` is the Gaussian kernel of row `a` of the left array and row `b` of the right. -/
theorem kern_AB (x0 : (⟨S8192x512, .f32⟩ : BufTy).Contents (Elt Ideal)) (x1 : (⟨S8192x512, .f32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S512x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (a b : Fin 8192) :
    val_main_v81 (F := Ideal) x0 x1 x2 x3 x4 x5 x6 x7 x8 x9 (ix2 a b)
      = Cert.MMD.gauss (fun k => val_main_v8 (F := Ideal) x0 x2 x3 x4 x5 (ix2 a k)) (fun k => val_main_v17 (F := Ideal) x1 x6 x7 x8 x9 (ix2 b k)) := by
  have e1 : ∀ k : Fin 64, idx_main_v63 (idx_main_v64 (idx_main_v68 (ix2 a b))) k = ix2 a k := fun k => funext fun d => by
    match d with | ⟨0, _⟩ => rfl | ⟨1, _⟩ => rfl
  have e2 : ∀ k : Fin 64, idx_main_v66 (idx_main_v67 (idx_main_v69 (ix2 a b))) k = ix2 b k := fun k => funext fun d => by
    match d with | ⟨0, _⟩ => rfl | ⟨1, _⟩ => rfl
  have e3 : ∀ k : Fin 64, lidx_main_v72 (ix2 a b) k = ix2 a k := fun k => funext fun d => by
    match d with | ⟨0, _⟩ => rfl | ⟨1, _⟩ => rfl
  have e4 : ∀ k : Fin 64, idx_main_v71 (ridx_main_v72 (ix2 a b) k) = ix2 b k := fun k => funext fun d => by
    match d with | ⟨0, _⟩ => rfl | ⟨1, _⟩ => rfl
  simp only [val_main_v81_apply, val_main_v80_apply, val_main_v78_apply, val_main_v77_apply, val_main_v75_apply, val_main_v70_apply, val_main_v68_apply, val_main_v64_apply, val_main_v63_apply, val_main_v62_apply, val_main_v69_apply, val_main_v67_apply, val_main_v66_apply, val_main_v65_apply, val_main_v74_apply, val_main_v73_apply, val_main_v72_apply, val_main_v71_apply, val_main_v76_apply, val_main_v79_apply, val_main_cst_13_apply, val_main_cst_14_apply, val_main_cst_15_apply, val_main_cst_16_apply, val_main_cst_17_apply,
    e1, e2, e3, e4, Ideal.hostUnary_exp_def, Ideal.hostNegf_def, Ideal.negf_def, Ideal.mulf_def, Ideal.maximumf_def, Ideal.subf_def,
    Ideal.addf_def, Ideal.ofBits_def, Ideal.ofBits_zero_f32, zero_add]
  rfl

/-- The sum of the kernel matrix over both axes is the specification's pair sum. -/
theorem pair_AB (x0 : (⟨S8192x512, .f32⟩ : BufTy).Contents (Elt Ideal)) (x1 : (⟨S8192x512, .f32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S512x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v82 (F := Ideal) x0 x1 x2 x3 x4 x5 x6 x7 x8 x9 = fun _ => Cert.MMD.pairSum (N := 8192) (val_main_v8 (F := Ideal) x0 x2 x3 x4 x5) (val_main_v17 (F := Ideal) x1 x6 x7 x8 x9) := by
  funext i
  rw [val_main_v82_apply, val_main_cst_18_apply, sum_idx2]
  simp only [kern_AB, Ideal.ofBits_def, Ideal.ofBits_zero_f32, zero_add]
  rfl

end Cert.MMDRef

end
-- ==== Proof.RefRun.lean ====
import proofs.«105377_j36833639530798_1_alg».proof.Proof.RefProj
import proofs.«105377_j36833639530798_1_alg».proof.Proof.RefPair

noncomputable section

open scoped BigOperators

namespace Cert.MMDRef

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The scalar result: the two self means added, less twice the cross mean, of the three pair sums of the two projected
    arrays. -/
theorem loss_eq (x0 : (⟨S8192x512, .f32⟩ : BufTy).Contents (Elt Ideal)) (x1 : (⟨S8192x512, .f32⟩ : BufTy).Contents (Elt Ideal)) (x2 : (⟨S512x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S512x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v86 (F := Ideal) x0 x1 x2 x3 x4 x5 x6 x7 x8 x9
      = fun _ => Cert.MMD.loss
          (Cert.MMD.pairSum (N := 8192) (Cert.MMD.proj (N := 8192) (D := 512) x0 x2 x3 x4 x5) (Cert.MMD.proj (N := 8192) (D := 512) x0 x2 x3 x4 x5))
          (Cert.MMD.pairSum (N := 8192) (Cert.MMD.proj (N := 8192) (D := 512) x1 x6 x7 x8 x9) (Cert.MMD.proj (N := 8192) (D := 512) x1 x6 x7 x8 x9))
          (Cert.MMD.pairSum (N := 8192) (Cert.MMD.proj (N := 8192) (D := 512) x0 x2 x3 x4 x5) (Cert.MMD.proj (N := 8192) (D := 512) x1 x6 x7 x8 x9)) := by
  funext i
  rw [val_main_v86_apply, val_main_v84_apply, val_main_v85_apply, val_main_v39_apply, val_main_v61_apply, val_main_v83_apply,
    val_main_cst_20_apply, val_main_cst_5_apply, val_main_cst_12_apply, val_main_cst_19_apply,
    pair_AA, pair_BB, pair_AB, proj_A, proj_B]
  simp only [Ideal.subf_def, Ideal.addf_def, Ideal.mulf_def, Ideal.hostDivf_def, Ideal.ofBits_def]
  rfl

/-- The first projected array, from the launch contents of the arguments. -/
abbrev MA (m : (ℓ : Loc nD τ sig) → Buf (Elt Ideal) ℓ) (c : Dev nD) : (⟨S8192x64, .f32⟩ : BufTy).Contents (Elt Ideal) :=
  Cert.MMD.proj (N := 8192) (D := 512) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))

/-- The second projected array, from the launch contents of the arguments. -/
abbrev MB (m : (ℓ : Loc nD τ sig) → Buf (Elt Ideal) ℓ) (c : Dev nD) : (⟨S8192x64, .f32⟩ : BufTy).Contents (Elt Ideal) :=
  Cert.MMD.proj (N := 8192) (D := 512) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))

/-- Every weakly fair execution of the reference terminates with the scalar result at the discrepancy of the two
    projected arrays, the two projected arrays at the two-layer map of their arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86) = (fun _ => Cert.MMD.loss (Cert.MMD.pairSum (MA m c) (MA m c)) (Cert.MMD.pairSum (MB m c) (MB m c)) (Cert.MMD.pairSum (MA m c) (MB m c)))
      ∧ r.2.mem ((c.tc : Thread nD τ).loc main_v8) = MA m c
      ∧ r.2.mem ((c.tc : Thread nD τ).loc main_v17) = MB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c =>
    ⟨(h c).1.trans ((val_main_v86_eq m c).trans (loss_eq _ _ _ _ _ _ _ _ _ _)),
      (h c).2.1.trans ((val_main_v8_eq _ _ _ _ _).trans (proj_A _ _ _ _ _)),
      (h c).2.2.1.trans ((val_main_v17_eq _ _ _ _ _).trans (proj_B _ _ _ _ _)),
      (h c).2.2.2⟩)
    (Cert.ReferenceIdeal.Value.run (F := Ideal) m ρ)

end Cert.MMDRef

end
-- ==== Proof.lean ====
/-
  The claim: both kernel programs and the reference run to the end, faulting nowhere, with their argument arrays
  unchanged; the idealization rewrote nothing; and at the extended reals the idealized kernel and the reference, run from
  memories agreeing on the arguments, end with equal results.

  The kernel programs are two row-band passes of the two-layer map and three passes over an 8 x 8 grid of tiles of pairs
  of rows, each keeping a running total in a one-word scratch; their frames come from the run of the nine items of the
  program. At the extended reals each band pass writes the whole array of the map, and each tile pass totals the Gaussian
  kernel over ALL pairs of rows (a sum regrouped tile by tile: associativity and commutativity of the sum only), which is
  what the reference computes in one piece; the closing arithmetic is the same on both sides.
-/
import proofs.«105377_j36833639530798_1_alg».proof.Defs
import proofs.«105377_j36833639530798_1_alg».proof.Proof.Gen.Kernel
import proofs.«105377_j36833639530798_1_alg».proof.Proof.Gen.KernelIdeal
import proofs.«105377_j36833639530798_1_alg».proof.Proof.Gen.ReferenceIdeal
import proofs.«105377_j36833639530798_1_alg».proof.Proof.Gen.Pre_finite_inputs
import proofs.«105377_j36833639530798_1_alg».proof.Proof.K.Frame
import proofs.«105377_j36833639530798_1_alg».proof.Proof.KI.Frame
import proofs.«105377_j36833639530798_1_alg».proof.Proof.KI.Values
import proofs.«105377_j36833639530798_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2.2) (Cert.MMDRef.run m ρ)

/-- The idealized kernel's run with its three results named: the discrepancy of the three pair sums and the two
    feature matrices, all as the specification's functions of the launch contents. -/
theorem kernel_values (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v15)
          = (fun _ => Cert.MMD.loss (Cert.MMD.pairSum (Cert.KernelIdeal.Hand.MA m c) (Cert.KernelIdeal.Hand.MA m c)) (Cert.MMD.pairSum (Cert.KernelIdeal.Hand.MB m c) (Cert.KernelIdeal.Hand.MB m c)) (Cert.MMD.pairSum (Cert.KernelIdeal.Hand.MA m c) (Cert.KernelIdeal.Hand.MB m c)))
      ∧ r.2.mem ((c.tc : Thread Cert.KernelIdeal.nD Cert.KernelIdeal.τ).loc Cert.KernelIdeal.main_v0) = Cert.KernelIdeal.Hand.MA m c
      ∧ r.2.mem ((c.tc : Thread Cert.KernelIdeal.nD Cert.KernelIdeal.τ).loc Cert.KernelIdeal.main_v1) = Cert.KernelIdeal.Hand.MB m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun r h c =>
    ⟨(h c _ (Cert.KernelIdeal.Hand.mem_uc Cert.KernelIdeal.main_v15 (by decide))).trans (Cert.KernelIdeal.Hand.W9_loss m ρ c),
     (h c _ (Cert.KernelIdeal.Hand.mem_uc Cert.KernelIdeal.main_v0 (by decide))).trans (Cert.KernelIdeal.Hand.W9_v0 m ρ c),
     (h c _ (Cert.KernelIdeal.Hand.mem_uc Cert.KernelIdeal.main_v1 (by decide))).trans (Cert.KernelIdeal.Hand.W9_v1 m ρ c),
     (h c _ (Cert.KernelIdeal.Hand.mem_uc Cert.KernelIdeal.main_arg0 (by decide))).trans (Cert.KernelIdeal.Hand.W9_main_arg0 m ρ c),
     (h c _ (Cert.KernelIdeal.Hand.mem_uc Cert.KernelIdeal.main_arg1 (by decide))).trans (Cert.KernelIdeal.Hand.W9_main_arg1 m ρ c),
     (h c _ (Cert.KernelIdeal.Hand.mem_uc Cert.KernelIdeal.main_arg2 (by decide))).trans (Cert.KernelIdeal.Hand.W9_main_arg2 m ρ c),
     (h c _ (Cert.KernelIdeal.Hand.mem_uc Cert.KernelIdeal.main_arg3 (by decide))).trans (Cert.KernelIdeal.Hand.W9_main_arg3 m ρ c),
     (h c _ (Cert.KernelIdeal.Hand.mem_uc Cert.KernelIdeal.main_arg4 (by decide))).trans (Cert.KernelIdeal.Hand.W9_main_arg4 m ρ c),
     (h c _ (Cert.KernelIdeal.Hand.mem_uc Cert.KernelIdeal.main_arg5 (by decide))).trans (Cert.KernelIdeal.Hand.W9_main_arg5 m ρ c),
     (h c _ (Cert.KernelIdeal.Hand.mem_uc Cert.KernelIdeal.main_arg6 (by decide))).trans (Cert.KernelIdeal.Hand.W9_main_arg6 m ρ c),
     (h c _ (Cert.KernelIdeal.Hand.mem_uc Cert.KernelIdeal.main_arg7 (by decide))).trans (Cert.KernelIdeal.Hand.W9_main_arg7 m ρ c),
     (h c _ (Cert.KernelIdeal.Hand.mem_uc Cert.KernelIdeal.main_arg8 (by decide))).trans (Cert.KernelIdeal.Hand.W9_main_arg8 m ρ c),
     (h c _ (Cert.KernelIdeal.Hand.mem_uc Cert.KernelIdeal.main_arg9 (by decide))).trans (Cert.KernelIdeal.Hand.W9_main_arg9 m ρ c)⟩)
    (Cert.KernelIdeal.Hand.run_main (F := Ideal) m ρ)

/-- At the extended reals both programs end at the specification's functions of arguments that agree. -/
theorem algebraic : Cert.algebraic_KernelIdeal_ReferenceIdeal := by
  intro m ρ m' ρ' _ hagree
  refine ⟨_, _, _, kernel_values m ρ, ?_⟩
  refine (θ_run Cert.ReferenceIdeal.defs _ _).mono (fun _ h c => ?_) (Cert.MMDRef.run m' ρ')
  obtain ⟨h0, h1, h2, h3, h4, h5, h6, h7, h8, h9⟩ := hagree c
  refine ⟨(h c).1.trans ?_, (h c).2.1.trans ?_, (h c).2.2.1.trans ?_, (h c).2.2.2⟩
  · show (fun _ => Cert.MMD.loss _ _ _) = (fun _ => Cert.MMD.loss _ _ _)
    unfold Cert.MMDRef.MA Cert.MMDRef.MB Cert.KernelIdeal.Hand.MA Cert.KernelIdeal.Hand.MB
    rw [h0, h1, h2, h3, h4, h5, h6, h7, h8, h9]
  · unfold Cert.MMDRef.MA Cert.KernelIdeal.Hand.MA
    rw [h0, h2, h3, h4, h5]
  · unfold Cert.MMDRef.MB Cert.KernelIdeal.Hand.MB
    rw [h1, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
